-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x7 : Shape := ⟨2, ![128, 7]⟩
abbrev S7 : Shape := ⟨1, ![7]⟩
abbrev S2x1600000 : Shape := ⟨2, ![2, 1600000]⟩
abbrev S100000 : Shape := ⟨1, ![100000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x7 : S_.BroadcastsInDim S128x7 (![] : Fin 0 → Fin S128x7.rank)
  reducesTo_S128x7_S_d0_1 : S128x7.ReducesTo [0, 1] S_
  bcast_S_S7 : S_.BroadcastsInDim S7 (![] : Fin 0 → Fin S7.rank)
  reducesTo_S7_S_d0 : S7.ReducesTo [0] S_

variable [Facts]

def fn_part4 {F : FTy → Type} [FloatOps F] (main_arg14 : FVec F S7 .f32) (main_v63 : IVec S_ 1) (main_v67 : IVec S_ 1) : IVec S_ 1 :=
  let main_v68 : IVec S_ 1 := andi main_v63 main_v67
  let main_v69 : FVec F S7 .f32 := Host.absf main_arg14
  let main_cst_26 : FVec F S_ .f32 := constant S_ .f32 0x7F800000#32
  let main_v70 : FVec F S7 .f32 := broadcastInDim S7 ![] bcast_S_S7 main_cst_26
  let main_v71 : IVec S7 1 := cmpf .olt main_v69 main_v70
  let main_c_27 : IVec S_ 1 := constantI S_ 1 1#1
  let main_v72 : IVec S_ 1 := (fun x v => Host.reduce IntOp.andi x v reducesTo_S7_S_d0 h_S_) main_v71 main_c_27
  let main_v73 : IVec S_ 1 := andi main_v68 main_v72
  main_v73

def fn_part3 {F : FTy → Type} [FloatOps F] (main_arg11 : FVec F S128 .f32) (main_arg12 : FVec F S128 .f32) (main_arg13 : FVec F S128x7 .f32) (main_arg14 : FVec F S7 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x7 .f32 := Host.absf main_arg13
  let main_cst_24 : FVec F S_ .f32 := constant S_ .f32 0x7F800000#32
  let main_v65 : FVec F S128x7 .f32 := broadcastInDim S128x7 ![] bcast_S_S128x7 main_cst_24
  let main_v66 : IVec S128x7 1 := cmpf .olt main_v64 main_v65
  let main_c_25 : IVec S_ 1 := constantI S_ 1 1#1
  let main_v67 : IVec S_ 1 := (fun x v => Host.reduce IntOp.andi x v reducesTo_S128x7_S_d0_1 h_S_) main_v66 main_c_25
  fn_part4 (F := F) main_arg14 main_v63 main_v67

def fn_part2 {F : FTy → Type} [FloatOps F] (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128x7 .f32) (main_arg14 : FVec F S7 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_v48 main_v49 main_v50

def fn_part1 {F : FTy → Type} [FloatOps F] (main_arg4 : FVec F S128 .f32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128x7 .f32) (main_arg14 : FVec F S7 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S100000x128 .f32) (main_arg1 : FVec F S128x128 .f32) (main_arg2 : FVec F S128 .f32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128x128 .f32) (main_arg10 : FVec F S128 .f32) (main_arg11 : FVec F S128 .f32) (main_arg12 : FVec F S128 .f32) (main_arg13 : FVec F S128x7 .f32) (main_arg14 : FVec F S7 .f32) (main_arg15 : IVec S2x1600000 32) (main_arg16 : IVec S100000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S100000x128 : Shape := ⟨2, ![100000, 128]⟩
abbrev S128x128 : Shape := ⟨2, ![128, 128]⟩
abbrev S128 : Shape := ⟨1, ![128]⟩
abbrev S128x7 : Shape := ⟨2, ![128, 7]⟩
abbrev S7 : Shape := ⟨1, ![7]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S4000x128 : Shape := ⟨2, ![4000, 128]⟩
abbrev S256x128 : Shape := ⟨2, ![256, 128]⟩
abbrev S100000x1 : Shape := ⟨2, ![100000, 1]⟩
abbrev S256 : Shape := ⟨1, ![256]⟩
abbrev S256x1 : Shape := ⟨2, ![256, 1]⟩
abbrev S256x7 : Shape := ⟨2, ![256, 7]⟩
abbrev S1x7 : Shape := ⟨2, ![1, 7]⟩

abbrev nBuf : Space → Nat
  | .hbm => 132
  | .vmem => 36
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128, .f32⟩
  | 13 => ⟨S128x7, .f32⟩
  | 14 => ⟨S7, .f32⟩
  | 15 => ⟨S2x1600000, .i32⟩
  | 16 => ⟨S100000, .i32⟩
  | 17 => ⟨S1x1600000, .i32⟩
  | 18 => ⟨S1600000, .i32⟩
  | 19 => ⟨S1x1600000, .i32⟩
  | 20 => ⟨S1600000, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x128, .f32⟩
  | 30 => ⟨S_, .f32⟩
  | 31 => ⟨S100000x128, .f32⟩
  | 32 => ⟨S1600000x1, .i32⟩
  | 33 => ⟨S100000x128, .f32⟩
  | 34 => ⟨S128x128, .bf16⟩
  | 35 => ⟨S128x128, .bf16⟩
  | 36 => ⟨S1x128, .f32⟩
  | 37 => ⟨S1x128, .f32⟩
  | 38 => ⟨S100000x128, .f32⟩
  | 39 => ⟨S1x128, .f32⟩
  | 40 => ⟨S1x128, .f32⟩
  | 41 => ⟨S_, .f32⟩
  | 42 => ⟨S1x128, .f32⟩
  | 43 => ⟨S1x128, .f32⟩
  | 44 => ⟨S_, .f32⟩
  | 45 => ⟨S1x128, .f32⟩
  | 46 => ⟨S1x128, .f32⟩
  | 47 => ⟨S1x128, .f32⟩
  | 48 => ⟨S1x128, .f32⟩
  | 49 => ⟨S1x128, .f32⟩
  | 50 => ⟨S_, .f32⟩
  | 51 => ⟨S1x128, .f32⟩
  | 52 => ⟨S1x128, .f32⟩
  | 53 => ⟨S1x128, .f32⟩
  | 54 => ⟨S1x128, .f32⟩
  | 55 => ⟨S1x128, .f32⟩
  | 56 => ⟨S1x128, .f32⟩
  | 57 => ⟨S1x128, .f32⟩
  | 58 => ⟨S100000x128, .f32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x128, .f32⟩
  | 68 => ⟨S_, .f32⟩
  | 69 => ⟨S100000x128, .f32⟩
  | 70 => ⟨S1600000x1, .i32⟩
  | 71 => ⟨S100000x128, .f32⟩
  | 72 => ⟨S128x128, .bf16⟩
  | 73 => ⟨S128x128, .bf16⟩
  | 74 => ⟨S1x128, .f32⟩
  | 75 => ⟨S1x128, .f32⟩
  | 76 => ⟨S100000x128, .f32⟩
  | 77 => ⟨S1x128, .f32⟩
  | 78 => ⟨S1x128, .f32⟩
  | 79 => ⟨S_, .f32⟩
  | 80 => ⟨S1x128, .f32⟩
  | 81 => ⟨S1x128, .f32⟩
  | 82 => ⟨S_, .f32⟩
  | 83 => ⟨S1x128, .f32⟩
  | 84 => ⟨S1x128, .f32⟩
  | 85 => ⟨S1x128, .f32⟩
  | 86 => ⟨S1x128, .f32⟩
  | 87 => ⟨S1x128, .f32⟩
  | 88 => ⟨S_, .f32⟩
  | 89 => ⟨S1x128, .f32⟩
  | 90 => ⟨S1x128, .f32⟩
  | 91 => ⟨S1x128, .f32⟩
  | 92 => ⟨S1x128, .f32⟩
  | 93 => ⟨S1x128, .f32⟩
  | 94 => ⟨S1x128, .f32⟩
  | 95 => ⟨S1x128, .f32⟩
  | 96 => ⟨S100000x128, .f32⟩
  | 97 => ⟨S_, .f32⟩
  | 98 => ⟨S256x128, .f32⟩
  | 99 => ⟨S100000x1, .i32⟩
  | 100 => ⟨S256x128, .f32⟩
  | 101 => ⟨S_, .f32⟩
  | 102 => ⟨S100000, .f32⟩
  | 103 => ⟨S_, .f32⟩
  | 104 => ⟨S256, .f32⟩
  | 105 => ⟨S100000x1, .i32⟩
  | 106 => ⟨S256, .f32⟩
  | 107 => ⟨S_, .f32⟩
  | 108 => ⟨S256, .f32⟩
  | 109 => ⟨S256, .f32⟩
  | 110 => ⟨S256x1, .f32⟩
  | 111 => ⟨S256x128, .f32⟩
  | 112 => ⟨S256x128, .f32⟩
  | 113 => ⟨S256x7, .f32⟩
  | 114 => ⟨S1x7, .f32⟩
  | 115 => ⟨S256x7, .f32⟩
  | 116 => ⟨S256x7, .f32⟩
  | 117 => ⟨S_, .f32⟩
  | 118 => ⟨S256, .f32⟩
  | 119 => ⟨S_, .f32⟩
  | 120 => ⟨S256, .f32⟩
  | 121 => ⟨S256, .f32⟩
  | 122 => ⟨S256x1, .f32⟩
  | 123 => ⟨S256x7, .f32⟩
  | 124 => ⟨S256x7, .f32⟩
  | 125 => ⟨S256x7, .f32⟩
  | 126 => ⟨S_, .f32⟩
  | 127 => ⟨S256, .f32⟩
  | _ => ⟨S100000x128, .f32⟩

abbrev hbmTy0_1 (i : Nat) : BufTy := match i % 128 with
  | 0 => ⟨S256x1, .f32⟩
  | 1 => ⟨S256x1, .f32⟩
  | 2 => ⟨S256x7, .f32⟩
  | 3 => ⟨S256x7, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .bf16⟩
  | .local _ .vmem, ⟨5, _⟩ => ⟨S1x128, .f32⟩
  | .local _ .vmem, ⟨6, _⟩ => ⟨S128x128, .bf16⟩
  | .local _ .vmem, ⟨7, _⟩ => ⟨S1x128, .f32⟩
  | .local _ .vmem, ⟨8, _⟩ => ⟨S4000x128, .f32⟩
  | .local _ .vmem, ⟨9, _⟩ => ⟨S4000x128, .f32⟩
  | .local _ .vmem, ⟨10, _⟩ => ⟨S1x128, .f32⟩
  | .local _ .vmem, ⟨11, _⟩ => ⟨S1x128, .f32⟩
  | .local _ .vmem, ⟨12, _⟩ => ⟨S4000x128, .f32⟩
  | .local _ .vmem, ⟨13, _⟩ => ⟨S4000x128, .f32⟩
  | .local _ .vmem, ⟨14, _⟩ => ⟨S1x128, .f32⟩
  | .local _ .vmem, ⟨15, _⟩ => ⟨S1x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S4000x128, .f32⟩
  | .local _ .vmem, ⟨21, _⟩ => ⟨S4000x128, .f32⟩
  | .local _ .vmem, ⟨22, _⟩ => ⟨S128x128, .bf16⟩
  | .local _ .vmem, ⟨23, _⟩ => ⟨S1x128, .f32⟩
  | .local _ .vmem, ⟨24, _⟩ => ⟨S128x128, .bf16⟩
  | .local _ .vmem, ⟨25, _⟩ => ⟨S1x128, .f32⟩
  | .local _ .vmem, ⟨26, _⟩ => ⟨S4000x128, .f32⟩
  | .local _ .vmem, ⟨27, _⟩ => ⟨S4000x128, .f32⟩
  | .local _ .vmem, ⟨28, _⟩ => ⟨S1x128, .f32⟩
  | .local _ .vmem, ⟨29, _⟩ => ⟨S1x128, .f32⟩
  | .local _ .vmem, ⟨30, _⟩ => ⟨S4000x128, .f32⟩
  | .local _ .vmem, ⟨31, _⟩ => ⟨S4000x128, .f32⟩
  | .local _ .vmem, ⟨32, _⟩ => ⟨S1x128, .f32⟩
  | .local _ .vmem, ⟨33, _⟩ => ⟨S1x128, .f32⟩
  | .local _ .vmem, ⟨34, _⟩ => ⟨S4000x128, .f32⟩
  | .local _ .vmem, ⟨35, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18_0 : Ref sig .tc := ⟨.hbm, 38, rfl⟩
abbrev main_v18_1 : Ref sig .tc := ⟨.hbm, 39, rfl⟩
abbrev main_v18_2 : Ref sig .tc := ⟨.hbm, 40, rfl⟩
abbrev main_cst_1 : Ref sig .tc := ⟨.hbm, 41, rfl⟩
abbrev main_v19 : Ref sig .tc := ⟨.hbm, 42, rfl⟩
abbrev main_v20 : Ref sig .tc := ⟨.hbm, 43, rfl⟩
abbrev main_cst_2 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_cst_3 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_4 : Ref sig .tc := ⟨.hbm, 59, rfl⟩
abbrev main_v34 : Ref sig .tc := ⟨.hbm, 60, rfl⟩
abbrev main_v35 : Ref sig .tc := ⟨.hbm, 61, rfl⟩
abbrev main_c_5 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48_0 : Ref sig .tc := ⟨.hbm, 76, rfl⟩
abbrev main_v48_1 : Ref sig .tc := ⟨.hbm, 77, rfl⟩
abbrev main_v48_2 : Ref sig .tc := ⟨.hbm, 78, rfl⟩
abbrev main_cst_7 : Ref sig .tc := ⟨.hbm, 79, rfl⟩
abbrev main_v49 : Ref sig .tc := ⟨.hbm, 80, rfl⟩
abbrev main_v50 : Ref sig .tc := ⟨.hbm, 81, rfl⟩
abbrev main_cst_8 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_9 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_10 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_11 : Ref sig .tc := ⟨.hbm, 101, rfl⟩
abbrev main_v67 : Ref sig .tc := ⟨.hbm, 102, rfl⟩
abbrev main_cst_12 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_13 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_call0_cst : Ref sig .tc := ⟨.hbm, 117, rfl⟩
abbrev main_call0_v0 : Ref sig .tc := ⟨.hbm, 118, rfl⟩
abbrev main_call0_cst_0 : Ref sig .tc := ⟨.hbm, 119, rfl⟩
abbrev main_call0_v1 : Ref sig .tc := ⟨.hbm, 120, rfl⟩
abbrev main_call0_v2 : Ref sig .tc := ⟨.hbm, 121, rfl⟩
abbrev main_call0_v3 : Ref sig .tc := ⟨.hbm, 122, rfl⟩
abbrev main_call0_v4 : Ref sig .tc := ⟨.hbm, 123, rfl⟩
abbrev main_call0_v5 : Ref sig .tc := ⟨.hbm, 124, rfl⟩
abbrev main_call0_v6 : Ref sig .tc := ⟨.hbm, 125, rfl⟩
abbrev main_call0_cst_1 : Ref sig .tc := ⟨.hbm, 126, rfl⟩
abbrev main_call0_v7 : Ref sig .tc := ⟨.hbm, 127, rfl⟩
abbrev main_call0_v8 : Ref sig .tc := ⟨.hbm, 128, rfl⟩
abbrev main_call0_v9 : Ref sig .tc := ⟨.hbm, 129, rfl⟩
abbrev main_call0_v10 : Ref sig .tc := ⟨.hbm, 130, rfl⟩
abbrev main_v80 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg8_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27
abbrev cc2_sem7_0 : DmaSem sig := 28
abbrev cc2_sem8_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S4000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S4000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bitsLt_bf16_f32 : FTy.bits .bf16 < FTy.bits .f32
  shapeCasts_S128_S1x128 : S128.ShapeCasts S1x128
  inb_S1x128_S1x128_0_0 : ∀ a, (![0, 0] : Fin 2 → Nat) a + S1x128.size a ≤ S1x128.size a
  h_S1x128 : 0 < S1x128.numel
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S1x128_S1x128 : S1x128.ShapeCasts S1x128
  broadcasts_S1x128_S4000x128 : S1x128.Broadcasts S4000x128
  reduces_S4000x128_S128 : S4000x128.Reduces [0] S128
  bcast_S_S1x128 : S_.BroadcastsInDim S1x128 (![] : Fin 0 → Fin S1x128.rank)
  bcast_S_S256x128 : S_.BroadcastsInDim S256x128 (![] : Fin 0 → Fin S256x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S7_S1x7_1 : S7.BroadcastsInDim S1x7 (![1] : Fin 1 → Fin S1x7.rank)
  bcast_S1x7_S256x7_0_1 : S1x7.BroadcastsInDim S256x7 (![0, 1] : Fin 2 → Fin S256x7.rank)
  reducesTo_S256x7_S256_d1 : S256x7.ReducesTo [1] S256
  h_S_ : 0 < S_.numel
  bcast_S256x1_S256x7_0_1 : S256x1.BroadcastsInDim S256x7 (![0, 1] : Fin 2 → Fin S256x7.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x7_S256x7_1_0_0_1_n_n_wf : DotDims.WF S256x128 S128x7 S256x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .f32 = 32 ∨ (Rect.block (s := S100000x128) S4000x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .bf16 = 32 ∨ (Rect.block (s := S128x128) S128x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .bf16 = 32 ∨ (Rect.block (s := S128x128) S128x128.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S4000x128.size a ≤ S100000x128.size a
  hwx2_6 : ∀ i : grid2.Coords, EltTy.bits .f32 = 32 ∨ (Rect.block (s := S100000x128) S4000x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x128.size a ≤ S1x128.size a
  hwx2_7 : ∀ i : grid2.Coords, EltTy.bits .f32 = 32 ∨ (Rect.block (s := S1x128) S1x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x128.size a ≤ S100000x128.size a
  hwx3_0 : ∀ i : grid3.Coords, EltTy.bits .f32 = 32 ∨ (Rect.block (s := S100000x128) S4000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S4000x128.size a ≤ S100000x128.size a
  hwx3_3 : ∀ i : grid3.Coords, EltTy.bits .f32 = 32 ∨ (Rect.block (s := S100000x128) S4000x128.size (cc3_transform_3 i) (hinb3_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x7_S256x7_1_0_0_1_n_n : DotDims S256x128 S128x7 S256x7 where
  lhsContracting := [1]
  rhsContracting := [0]
  lhsNonContracting := [0]
  rhsNonContracting := [1]
  lhsBatch := []
  rhsBatch := []
  wf := dot_S256x128_S128x7_S256x7_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18_0) S4000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18_1) S1x128.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18_2) S1x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v18_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v33) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v44) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v46) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v45) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v47) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v48_0) S4000x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v48_1) S1x128.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v48_2) S1x128.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v48_0) S4000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v63) S4000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x7 : Shape := ⟨2, ![128, 7]⟩
abbrev S7 : Shape := ⟨1, ![7]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S256x128 : Shape := ⟨2, ![256, 128]⟩
abbrev S100000x1 : Shape := ⟨2, ![100000, 1]⟩
abbrev S256 : Shape := ⟨1, ![256]⟩
abbrev S256x1 : Shape := ⟨2, ![256, 1]⟩
abbrev S256x7 : Shape := ⟨2, ![256, 7]⟩
abbrev S1x7 : Shape := ⟨2, ![1, 7]⟩

abbrev nBuf : Space → Nat
  | .hbm => 172
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128x128, .f32⟩
  | 10 => ⟨S128, .f32⟩
  | 11 => ⟨S128, .f32⟩
  | 12 => ⟨S128, .f32⟩
  | 13 => ⟨S128x7, .f32⟩
  | 14 => ⟨S7, .f32⟩
  | 15 => ⟨S2x1600000, .i32⟩
  | 16 => ⟨S100000, .i32⟩
  | 17 => ⟨S1x1600000, .i32⟩
  | 18 => ⟨S1600000, .i32⟩
  | 19 => ⟨S1x1600000, .i32⟩
  | 20 => ⟨S1600000, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x128, .f32⟩
  | 30 => ⟨S_, .f32⟩
  | 31 => ⟨S100000x128, .f32⟩
  | 32 => ⟨S1600000x1, .i32⟩
  | 33 => ⟨S100000x128, .f32⟩
  | 34 => ⟨S100000x128, .f32⟩
  | 35 => ⟨S100000x128, .f32⟩
  | 36 => ⟨S1x128, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S100000x128, .f32⟩
  | 43 => ⟨S1x128, .f32⟩
  | 44 => ⟨S100000x128, .f32⟩
  | 45 => ⟨S100000x128, .f32⟩
  | 46 => ⟨S_, .f32⟩
  | 47 => ⟨S128, .f32⟩
  | 48 => ⟨S_, .f32⟩
  | 49 => ⟨S128, .f32⟩
  | 50 => ⟨S128, .f32⟩
  | 51 => ⟨S1x128, .f32⟩
  | 52 => ⟨S100000x128, .f32⟩
  | 53 => ⟨S100000x128, .f32⟩
  | 54 => ⟨S100000x128, .f32⟩
  | 55 => ⟨S_, .f32⟩
  | 56 => ⟨S128, .f32⟩
  | 57 => ⟨S_, .f32⟩
  | 58 => ⟨S128, .f32⟩
  | 59 => ⟨S128, .f32⟩
  | 60 => ⟨S1x128, .f32⟩
  | 61 => ⟨S100000x128, .f32⟩
  | 62 => ⟨S100000x128, .f32⟩
  | 63 => ⟨S_, .f32⟩
  | 64 => ⟨S128, .f32⟩
  | 65 => ⟨S128, .f32⟩
  | 66 => ⟨S128, .f32⟩
  | 67 => ⟨S128, .f32⟩
  | 68 => ⟨S1x128, .f32⟩
  | 69 => ⟨S100000x128, .f32⟩
  | 70 => ⟨S100000x128, .f32⟩
  | 71 => ⟨S1x128, .f32⟩
  | 72 => ⟨S100000x128, .f32⟩
  | 73 => ⟨S100000x128, .f32⟩
  | 74 => ⟨S_, .f32⟩
  | 75 => ⟨S100000x128, .f32⟩
  | 76 => ⟨S100000x128, .f32⟩
  | 77 => ⟨S1x1600000, .i32⟩
  | 78 => ⟨S1600000, .i32⟩
  | 79 => ⟨S1x1600000, .i32⟩
  | 80 => ⟨S1600000, .i32⟩
  | 81 => ⟨S_, .i32⟩
  | 82 => ⟨S1600000, .i32⟩
  | 83 => ⟨S1600000, .i1⟩
  | 84 => ⟨S_, .i32⟩
  | 85 => ⟨S1600000, .i32⟩
  | 86 => ⟨S1600000, .i32⟩
  | 87 => ⟨S1600000, .i32⟩
  | 88 => ⟨S1600000x1, .i32⟩
  | 89 => ⟨S1600000x128, .f32⟩
  | 90 => ⟨S_, .f32⟩
  | 91 => ⟨S100000x128, .f32⟩
  | 92 => ⟨S1600000x1, .i32⟩
  | 93 => ⟨S100000x128, .f32⟩
  | 94 => ⟨S100000x128, .f32⟩
  | 95 => ⟨S100000x128, .f32⟩
  | 96 => ⟨S1x128, .f32⟩
  | 97 => ⟨S100000x128, .f32⟩
  | 98 => ⟨S100000x128, .f32⟩
  | 99 => ⟨S_, .f32⟩
  | 100 => ⟨S100000x128, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S_, .f32⟩
  | 107 => ⟨S128, .f32⟩
  | 108 => ⟨S_, .f32⟩
  | 109 => ⟨S128, .f32⟩
  | 110 => ⟨S128, .f32⟩
  | 111 => ⟨S1x128, .f32⟩
  | 112 => ⟨S100000x128, .f32⟩
  | 113 => ⟨S100000x128, .f32⟩
  | 114 => ⟨S100000x128, .f32⟩
  | 115 => ⟨S_, .f32⟩
  | 116 => ⟨S128, .f32⟩
  | 117 => ⟨S_, .f32⟩
  | 118 => ⟨S128, .f32⟩
  | 119 => ⟨S128, .f32⟩
  | 120 => ⟨S1x128, .f32⟩
  | 121 => ⟨S100000x128, .f32⟩
  | 122 => ⟨S100000x128, .f32⟩
  | 123 => ⟨S_, .f32⟩
  | 124 => ⟨S128, .f32⟩
  | 125 => ⟨S128, .f32⟩
  | 126 => ⟨S128, .f32⟩
  | 127 => ⟨S128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S1x128, .f32⟩
  | 4 => ⟨S100000x128, .f32⟩
  | 5 => ⟨S100000x128, .f32⟩
  | 6 => ⟨S_, .f32⟩
  | 7 => ⟨S100000x128, .f32⟩
  | 8 => ⟨S100000x128, .f32⟩
  | 9 => ⟨S_, .f32⟩
  | 10 => ⟨S256x128, .f32⟩
  | 11 => ⟨S100000x1, .i32⟩
  | 12 => ⟨S256x128, .f32⟩
  | 13 => ⟨S_, .f32⟩
  | 14 => ⟨S100000, .f32⟩
  | 15 => ⟨S_, .f32⟩
  | 16 => ⟨S256, .f32⟩
  | 17 => ⟨S100000x1, .i32⟩
  | 18 => ⟨S256, .f32⟩
  | 19 => ⟨S_, .f32⟩
  | 20 => ⟨S256, .f32⟩
  | 21 => ⟨S256, .f32⟩
  | 22 => ⟨S256x1, .f32⟩
  | 23 => ⟨S256x128, .f32⟩
  | 24 => ⟨S256x128, .f32⟩
  | 25 => ⟨S256x7, .f32⟩
  | 26 => ⟨S1x7, .f32⟩
  | 27 => ⟨S256x7, .f32⟩
  | 28 => ⟨S256x7, .f32⟩
  | 29 => ⟨S_, .f32⟩
  | 30 => ⟨S256, .f32⟩
  | 31 => ⟨S_, .f32⟩
  | 32 => ⟨S256, .f32⟩
  | 33 => ⟨S256, .f32⟩
  | 34 => ⟨S256x1, .f32⟩
  | 35 => ⟨S256x7, .f32⟩
  | 36 => ⟨S256x7, .f32⟩
  | 37 => ⟨S256x7, .f32⟩
  | 38 => ⟨S_, .f32⟩
  | 39 => ⟨S256, .f32⟩
  | 40 => ⟨S256x1, .f32⟩
  | 41 => ⟨S256x1, .f32⟩
  | 42 => ⟨S256x7, .f32⟩
  | 43 => ⟨S256x7, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_2 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_cst_5 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_7 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_c_8 : Ref sig .tc := ⟨.hbm, 81, rfl⟩
abbrev main_v54 : Ref sig .tc := ⟨.hbm, 82, rfl⟩
abbrev main_v55 : Ref sig .tc := ⟨.hbm, 83, rfl⟩
abbrev main_c_9 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_10 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_11 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_12 : Ref sig .tc := ⟨.hbm, 106, rfl⟩
abbrev main_v75 : Ref sig .tc := ⟨.hbm, 107, rfl⟩
abbrev main_cst_13 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_14 : Ref sig .tc := ⟨.hbm, 115, rfl⟩
abbrev main_v82 : Ref sig .tc := ⟨.hbm, 116, rfl⟩
abbrev main_cst_15 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_cst_16 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_17 : Ref sig .tc := ⟨.hbm, 134, rfl⟩
abbrev main_v98 : Ref sig .tc := ⟨.hbm, 135, rfl⟩
abbrev main_v99 : Ref sig .tc := ⟨.hbm, 136, rfl⟩
abbrev main_cst_18 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_19 : Ref sig .tc := ⟨.hbm, 141, rfl⟩
abbrev main_v103 : Ref sig .tc := ⟨.hbm, 142, rfl⟩
abbrev main_cst_20 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_21 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_call0_cst : Ref sig .tc := ⟨.hbm, 157, rfl⟩
abbrev main_call0_v0 : Ref sig .tc := ⟨.hbm, 158, rfl⟩
abbrev main_call0_cst_0 : Ref sig .tc := ⟨.hbm, 159, rfl⟩
abbrev main_call0_v1 : Ref sig .tc := ⟨.hbm, 160, rfl⟩
abbrev main_call0_v2 : Ref sig .tc := ⟨.hbm, 161, rfl⟩
abbrev main_call0_v3 : Ref sig .tc := ⟨.hbm, 162, rfl⟩
abbrev main_call0_v4 : Ref sig .tc := ⟨.hbm, 163, rfl⟩
abbrev main_call0_v5 : Ref sig .tc := ⟨.hbm, 164, rfl⟩
abbrev main_call0_v6 : Ref sig .tc := ⟨.hbm, 165, rfl⟩
abbrev main_call0_cst_1 : Ref sig .tc := ⟨.hbm, 166, rfl⟩
abbrev main_call0_v7 : Ref sig .tc := ⟨.hbm, 167, rfl⟩
abbrev main_call0_v8 : Ref sig .tc := ⟨.hbm, 168, rfl⟩
abbrev main_call0_v9 : Ref sig .tc := ⟨.hbm, 169, rfl⟩
abbrev main_call0_v10 : Ref sig .tc := ⟨.hbm, 170, rfl⟩
abbrev main_v116 : Ref sig .tc := ⟨.hbm, 171, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S256x128 : S_.BroadcastsInDim S256x128 (![] : Fin 0 → Fin S256x128.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x128_0_1 : S256x1.BroadcastsInDim S256x128 (![0, 1] : Fin 2 → Fin S256x128.rank)
  bcast_S7_S1x7_1 : S7.BroadcastsInDim S1x7 (![1] : Fin 1 → Fin S1x7.rank)
  bcast_S1x7_S256x7_0_1 : S1x7.BroadcastsInDim S256x7 (![0, 1] : Fin 2 → Fin S256x7.rank)
  reducesTo_S256x7_S256_d1 : S256x7.ReducesTo [1] S256
  bcast_S256x1_S256x7_0_1 : S256x1.BroadcastsInDim S256x7 (![0, 1] : Fin 2 → Fin S256x7.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S256x128_S100000x1_S100000x128_1_0_0_1_wf : ScatterDims.WF S256x128 S100000x1 S100000x128 [1] [0] [0] 1
  scatter_S256_S100000x1_S100000_n_0_0_1_wf : ScatterDims.WF S256 S100000x1 S100000 [] [0] [0] 1
  dot_S256x128_S128x7_S256x7_1_0_0_1_n_n_wf : DotDims.WF S256x128 S128x7 S256x7 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S256x128_S100000x1_S100000x128_1_0_0_1 : ScatterDims S256x128 S100000x1 S100000x128 where
  updateWindowDims := [1]
  insertedWindowDims := [0]
  scatterDimsToOperandDims := [0]
  indexVectorDim := 1
  wf := scatter_S256x128_S100000x1_S100000x128_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x128_S128x7_S256x7_1_0_0_1_n_n : DotDims S256x128 S128x7 S256x7 where
  lhsContracting := [1]
  rhsContracting := [0]
  lhsNonContracting := [0]
  rhsNonContracting := [1]
  lhsBatch := []
  rhsBatch := []
  wf := dot_S256x128_S128x7_S256x7_1_0_0_1_n_n_wf

class Facts : Prop extends Facts₀ where

variable [Facts]
-- ==== Proof.KernelRun.lean ====
/-
  The run of the idealized kernel program with its result kept.

  The program's entry function is ten segments: stretches of host operations alternating with four pipelined
  regions.  Every weakly fair run of it from a memory with zero counters terminates, and in its final state every
  unscoped buffer holds the fold of the segments' contents from the launch memory.  The frame statement keeps, of
  that final state, only the seventeen argument arrays (each read back through the fold to its launch contents).
  Here the result buffer is kept as well: it ends at the fold's value at the result's reference.
-/
import proofs.«148986_j16054587752866_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch lemma's implicit arguments are found by unifying its conclusion with this one, which takes unfolding
-- plain definitions in a metavariable's type
set_option backward.isDefEq.respectTransparency.types false in
/-- At the compiled mesh, from any memory with zero counters, every weakly fair execution of the entry function on
    the TensorCores terminates, nothing faulting, and every final state has the result buffer at the last boundary's
    contents (the fold of the ten segments from the launch memory, read at the result's reference) and the seventeen
    argument arrays as launched. -/
theorem run_value : θ_run defs (onTc (τ := τ) (main (F := F))) ⟨m, fun _ => 0, ρ⟩ (fun r => ∀ c : Dev nD,
      r.2.mem ((c.tc : Thread nD τ).loc main_v80) = Gen.W10 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) Gen.adm (Gen.pdats m ρ) () Gen.cellOf_inj emb₁ defs₀ Gen.𝒱₀ Gen.L Gen.lv m ρ main (Gen.segs m ρ)
    (fun c Q => by rw [Gen.main_run m ρ c])
    (by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, Gen.hseg, Pipeline.HostSeg.ofOps]
      iintro ⟨Hh, Hp, HO⟩
      isplitl [Hh Hp]
      · isplitl [Hh]; · iexact Hh
        iexact Hp
      iexact HO⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (Gen.W10 m ρ c) s')
      isplitl [Hh] <;> iassumption)
    (hQ := fun s h c =>
      ⟨h c _ (Gen.mem_uc main_v80 (by decide)),
       (h c _ (Gen.mem_uc main_arg0 (by decide))).trans (Gen.W10_main_arg0 m ρ c),
       (h c _ (Gen.mem_uc main_arg1 (by decide))).trans (Gen.W10_main_arg1 m ρ c),
       (h c _ (Gen.mem_uc main_arg2 (by decide))).trans (Gen.W10_main_arg2 m ρ c),
       (h c _ (Gen.mem_uc main_arg3 (by decide))).trans (Gen.W10_main_arg3 m ρ c),
       (h c _ (Gen.mem_uc main_arg4 (by decide))).trans (Gen.W10_main_arg4 m ρ c),
       (h c _ (Gen.mem_uc main_arg5 (by decide))).trans (Gen.W10_main_arg5 m ρ c),
       (h c _ (Gen.mem_uc main_arg6 (by decide))).trans (Gen.W10_main_arg6 m ρ c),
       (h c _ (Gen.mem_uc main_arg7 (by decide))).trans (Gen.W10_main_arg7 m ρ c),
       (h c _ (Gen.mem_uc main_arg8 (by decide))).trans (Gen.W10_main_arg8 m ρ c),
       (h c _ (Gen.mem_uc main_arg9 (by decide))).trans (Gen.W10_main_arg9 m ρ c),
       (h c _ (Gen.mem_uc main_arg10 (by decide))).trans (Gen.W10_main_arg10 m ρ c),
       (h c _ (Gen.mem_uc main_arg11 (by decide))).trans (Gen.W10_main_arg11 m ρ c),
       (h c _ (Gen.mem_uc main_arg12 (by decide))).trans (Gen.W10_main_arg12 m ρ c),
       (h c _ (Gen.mem_uc main_arg13 (by decide))).trans (Gen.W10_main_arg13 m ρ c),
       (h c _ (Gen.mem_uc main_arg14 (by decide))).trans (Gen.W10_main_arg14 m ρ c),
       (h c _ (Gen.mem_uc main_arg15 (by decide))).trans (Gen.W10_main_arg15 m ρ c),
       (h c _ (Gen.mem_uc main_arg16 (by decide))).trans (Gen.W10_main_arg16 m ρ c)⟩)

end Cert.KernelIdeal.RunValue

end
-- ==== Proof.Basic.lean ====
/-
  An extended real is called real here when it is neither infinity.  Every law that moves a factor across a
  sum, or cancels a term, is stated for such values only.
-/
import Mathlib.Data.EReal.Basic

namespace Cert.Laws

/-- `x` is the image of a real number. -/
def IsReal (x : EReal) : Prop := ∃ r : ℝ, x = (r : EReal)

theorem IsReal.coe (r : ℝ) : IsReal (r : EReal) := ⟨r, rfl⟩

theorem isReal_iff (x : EReal) : IsReal x ↔ x ≠ ⊥ ∧ x ≠ ⊤ := by
  constructor
  · rintro ⟨r, rfl⟩; exact ⟨EReal.coe_ne_bot r, EReal.coe_ne_top r⟩
  · rintro ⟨hb, ht⟩; exact ⟨x.toReal, (EReal.coe_toReal ht hb).symm⟩

end Cert.Laws
-- ==== Proof.RefSideAt.lean ====
/-
  The reference program as a composition of four maps.

  The program is two identical layers followed by a pooling tail.  A layer is
    agg  : the sum, over the edges that end in a node, of the rows of the edges' start nodes,
    pre  : (max ((X + A)·wa + ba) 0)·wb + bb,
    norm : max ((H − mean)·(g / sqrt (var + eps)) + be) 0, mean and var taken down each column,
  and the tail is the per-graph mean of the rows, an affine map and a log-softmax along each row.
  Each map is written here with the program's own operations, so that the program's composed result is,
  by unfolding, the composition of the four maps.  This module defines the maps, reads the perceptron and the
  normalisation at an index, and shows that aggregation keeps real values real.
-/
import proofs.«148986_j16054587752866_1_alg».proof.Proof.Gen.ReferenceIdeal
import proofs.«148986_j16054587752866_1_alg».proof.Proof.Basic
import Idealize.ShloMosaic.Lib.ValueIdx
import Idealize.ShloMosaic.Lib.ValueLayout
import Idealize.ShloMosaic.Lib.Pipeline.Value
import Idealize.ShloMosaic.PureOps.Ideal.Laws

noncomputable section

namespace Cert.RefSide

open Cert.ReferenceIdeal Cert.ReferenceIdeal.Gen Idealize.ShloMosaic Idealize.ShloMosaic.TcCoe Idealize.SL.Sem Idealize.ShloMosaic.StableHlo
open Idealize.ShloMosaic.ValueIdx (ix1 ix2)
open Cert.Laws (IsReal)

/-! ## The four maps -/

/-- The edge list's first row: the start node of every edge. -/
def srcRow (E : (⟨S2x1600000, .i32⟩ : BufTy).Contents (Elt Ideal)) : (⟨S1600000, .i32⟩ : BufTy).Contents (Elt Ideal) :=
  shapeCast _ (extractStridedSlice S1x1600000 ![0, 0] E slices_S2x1600000_S1x1600000_0_0) shapeCasts_S1x1600000_S1600000

/-- The edge list's second row: the end node of every edge. -/
def dstRow (E : (⟨S2x1600000, .i32⟩ : BufTy).Contents (Elt Ideal)) : (⟨S1600000, .i32⟩ : BufTy).Contents (Elt Ideal) :=
  shapeCast _ (extractStridedSlice S1x1600000 ![1, 0] E slices_S2x1600000_S1x1600000_1_0) shapeCasts_S1x1600000_S1600000

/-- The start nodes with a negative one counted from the end (100000 is added to it). -/
def srcIdx (E : (⟨S2x1600000, .i32⟩ : BufTy).Contents (Elt Ideal)) : (⟨S1600000, .i32⟩ : BufTy).Contents (Elt Ideal) :=
  select (cmpi .slt (srcRow E) (broadcastInDim S1600000 ![] bcast_S_S1600000 (constantI S_ 32 0#32)))
    (addi (srcRow E) (broadcastInDim S1600000 ![] bcast_S_S1600000 (constantI S_ 32 100000#32))) (srcRow E)

/-- The rows of `X` at the edges' start nodes, one row per edge. -/
def gathered (X : FVec Ideal S100000x128 .f32) (E : (⟨S2x1600000, .i32⟩ : BufTy).Contents (Elt Ideal)) :
    FVec Ideal S1600000x128 .f32 :=
  Host.gather gather_S100000x128_S1600000x1_S1600000x128_1_0_n_n_0_1_1128 X
    (broadcastInDim S1600000x1 ![0] bcast_S1600000_S1600000x1_0 (srcIdx E))

/-- Neighbour aggregation: from zero, every edge adds its start node's row of `X` to its end node's row. -/
def aggOf (X : FVec Ideal S100000x128 .f32) (E : (⟨S2x1600000, .i32⟩ : BufTy).Contents (Elt Ideal)) :
    FVec Ideal S100000x128 .f32 :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dstRow E))
    (gathered X E)

/-- A vector of 128 entries laid along every row of a 100000 × 128 array. -/
def rows (v : FVec Ideal S128 .f32) : FVec Ideal S100000x128 .f32 :=
  broadcastInDim S100000x128 ![0, 1] bcast_S1x128_S100000x128_0_1 (broadcastInDim S1x128 ![1] bcast_S128_S1x128_1 v)

/-- The 100000 × 128 array of zeros. -/
def zeros : FVec Ideal S100000x128 .f32 :=
  broadcastInDim S100000x128 ![] bcast_S_S100000x128 (constant (F := Ideal) S_ .f32 0x00000000#32)

/-- The two-layer perceptron of a layer: (max ((X + A)·wa + ba) 0)·wb + bb. -/
def preOf (X A : FVec Ideal S100000x128 .f32) (wa : FVec Ideal S128x128 .f32) (ba : FVec Ideal S128 .f32)
    (wb : FVec Ideal S128x128 .f32) (bb : FVec Ideal S128 .f32) : FVec Ideal S100000x128 .f32 :=
  addf (Host.dotGeneral dot_S100000x128_S128x128_S100000x128_1_0_0_1_n_n none
      (maximumf (addf (Host.dotGeneral dot_S100000x128_S128x128_S100000x128_1_0_0_1_n_n none (addf X A) wa) (rows ba)) zeros)
      wb) (rows bb)

/-- The sum down each column, from zero. -/
def colSum (H : FVec Ideal S100000x128 .f32) : FVec Ideal S128 .f32 :=
  Host.reduceAdd H (constant (F := Ideal) S_ .f32 0x00000000#32) reducesTo_S100000x128_S128_d0 h_S_

/-- The number of rows, 100000, in every one of 128 places. -/
def countV : FVec Ideal S128 .f32 :=
  broadcastInDim S128 ![] bcast_S_S128 (constant (F := Ideal) S_ .f32 0x47C35000#32)

/-- The mean of each column. -/
def meanOf (H : FVec Ideal S100000x128 .f32) : FVec Ideal S128 .f32 := Host.divf (colSum H) countV

/-- The (biased) variance of each column. -/
def varOf (H : FVec Ideal S100000x128 .f32) : FVec Ideal S128 .f32 :=
  Host.divf (colSum (mulf (subf H (rows (meanOf H))) (subf H (rows (meanOf H))))) countV

/-- Normalisation down the columns, then the positive part. -/
def normOf (H : FVec Ideal S100000x128 .f32) (g be : FVec Ideal S128 .f32) : FVec Ideal S100000x128 .f32 :=
  maximumf (addf (mulf (subf H (rows (meanOf H)))
      (rows (Host.divf g (Host.sqrt (addf (varOf H) (broadcastInDim S128 ![] bcast_S_S128 (constant (F := Ideal) S_ .f32 0x3727C5AC#32)))))))
    (rows be)) zeros

/-- The affine map on the per-graph means of the rows (a graph with no node divides by one). -/
def logitsOf (H : FVec Ideal S100000x128 .f32) (batch : (⟨S100000, .i32⟩ : BufTy).Contents (Elt Ideal))
    (wl : FVec Ideal S128x7 .f32) (bl : FVec Ideal S7 .f32) : FVec Ideal S256x7 .f32 :=
  addf (Host.dotGeneral dot_S256x128_S128x7_S256x7_1_0_0_1_n_n none
      (Host.divf
        (Host.scatterAdd scatter_S256x128_S100000x1_S100000x128_1_0_0_1
          (broadcastInDim S256x128 ![] bcast_S_S256x128 (constant (F := Ideal) S_ .f32 0x00000000#32))
          (broadcastInDim S100000x1 ![0] bcast_S100000_S100000x1_0 batch) H)
        (broadcastInDim S256x128 ![0, 1] bcast_S256x1_S256x128_0_1 (broadcastInDim S256x1 ![0] bcast_S256_S256x1_0
          (maximumf
            (Host.scatterAdd scatter_S256_S100000x1_S100000_n_0_0_1
              (broadcastInDim S256 ![] bcast_S_S256 (constant (F := Ideal) S_ .f32 0x00000000#32))
              (broadcastInDim S100000x1 ![0] bcast_S100000_S100000x1_0 batch)
              (broadcastInDim S100000 ![] bcast_S_S100000 (constant (F := Ideal) S_ .f32 0x3F800000#32)))
            (broadcastInDim S256 ![] bcast_S_S256 (constant (F := Ideal) S_ .f32 0x3F800000#32))))))
      wl)
    (broadcastInDim S256x7 ![0, 1] bcast_S1x7_S256x7_0_1 (broadcastInDim S1x7 ![1] bcast_S7_S1x7_1 bl))

/-- A row's entries less the row's greatest entry. -/
def shifted (L : FVec Ideal S256x7 .f32) : FVec Ideal S256x7 .f32 :=
  subf L (broadcastInDim S256x7 ![0, 1] bcast_S256x1_S256x7_0_1 (broadcastInDim S256x1 ![0] bcast_S256_S256x1_0
    (maximumf (broadcastInDim S256 ![] bcast_S_S256 (constant (F := Ideal) S_ .f32 0xFF800000#32))
      (Host.reduce FloatOps.maximumf L (constant (F := Ideal) S_ .f32 0xFF800000#32) reducesTo_S256x7_S256_d1 h_S_))))

/-- The logarithm of the softmax along each row. -/
def logSoftmax (L : FVec Ideal S256x7 .f32) : FVec Ideal S256x7 .f32 :=
  subf (shifted L) (broadcastInDim S256x7 ![0, 1] bcast_S256x1_S256x7_0_1
    (Host.log (broadcastInDim S256x1 ![0] bcast_S256_S256x1_0
      (Host.reduceAdd (Host.exp (shifted L)) (constant (F := Ideal) S_ .f32 0x00000000#32) reducesTo_S256x7_S256_d1 h_S_))))

/-- The tail: per-graph mean pooling, the affine map, the log-softmax. -/
def tailOf (H : FVec Ideal S100000x128 .f32) (batch : (⟨S100000, .i32⟩ : BufTy).Contents (Elt Ideal))
    (wl : FVec Ideal S128x7 .f32) (bl : FVec Ideal S7 .f32) : FVec Ideal S256x7 .f32 :=
  logSoftmax (logitsOf H batch wl bl)

/-! ## Reading the operations at an index -/

/-- A vector laid along the rows, at row `i` and column `j`, is its entry `j`. -/
theorem rows_apply (v : FVec Ideal S128 .f32) (i : Fin 100000) (j : Fin 128) : rows v (ix2 i j) = v (ix1 j) := by
  unfold rows
  rw [broadcastInDim_apply _ bcast_S1x128_S100000x128_0_1 _ (ix2 i j) (ix2 (0 : Fin 1) j) (fun a => match a with
    | ⟨0, _⟩ => by show 0 = if (1 : Nat) = 1 then 0 else (i : Nat); rw [if_pos rfl]
    | ⟨1, _⟩ => by show (j : Nat) = if (128 : Nat) = 1 then 0 else (j : Nat); rw [if_neg (by decide)])]
  exact broadcastInDim_apply _ bcast_S128_S1x128_1 v (ix2 (0 : Fin 1) j) (ix1 j) (fun a => match a with
    | ⟨0, _⟩ => by show (j : Nat) = if (128 : Nat) = 1 then 0 else (j : Nat); rw [if_neg (by decide)])

/-- The array of zeros holds the value of the zero word everywhere. -/
theorem zeros_apply (x : S100000x128.Idx) : zeros x = Ideal.ofBits .f32 0x00000000#32 := by
  unfold zeros
  exact broadcastInDim_apply _ bcast_S_S100000x128 _ x (fun a => a.elim0) (fun a => a.elim0)

/-- The left operand's index of a 128 × 128 matrix product: the result's row. -/
theorem dot_lhs0 (x : S100000x128.Idx) (q : dot_S100000x128_S128x128_S100000x128_1_0_0_1_n_n.contr.Idx) :
    (dot_S100000x128_S128x128_S100000x128_1_0_0_1_n_n.lhsIdx x q 0).val = (x 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
/-- The right operand's index of a 128 × 128 matrix product: the result's column. -/
theorem dot_rhs1 (x : S100000x128.Idx) (q : dot_S100000x128_S128x128_S100000x128_1_0_0_1_n_n.contr.Idx) :
    (dot_S100000x128_S128x128_S100000x128_1_0_0_1_n_n.rhsIdx x q 1).val = (x 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- A product with a 128 × 128 matrix, at row `i` and column `j`: the sum over the contracted coordinate. -/
theorem dot_apply (Y : FVec Ideal S100000x128 .f32) (W : FVec Ideal S128x128 .f32) (i : Fin 100000) (j : Fin 128) :
    Host.dotGeneral dot_S100000x128_S128x128_S100000x128_1_0_0_1_n_n none Y W (ix2 i j)
      = ∑ k : Fin 128, Y (ix2 i k) * W (ix2 k j) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 i j) ((ValueIdx.contrEquiv1 dot_S100000x128_S128x128_S100000x128_1_0_0_1_n_n 128 rfl rfl).symm k) = ix2 i k := funext fun a => Fin.ext (by
    match a with
    | ⟨0, _⟩ => exact dot_lhs0 _ _
    | ⟨1, _⟩ => exact (dot_S100000x128_S128x128_S100000x128_1_0_0_1_n_n.lhsIdx_val_of_single rfl (ix2 i j) _).trans hk)
  have er : dot_S100000x128_S128x128_S100000x128_1_0_0_1_n_n.rhsIdx (ix2 i j) ((ValueIdx.contrEquiv1 dot_S100000x128_S128x128_S100000x128_1_0_0_1_n_n 128 rfl rfl).symm k) = ix2 k j := funext fun a => Fin.ext (by
    match a with
    | ⟨0, _⟩ => exact (dot_S100000x128_S128x128_S100000x128_1_0_0_1_n_n.rhsIdx_val_of_single rfl (ix2 i j) _).trans hk
    | ⟨1, _⟩ => exact dot_rhs1 _ _)
  rw [el, er]

/-- The perceptron at row `i` and column `j`. -/
theorem preOf_apply (X A : FVec Ideal S100000x128 .f32) (wa : FVec Ideal S128x128 .f32) (ba : FVec Ideal S128 .f32)
    (wb : FVec Ideal S128x128 .f32) (bb : FVec Ideal S128 .f32) (i : Fin 100000) (j : Fin 128) :
    preOf X A wa ba wb bb (ix2 i j)
      = (∑ k : Fin 128, max ((∑ k' : Fin 128, (X (ix2 i k') + A (ix2 i k')) * wa (ix2 k' k)) + ba (ix1 k)) 0 * wb (ix2 k j))
        + bb (ix1 j) := by
  unfold preOf
  rw [ValueIdx.addf_apply, dot_apply, rows_apply]
  refine congrArg (· + bb (ix1 j)) (Finset.sum_congr rfl fun k _ => ?_)
  rw [ValueIdx.maximumf_apply, ValueIdx.addf_apply, dot_apply, rows_apply, zeros_apply, Ideal.ofBits_zero_f32]
  refine congrArg (fun t => max (t + ba (ix1 k)) 0 * wb (ix2 k j)) (Finset.sum_congr rfl fun k' _ => ?_)
  rw [ValueIdx.addf_apply]

/-- The column sum at `j`: the zero word's value plus the sum of the column's entries. -/
theorem colSum_apply (H : FVec Ideal S100000x128 .f32) (j : Fin 128) :
    colSum H (ix1 j) = 0 + ∑ i' : Fin 100000, H (ix2 i' j) := by
  unfold colSum
  simp only [Host.reduceAdd, Ideal.hostReduceAdd_def]
  rw [Ideal.hostReduceAdd_single reducesTo_S100000x128_S128_d0 (by decide)]
  rw [ValueIdx.constant_apply, Ideal.ofBits_zero_f32]
  refine congrArg (0 + ·) (Finset.sum_congr rfl fun k _ => ?_)
  exact congrArg H (funext fun a => Fin.ext (by match a with | ⟨0, _⟩ => rfl | ⟨1, _⟩ => rfl))

/-- The number of rows as the program writes it: the value of the word 0x47C35000. -/
theorem count_eq : Ideal.ofBits .f32 0x47C35000#32 = ((100000 : ℝ) : EReal) := by
  simp [Ideal.ofBits, Ideal.ieee, -EReal.coe_mul]; norm_num

/-- The program's eps: the value of the word 0x3727C5AC, about 1e-5. -/
def eps : EReal := Ideal.ofBits .f32 0x3727C5AC#32

/-- eps is a positive real. -/
theorem eps_pos : ∃ r : ℝ, 0 < r ∧ eps = (r : EReal) := by
  refine ⟨(2 ^ 23 + 2606508 : ℕ) * (2 : ℝ) ^ ((110 : Int) - 127 - 23), by positivity, ?_⟩
  simp [eps, Ideal.ofBits, Ideal.ieee, -EReal.coe_mul]

theorem countV_apply (x : S128.Idx) : countV x = ((100000 : ℝ) : EReal) := by
  unfold countV
  rw [broadcastInDim_apply _ bcast_S_S128 _ x (fun a => a.elim0) (fun a => a.elim0), ValueIdx.constant_apply, count_eq]

/-- The column mean at `j`. -/
def mu (H : FVec Ideal S100000x128 .f32) (j : Fin 128) : EReal :=
  Ideal.div (0 + ∑ i' : Fin 100000, H (ix2 i' j)) ((100000 : ℝ) : EReal)

/-- The column variance at `j`. -/
def vr (H : FVec Ideal S100000x128 .f32) (j : Fin 128) : EReal :=
  Ideal.div (0 + ∑ i' : Fin 100000, (H (ix2 i' j) - mu H j) * (H (ix2 i' j) - mu H j)) ((100000 : ℝ) : EReal)

theorem meanOf_apply (H : FVec Ideal S100000x128 .f32) (j : Fin 128) : meanOf H (ix1 j) = mu H j := by
  unfold meanOf mu
  show Ideal.div (colSum H (ix1 j)) (countV (ix1 j)) = _
  rw [colSum_apply, countV_apply]

theorem varOf_apply (H : FVec Ideal S100000x128 .f32) (j : Fin 128) : varOf H (ix1 j) = vr H j := by
  unfold varOf vr
  show Ideal.div (colSum _ (ix1 j)) (countV (ix1 j)) = _
  rw [colSum_apply, countV_apply]
  refine congrArg (fun t => Ideal.div (0 + t) ((100000 : ℝ) : EReal)) (Finset.sum_congr rfl fun i' _ => ?_)
  rw [ValueIdx.mulf_apply, ValueIdx.subf_apply, rows_apply, meanOf_apply]

/-- The normalisation at row `i` and column `j`. -/
theorem normOf_apply (H : FVec Ideal S100000x128 .f32) (g be : FVec Ideal S128 .f32) (i : Fin 100000) (j : Fin 128) :
    normOf H g be (ix2 i j)
      = max ((H (ix2 i j) - mu H j) * Ideal.div (g (ix1 j)) (Ideal.sqrt (vr H j + eps)) + be (ix1 j)) 0 := by
  unfold normOf
  rw [ValueIdx.maximumf_apply, ValueIdx.addf_apply, ValueIdx.mulf_apply, ValueIdx.subf_apply, rows_apply, rows_apply, rows_apply,
    zeros_apply, Ideal.ofBits_zero_f32, meanOf_apply]
  refine congrArg (fun t => max ((H (ix2 i j) - mu H j) * t + be (ix1 j)) 0) ?_
  show Ideal.div (g (ix1 j)) (Ideal.sqrt (varOf H (ix1 j) + _)) = _
  rw [varOf_apply, broadcastInDim_apply _ bcast_S_S128 _ (ix1 j) (fun a => a.elim0) (fun a => a.elim0), ValueIdx.constant_apply]
  rfl

/-! ## Aggregation keeps real values real -/

theorem isReal_add {a b : EReal} (ha : IsReal a) (hb : IsReal b) : IsReal (a + b) := by
  obtain ⟨r, rfl⟩ := ha
  obtain ⟨s, rfl⟩ := hb
  exact ⟨r + s, (EReal.coe_add r s).symm⟩

theorem isReal_sum {ι : Type} (s : Finset ι) (f : ι → EReal) (h : ∀ i ∈ s, IsReal (f i)) : IsReal (∑ i ∈ s, f i) :=
  Finset.sum_induction f IsReal (fun _ _ => isReal_add) ⟨0, EReal.coe_zero.symm⟩ h

/-- An accumulating scatter's entry is the operand's entry plus a finite sum of update entries: real when both
    arrays are real throughout, whatever the scatter indices are. -/
theorem hostScatterAdd_isReal {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact isReal_add (hx i) (isReal_sum _ _ fun j _ => hu j)

/-- A gathered entry is the entry of the operand at some index, so it is real when the operand is real throughout,
    whatever the start indices are. -/
theorem gather_isReal {s si t : Shape} {w : Nat} (d : GatherDims s si t) (x : s.Idx → EReal) (idx : IVec si w)
    (hx : ∀ i, IsReal (x i)) (j : t.Idx) : IsReal (Host.gather d x idx j) := by
  unfold Host.gather
  exact hx _

/-- The same for the program's accumulating scatter at the extended reals. -/
theorem scatterAdd_isReal {s si su : Shape} {φ : FTy} (d : ScatterDims s si su) {w : Nat} (x : FVec Ideal s φ) (idx : IVec si w)
    (upd : FVec Ideal su φ) (hx : ∀ i, IsReal (x i)) (hu : ∀ j, IsReal (upd j)) (i : s.Idx) :
    IsReal (Host.scatterAdd d x idx upd i) := by
  simp only [Host.scatterAdd, Ideal.hostScatterAdd_def]
  exact hostScatterAdd_isReal d x idx upd hx hu i

/-- Every entry of the aggregate is an entry of the array of zeros plus a finite sum of gathered entries of `X`:
    real when every entry of `X` is, for any edge list. -/
theorem aggOf_isReal (X : FVec Ideal S100000x128 .f32) (E : (⟨S2x1600000, .i32⟩ : BufTy).Contents (Elt Ideal))
    (hX : ∀ x, IsReal (X x)) (x : S100000x128.Idx) : IsReal (aggOf X E x) := by
  have hz : ∀ i, IsReal (zeros i) := fun i => by
    rw [zeros_apply, Ideal.ofBits_zero_f32]; exact ⟨0, EReal.coe_zero.symm⟩
  have hu : ∀ j, IsReal (gathered X E j) := fun j => by
    unfold gathered
    exact gather_isReal _ X _ hX j
  unfold aggOf
  exact scatterAdd_isReal _ _ _ _ hz hu x

end Cert.RefSide

end
-- ==== Proof.RefSide.lean ====
/-
  The reference program's composed result is the composition of the four maps of the module it imports:
  two layers (aggregation, perceptron, normalisation) and the pooling tail.  Both sides are the same nest of the
  program's operations, so the equation holds by unfolding the definitions.
-/
import proofs.«148986_j16054587752866_1_alg».proof.Proof.RefSideAt
import proofs.«148986_j16054587752866_1_alg».proof.Proof.RefRun

noncomputable section

namespace Cert.RefSide

open Cert.ReferenceIdeal Cert.ReferenceIdeal.Gen Idealize.ShloMosaic Idealize.ShloMosaic.TcCoe Idealize.SL.Sem Idealize.ShloMosaic.StableHlo

/-- The first layer's result on the launch contents `m`: aggregation, perceptron and normalisation of the node
    features (argument 0) along the edge list (argument 15), with the first layer's weights (arguments 1 to 6). -/
def hidden1 (m : (ℓ : Loc nD τ sig) → Buf (Elt Ideal) ℓ) (c : Dev nD) : FVec Ideal S100000x128 .f32 :=
  normOf (preOf (m ((c.tc : Thread nD τ).loc main_arg0)) (aggOf (m ((c.tc : Thread nD τ).loc main_arg0)) (m ((c.tc : Thread nD τ).loc main_arg15)))
      (m ((c.tc : Thread nD τ).loc main_arg1)) (m ((c.tc : Thread nD τ).loc main_arg2)) (m ((c.tc : Thread nD τ).loc main_arg3)) (m ((c.tc : Thread nD τ).loc main_arg4)))
    (m ((c.tc : Thread nD τ).loc main_arg5)) (m ((c.tc : Thread nD τ).loc main_arg6))

/-- The second layer's result: the same three maps on the first layer's result, with arguments 7 to 12. -/
def hidden2 (m : (ℓ : Loc nD τ sig) → Buf (Elt Ideal) ℓ) (c : Dev nD) : FVec Ideal S100000x128 .f32 :=
  normOf (preOf (hidden1 m c) (aggOf (hidden1 m c) (m ((c.tc : Thread nD τ).loc main_arg15)))
      (m ((c.tc : Thread nD τ).loc main_arg7)) (m ((c.tc : Thread nD τ).loc main_arg8)) (m ((c.tc : Thread nD τ).loc main_arg9)) (m ((c.tc : Thread nD τ).loc main_arg10)))
    (m ((c.tc : Thread nD τ).loc main_arg11)) (m ((c.tc : Thread nD τ).loc main_arg12))

set_option maxRecDepth 16384 in
set_option maxHeartbeats 64000000 in
/-- The program's result is the tail of the second layer of the first layer of the node features. -/
theorem res_eq (m : (ℓ : Loc nD τ sig) → Buf (Elt Ideal) ℓ) (c : Dev nD) :
    Cert.ReferenceIdeal.ValueP.res_main_v116 (F := Ideal) m c
      = tailOf (hidden2 m c) (m ((c.tc : Thread nD τ).loc main_arg16)) (m ((c.tc : Thread nD τ).loc main_arg13)) (m ((c.tc : Thread nD τ).loc main_arg14)) := by
  unfold Cert.ReferenceIdeal.ValueP.res_main_v116
  rfl

end Cert.RefSide

end
-- ==== Proof.Layers.lean ====
/-
  The two normalised layers as functions of the kernel program's argument arrays, written with the
  reference's operations: H1 is the first layer of the node features, H2 the second layer of H1.
-/
import proofs.«148986_j16054587752866_1_alg».proof.KernelIdeal
import proofs.«148986_j16054587752866_1_alg».proof.Proof.RefSideAt

noncomputable section

open Idealize.ShloMosaic Idealize.ShloMosaic.TcCoe Idealize.SL.Sem

namespace Cert.Layers

open Cert.KernelIdeal

variable (m : (ℓ : Loc nD τ sig) → Buf (Elt Ideal) ℓ) (c : Dev nD)

/-- The first layer: message passing over the edges, then the column normalisation. -/
def H1 : S100000x128.Idx → EReal :=
  Cert.RefSide.normOf (Cert.RefSide.preOf (m ((c : Thread nD τ).loc main_arg0)) (Cert.RefSide.aggOf (m ((c : Thread nD τ).loc main_arg0)) (m ((c : Thread nD τ).loc main_arg15)))
      (m ((c : Thread nD τ).loc main_arg1)) (m ((c : Thread nD τ).loc main_arg2)) (m ((c : Thread nD τ).loc main_arg3)) (m ((c : Thread nD τ).loc main_arg4)))
    (m ((c : Thread nD τ).loc main_arg5)) (m ((c : Thread nD τ).loc main_arg6))

/-- The second layer, of the first layer's result. -/
def H2 : S100000x128.Idx → EReal :=
  Cert.RefSide.normOf (Cert.RefSide.preOf (H1 m c) (Cert.RefSide.aggOf (H1 m c) (m ((c : Thread nD τ).loc main_arg15)))
      (m ((c : Thread nD τ).loc main_arg7)) (m ((c : Thread nD τ).loc main_arg8)) (m ((c : Thread nD τ).loc main_arg9)) (m ((c : Thread nD τ).loc main_arg10)))
    (m ((c : Thread nD τ).loc main_arg11)) (m ((c : Thread nD τ).loc main_arg12))

end Cert.Layers
end
-- ==== Proof.HostVals.lean ====
/-
  The idealized kernel program alternates stretches of host operations with four regions.  This module says what
  each host stretch leaves in the buffers that later regions and stretches read, as a function of what it found:
  the neighbour aggregation (a gather of rows at the edge sources followed by a scatter-add at the edge
  destinations), the per-column statistics turned into a scale and a shift, and the pooled read-out followed by a
  log-softmax.  Every statement is at the extended reals, where each operation is exact.
-/
import proofs.«148986_j16054587752866_1_alg».proof.Proof.Gen.KernelIdeal.Frame
import proofs.«148986_j16054587752866_1_alg».proof.Proof.Basic
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.HostVals

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg) (c : Dev nD)

/-! ## Buffers that no region and no host operation writes: an argument read at any boundary is the launch memory's -/

theorem W1_main_arg5 : W1 m ρ c (Proc.devRef .tc main_arg5) = m ((c : Thread nD τ).loc main_arg5) := by
  show StableHlo.after hostOps0 (W0 m ρ c) (Proc.devRef .tc main_arg5) = _
  after_results_simp
theorem W2_main_arg5 : W2 m ρ c (Proc.devRef .tc main_arg5) = m ((c : Thread nD τ).loc main_arg5) :=
  (W2_of_ne m ρ c main_arg5 (by decide)).trans (W1_main_arg5 m ρ c)

theorem W1_main_arg6 : W1 m ρ c (Proc.devRef .tc main_arg6) = m ((c : Thread nD τ).loc main_arg6) := by
  show StableHlo.after hostOps0 (W0 m ρ c) (Proc.devRef .tc main_arg6) = _
  after_results_simp
theorem W2_main_arg6 : W2 m ρ c (Proc.devRef .tc main_arg6) = m ((c : Thread nD τ).loc main_arg6) :=
  (W2_of_ne m ρ c main_arg6 (by decide)).trans (W1_main_arg6 m ρ c)

theorem W1_main_arg7 : W1 m ρ c (Proc.devRef .tc main_arg7) = m ((c : Thread nD τ).loc main_arg7) := by
  show StableHlo.after hostOps0 (W0 m ρ c) (Proc.devRef .tc main_arg7) = _
  after_results_simp
theorem W2_main_arg7 : W2 m ρ c (Proc.devRef .tc main_arg7) = m ((c : Thread nD τ).loc main_arg7) :=
  (W2_of_ne m ρ c main_arg7 (by decide)).trans (W1_main_arg7 m ρ c)
theorem W3_main_arg7 : W3 m ρ c (Proc.devRef .tc main_arg7) = m ((c : Thread nD τ).loc main_arg7) := by
  show StableHlo.after hostOps1 (W2 m ρ c) (Proc.devRef .tc main_arg7) = _
  after_results_simp
  exact W2_main_arg7 m ρ c
theorem W4_main_arg7 : W4 m ρ c (Proc.devRef .tc main_arg7) = m ((c : Thread nD τ).loc main_arg7) :=
  (W4_of_ne m ρ c main_arg7 (by decide)).trans (W3_main_arg7 m ρ c)

theorem W1_main_arg8 : W1 m ρ c (Proc.devRef .tc main_arg8) = m ((c : Thread nD τ).loc main_arg8) := by
  show StableHlo.after hostOps0 (W0 m ρ c) (Proc.devRef .tc main_arg8) = _
  after_results_simp
theorem W2_main_arg8 : W2 m ρ c (Proc.devRef .tc main_arg8) = m ((c : Thread nD τ).loc main_arg8) :=
  (W2_of_ne m ρ c main_arg8 (by decide)).trans (W1_main_arg8 m ρ c)
theorem W3_main_arg8 : W3 m ρ c (Proc.devRef .tc main_arg8) = m ((c : Thread nD τ).loc main_arg8) := by
  show StableHlo.after hostOps1 (W2 m ρ c) (Proc.devRef .tc main_arg8) = _
  after_results_simp
  exact W2_main_arg8 m ρ c
theorem W4_main_arg8 : W4 m ρ c (Proc.devRef .tc main_arg8) = m ((c : Thread nD τ).loc main_arg8) :=
  (W4_of_ne m ρ c main_arg8 (by decide)).trans (W3_main_arg8 m ρ c)

theorem W1_main_arg9 : W1 m ρ c (Proc.devRef .tc main_arg9) = m ((c : Thread nD τ).loc main_arg9) := by
  show StableHlo.after hostOps0 (W0 m ρ c) (Proc.devRef .tc main_arg9) = _
  after_results_simp
theorem W2_main_arg9 : W2 m ρ c (Proc.devRef .tc main_arg9) = m ((c : Thread nD τ).loc main_arg9) :=
  (W2_of_ne m ρ c main_arg9 (by decide)).trans (W1_main_arg9 m ρ c)
theorem W3_main_arg9 : W3 m ρ c (Proc.devRef .tc main_arg9) = m ((c : Thread nD τ).loc main_arg9) := by
  show StableHlo.after hostOps1 (W2 m ρ c) (Proc.devRef .tc main_arg9) = _
  after_results_simp
  exact W2_main_arg9 m ρ c
theorem W4_main_arg9 : W4 m ρ c (Proc.devRef .tc main_arg9) = m ((c : Thread nD τ).loc main_arg9) :=
  (W4_of_ne m ρ c main_arg9 (by decide)).trans (W3_main_arg9 m ρ c)

theorem W1_main_arg10 : W1 m ρ c (Proc.devRef .tc main_arg10) = m ((c : Thread nD τ).loc main_arg10) := by
  show StableHlo.after hostOps0 (W0 m ρ c) (Proc.devRef .tc main_arg10) = _
  after_results_simp
theorem W2_main_arg10 : W2 m ρ c (Proc.devRef .tc main_arg10) = m ((c : Thread nD τ).loc main_arg10) :=
  (W2_of_ne m ρ c main_arg10 (by decide)).trans (W1_main_arg10 m ρ c)
theorem W3_main_arg10 : W3 m ρ c (Proc.devRef .tc main_arg10) = m ((c : Thread nD τ).loc main_arg10) := by
  show StableHlo.after hostOps1 (W2 m ρ c) (Proc.devRef .tc main_arg10) = _
  after_results_simp
  exact W2_main_arg10 m ρ c
theorem W4_main_arg10 : W4 m ρ c (Proc.devRef .tc main_arg10) = m ((c : Thread nD τ).loc main_arg10) :=
  (W4_of_ne m ρ c main_arg10 (by decide)).trans (W3_main_arg10 m ρ c)

theorem W1_main_arg11 : W1 m ρ c (Proc.devRef .tc main_arg11) = m ((c : Thread nD τ).loc main_arg11) := by
  show StableHlo.after hostOps0 (W0 m ρ c) (Proc.devRef .tc main_arg11) = _
  after_results_simp
theorem W2_main_arg11 : W2 m ρ c (Proc.devRef .tc main_arg11) = m ((c : Thread nD τ).loc main_arg11) :=
  (W2_of_ne m ρ c main_arg11 (by decide)).trans (W1_main_arg11 m ρ c)
theorem W3_main_arg11 : W3 m ρ c (Proc.devRef .tc main_arg11) = m ((c : Thread nD τ).loc main_arg11) := by
  show StableHlo.after hostOps1 (W2 m ρ c) (Proc.devRef .tc main_arg11) = _
  after_results_simp
  exact W2_main_arg11 m ρ c
theorem W4_main_arg11 : W4 m ρ c (Proc.devRef .tc main_arg11) = m ((c : Thread nD τ).loc main_arg11) :=
  (W4_of_ne m ρ c main_arg11 (by decide)).trans (W3_main_arg11 m ρ c)
theorem W5_main_arg11 : W5 m ρ c (Proc.devRef .tc main_arg11) = m ((c : Thread nD τ).loc main_arg11) := by
  show StableHlo.after hostOps2 (W4 m ρ c) (Proc.devRef .tc main_arg11) = _
  after_results_simp
  exact W4_main_arg11 m ρ c
theorem W6_main_arg11 : W6 m ρ c (Proc.devRef .tc main_arg11) = m ((c : Thread nD τ).loc main_arg11) :=
  (W6_of_ne m ρ c main_arg11 (by decide)).trans (W5_main_arg11 m ρ c)

theorem W1_main_arg12 : W1 m ρ c (Proc.devRef .tc main_arg12) = m ((c : Thread nD τ).loc main_arg12) := by
  show StableHlo.after hostOps0 (W0 m ρ c) (Proc.devRef .tc main_arg12) = _
  after_results_simp
theorem W2_main_arg12 : W2 m ρ c (Proc.devRef .tc main_arg12) = m ((c : Thread nD τ).loc main_arg12) :=
  (W2_of_ne m ρ c main_arg12 (by decide)).trans (W1_main_arg12 m ρ c)
theorem W3_main_arg12 : W3 m ρ c (Proc.devRef .tc main_arg12) = m ((c : Thread nD τ).loc main_arg12) := by
  show StableHlo.after hostOps1 (W2 m ρ c) (Proc.devRef .tc main_arg12) = _
  after_results_simp
  exact W2_main_arg12 m ρ c
theorem W4_main_arg12 : W4 m ρ c (Proc.devRef .tc main_arg12) = m ((c : Thread nD τ).loc main_arg12) :=
  (W4_of_ne m ρ c main_arg12 (by decide)).trans (W3_main_arg12 m ρ c)
theorem W5_main_arg12 : W5 m ρ c (Proc.devRef .tc main_arg12) = m ((c : Thread nD τ).loc main_arg12) := by
  show StableHlo.after hostOps2 (W4 m ρ c) (Proc.devRef .tc main_arg12) = _
  after_results_simp
  exact W4_main_arg12 m ρ c
theorem W6_main_arg12 : W6 m ρ c (Proc.devRef .tc main_arg12) = m ((c : Thread nD τ).loc main_arg12) :=
  (W6_of_ne m ρ c main_arg12 (by decide)).trans (W5_main_arg12 m ρ c)

theorem W1_main_arg13 : W1 m ρ c (Proc.devRef .tc main_arg13) = m ((c : Thread nD τ).loc main_arg13) := by
  show StableHlo.after hostOps0 (W0 m ρ c) (Proc.devRef .tc main_arg13) = _
  after_results_simp
theorem W2_main_arg13 : W2 m ρ c (Proc.devRef .tc main_arg13) = m ((c : Thread nD τ).loc main_arg13) :=
  (W2_of_ne m ρ c main_arg13 (by decide)).trans (W1_main_arg13 m ρ c)
theorem W3_main_arg13 : W3 m ρ c (Proc.devRef .tc main_arg13) = m ((c : Thread nD τ).loc main_arg13) := by
  show StableHlo.after hostOps1 (W2 m ρ c) (Proc.devRef .tc main_arg13) = _
  after_results_simp
  exact W2_main_arg13 m ρ c
theorem W4_main_arg13 : W4 m ρ c (Proc.devRef .tc main_arg13) = m ((c : Thread nD τ).loc main_arg13) :=
  (W4_of_ne m ρ c main_arg13 (by decide)).trans (W3_main_arg13 m ρ c)
theorem W5_main_arg13 : W5 m ρ c (Proc.devRef .tc main_arg13) = m ((c : Thread nD τ).loc main_arg13) := by
  show StableHlo.after hostOps2 (W4 m ρ c) (Proc.devRef .tc main_arg13) = _
  after_results_simp
  exact W4_main_arg13 m ρ c
theorem W6_main_arg13 : W6 m ρ c (Proc.devRef .tc main_arg13) = m ((c : Thread nD τ).loc main_arg13) :=
  (W6_of_ne m ρ c main_arg13 (by decide)).trans (W5_main_arg13 m ρ c)
theorem W7_main_arg13 : W7 m ρ c (Proc.devRef .tc main_arg13) = m ((c : Thread nD τ).loc main_arg13) := by
  show StableHlo.after hostOps3 (W6 m ρ c) (Proc.devRef .tc main_arg13) = _
  after_results_simp
  exact W6_main_arg13 m ρ c
theorem W8_main_arg13 : W8 m ρ c (Proc.devRef .tc main_arg13) = m ((c : Thread nD τ).loc main_arg13) :=
  (W8_of_ne m ρ c main_arg13 (by decide)).trans (W7_main_arg13 m ρ c)

theorem W1_main_arg14 : W1 m ρ c (Proc.devRef .tc main_arg14) = m ((c : Thread nD τ).loc main_arg14) := by
  show StableHlo.after hostOps0 (W0 m ρ c) (Proc.devRef .tc main_arg14) = _
  after_results_simp
theorem W2_main_arg14 : W2 m ρ c (Proc.devRef .tc main_arg14) = m ((c : Thread nD τ).loc main_arg14) :=
  (W2_of_ne m ρ c main_arg14 (by decide)).trans (W1_main_arg14 m ρ c)
theorem W3_main_arg14 : W3 m ρ c (Proc.devRef .tc main_arg14) = m ((c : Thread nD τ).loc main_arg14) := by
  show StableHlo.after hostOps1 (W2 m ρ c) (Proc.devRef .tc main_arg14) = _
  after_results_simp
  exact W2_main_arg14 m ρ c
theorem W4_main_arg14 : W4 m ρ c (Proc.devRef .tc main_arg14) = m ((c : Thread nD τ).loc main_arg14) :=
  (W4_of_ne m ρ c main_arg14 (by decide)).trans (W3_main_arg14 m ρ c)
theorem W5_main_arg14 : W5 m ρ c (Proc.devRef .tc main_arg14) = m ((c : Thread nD τ).loc main_arg14) := by
  show StableHlo.after hostOps2 (W4 m ρ c) (Proc.devRef .tc main_arg14) = _
  after_results_simp
  exact W4_main_arg14 m ρ c
theorem W6_main_arg14 : W6 m ρ c (Proc.devRef .tc main_arg14) = m ((c : Thread nD τ).loc main_arg14) :=
  (W6_of_ne m ρ c main_arg14 (by decide)).trans (W5_main_arg14 m ρ c)
theorem W7_main_arg14 : W7 m ρ c (Proc.devRef .tc main_arg14) = m ((c : Thread nD τ).loc main_arg14) := by
  show StableHlo.after hostOps3 (W6 m ρ c) (Proc.devRef .tc main_arg14) = _
  after_results_simp
  exact W6_main_arg14 m ρ c
theorem W8_main_arg14 : W8 m ρ c (Proc.devRef .tc main_arg14) = m ((c : Thread nD τ).loc main_arg14) :=
  (W8_of_ne m ρ c main_arg14 (by decide)).trans (W7_main_arg14 m ρ c)

theorem W1_main_arg16 : W1 m ρ c (Proc.devRef .tc main_arg16) = m ((c : Thread nD τ).loc main_arg16) := by
  show StableHlo.after hostOps0 (W0 m ρ c) (Proc.devRef .tc main_arg16) = _
  after_results_simp
theorem W2_main_arg16 : W2 m ρ c (Proc.devRef .tc main_arg16) = m ((c : Thread nD τ).loc main_arg16) :=
  (W2_of_ne m ρ c main_arg16 (by decide)).trans (W1_main_arg16 m ρ c)
theorem W3_main_arg16 : W3 m ρ c (Proc.devRef .tc main_arg16) = m ((c : Thread nD τ).loc main_arg16) := by
  show StableHlo.after hostOps1 (W2 m ρ c) (Proc.devRef .tc main_arg16) = _
  after_results_simp
  exact W2_main_arg16 m ρ c
theorem W4_main_arg16 : W4 m ρ c (Proc.devRef .tc main_arg16) = m ((c : Thread nD τ).loc main_arg16) :=
  (W4_of_ne m ρ c main_arg16 (by decide)).trans (W3_main_arg16 m ρ c)
theorem W5_main_arg16 : W5 m ρ c (Proc.devRef .tc main_arg16) = m ((c : Thread nD τ).loc main_arg16) := by
  show StableHlo.after hostOps2 (W4 m ρ c) (Proc.devRef .tc main_arg16) = _
  after_results_simp
  exact W4_main_arg16 m ρ c
theorem W6_main_arg16 : W6 m ρ c (Proc.devRef .tc main_arg16) = m ((c : Thread nD τ).loc main_arg16) :=
  (W6_of_ne m ρ c main_arg16 (by decide)).trans (W5_main_arg16 m ρ c)
theorem W7_main_arg16 : W7 m ρ c (Proc.devRef .tc main_arg16) = m ((c : Thread nD τ).loc main_arg16) := by
  show StableHlo.after hostOps3 (W6 m ρ c) (Proc.devRef .tc main_arg16) = _
  after_results_simp
  exact W6_main_arg16 m ρ c
theorem W8_main_arg16 : W8 m ρ c (Proc.devRef .tc main_arg16) = m ((c : Thread nD τ).loc main_arg16) :=
  (W8_of_ne m ρ c main_arg16 (by decide)).trans (W7_main_arg16 m ρ c)

/-! ## Stretches 0 and 2: the neighbour aggregation -/

/-- The edge sources: row 0 of the edge list, as a flat list. -/
def srcOf (E : IVec S2x1600000 32) : IVec S1600000 32 :=
  shapeCast S1600000 (extractStridedSlice S1x1600000 ![0, 0] E slices_S2x1600000_S1x1600000_0_0) shapeCasts_S1x1600000_S1600000
/-- The edge destinations: row 1 of the edge list, as a flat list. -/
def dstOf (E : IVec S2x1600000 32) : IVec S1600000 32 :=
  shapeCast S1600000 (extractStridedSlice S1x1600000 ![1, 0] E slices_S2x1600000_S1x1600000_1_0) shapeCasts_S1x1600000_S1600000

/-- The aggregation of X along the edges (src, dst): the rows of X gathered at the sources (a negative source counted
    from the end), scatter-added from zero at the destinations. -/
def agg (X : FVec Ideal S100000x128 .f32) (src dst : IVec S1600000 32) : FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 X
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32)))
          src)))

/-- The aggregation of X along the edge list E. -/
def aggK (X : FVec Ideal S100000x128 .f32) (E : IVec S2x1600000 32) : FVec Ideal S100000x128 .f32 :=
  agg X (srcOf E) (dstOf E)

/-- The edge sources and destinations stretch 0 leaves, and that nothing up to region 1's exit touches. -/
theorem W1_main_v1 : (W1 m ρ c (Proc.devRef .tc main_v1) : IVec S1600000 32) = srcOf (m ((c : Thread nD τ).loc main_arg15)) := by
  show StableHlo.after hostOps0 (W0 m ρ c) (Proc.devRef .tc main_v1) = _
  after_results_simp
  rfl
theorem W1_main_v3 : (W1 m ρ c (Proc.devRef .tc main_v3) : IVec S1600000 32) = dstOf (m ((c : Thread nD τ).loc main_arg15)) := by
  show StableHlo.after hostOps0 (W0 m ρ c) (Proc.devRef .tc main_v3) = _
  after_results_simp
  rfl
theorem W2_main_v1 : (W2 m ρ c (Proc.devRef .tc main_v1) : IVec S1600000 32) = srcOf (m ((c : Thread nD τ).loc main_arg15)) :=
  (W2_of_ne m ρ c main_v1 (by decide)).trans (W1_main_v1 m ρ c)
theorem W3_main_v1 : (W3 m ρ c (Proc.devRef .tc main_v1) : IVec S1600000 32) = srcOf (m ((c : Thread nD τ).loc main_arg15)) := by
  show StableHlo.after hostOps1 (W2 m ρ c) (Proc.devRef .tc main_v1) = _
  after_results_simp
  exact W2_main_v1 m ρ c
theorem W4_main_v1 : (W4 m ρ c (Proc.devRef .tc main_v1) : IVec S1600000 32) = srcOf (m ((c : Thread nD τ).loc main_arg15)) :=
  (W4_of_ne m ρ c main_v1 (by decide)).trans (W3_main_v1 m ρ c)
theorem W2_main_v3 : (W2 m ρ c (Proc.devRef .tc main_v3) : IVec S1600000 32) = dstOf (m ((c : Thread nD τ).loc main_arg15)) :=
  (W2_of_ne m ρ c main_v3 (by decide)).trans (W1_main_v3 m ρ c)
theorem W3_main_v3 : (W3 m ρ c (Proc.devRef .tc main_v3) : IVec S1600000 32) = dstOf (m ((c : Thread nD τ).loc main_arg15)) := by
  show StableHlo.after hostOps1 (W2 m ρ c) (Proc.devRef .tc main_v3) = _
  after_results_simp
  exact W2_main_v3 m ρ c
theorem W4_main_v3 : (W4 m ρ c (Proc.devRef .tc main_v3) : IVec S1600000 32) = dstOf (m ((c : Thread nD τ).loc main_arg15)) :=
  (W4_of_ne m ρ c main_v3 (by decide)).trans (W3_main_v3 m ρ c)

/-- The aggregated rows stretch 0 leaves for region 0. -/
theorem W1_v13 : (W1 m ρ c (Proc.devRef .tc main_v13) : S100000x128.Idx → EReal)
    = aggK (m ((c : Thread nD τ).loc main_arg0)) (m ((c : Thread nD τ).loc main_arg15)) := by
  show StableHlo.after hostOps0 (W0 m ρ c) (Proc.devRef .tc main_v13) = _
  after_results_simp
  rfl

/-- Stretch 0 leaves the node features alone. -/
theorem W1_main_arg0 : W1 m ρ c (Proc.devRef .tc main_arg0) = m ((c : Thread nD τ).loc main_arg0) := by
  show StableHlo.after hostOps0 (W0 m ρ c) (Proc.devRef .tc main_arg0) = _
  after_results_simp

/-- The weight matrices in the narrower float format: the same extended reals. -/
theorem W1_v14 : (W1 m ρ c (Proc.devRef .tc main_v14) : S128x128.Idx → EReal) = m ((c : Thread nD τ).loc main_arg1) := by
  show StableHlo.after hostOps0 (W0 m ρ c) (Proc.devRef .tc main_v14) = _
  after_results_simp
  rfl
theorem W1_v15 : (W1 m ρ c (Proc.devRef .tc main_v15) : S128x128.Idx → EReal) = m ((c : Thread nD τ).loc main_arg3) := by
  show StableHlo.after hostOps0 (W0 m ρ c) (Proc.devRef .tc main_v15) = _
  after_results_simp
  rfl

/-- The bias vectors as rows. -/
theorem W1_v16 : (W1 m ρ c (Proc.devRef .tc main_v16) : S1x128.Idx → EReal)
    = shapeCast S1x128 (m ((c : Thread nD τ).loc main_arg2)) shapeCasts_S128_S1x128 := by
  show StableHlo.after hostOps0 (W0 m ρ c) (Proc.devRef .tc main_v16) = _
  after_results_simp
  rfl
theorem W1_v17 : (W1 m ρ c (Proc.devRef .tc main_v17) : S1x128.Idx → EReal)
    = shapeCast S1x128 (m ((c : Thread nD τ).loc main_arg4)) shapeCasts_S128_S1x128 := by
  show StableHlo.after hostOps0 (W0 m ρ c) (Proc.devRef .tc main_v17) = _
  after_results_simp
  rfl
theorem W1_v16_apply (j : Fin 128) : (W1 m ρ c (Proc.devRef .tc main_v16) : S1x128.Idx → EReal) (ix2 (0 : Fin 1) j)
    = m ((c : Thread nD τ).loc main_arg2) (ix1 j) := by
  rw [W1_v16]; exact shapeCast_a_1a_apply _ _ 0 j
theorem W1_v17_apply (j : Fin 128) : (W1 m ρ c (Proc.devRef .tc main_v17) : S1x128.Idx → EReal) (ix2 (0 : Fin 1) j)
    = m ((c : Thread nD τ).loc main_arg4) (ix1 j) := by
  rw [W1_v17]; exact shapeCast_a_1a_apply _ _ 0 j

/-! ## Stretches 1 and 3: the per-column statistics turned into a scale and a shift -/

/-- The row count the column sums are divided by: what the word 0x47C35000 denotes. -/
def rows : EReal := Ideal.ofBits .f32 0x47C35000#32
/-- The constant added to the variance under the square root: what the word 0x3727C5AC denotes. -/
def eps : EReal := Ideal.ofBits .f32 0x3727C5AC#32
/-- Column mean: the column sum s1 over the row count. -/
def mean (s1 : S1x128.Idx → EReal) (j : Fin 128) : EReal := Ideal.div (s1 (ix2 (0 : Fin 1) j)) rows
/-- Column variance: the column sum of squares s2 over the row count, less the squared mean. -/
def var (s1 s2 : S1x128.Idx → EReal) (j : Fin 128) : EReal :=
  Ideal.div (s2 (ix2 (0 : Fin 1) j)) rows - mean s1 j * mean s1 j
/-- The scale: g over the square root of variance plus eps. -/
def scale (g : S128.Idx → EReal) (s1 s2 : S1x128.Idx → EReal) (j : Fin 128) : EReal :=
  Ideal.div (g (ix1 j)) (Ideal.sqrt (var s1 s2 j + eps))
/-- The shift: b less mean times scale. -/
def shift (g b : S128.Idx → EReal) (s1 s2 : S1x128.Idx → EReal) (j : Fin 128) : EReal :=
  b (ix1 j) - mean s1 j * scale g s1 s2 j

/-- The scale as the operations compute it, on whole arrays. -/
def scaleArr (g : FVec Ideal S128 .f32) (s1 s2 : FVec Ideal S1x128 .f32) : FVec Ideal S1x128 .f32 :=
  Host.divf (F := Ideal) (shapeCast S1x128 g shapeCasts_S128_S1x128)
    (Host.sqrt (F := Ideal)
      (addf (F := Ideal)
        (subf (F := Ideal)
          (Host.divf (F := Ideal) s2 (broadcastInDim S1x128 ![] bcast_S_S1x128 (constant (F := Ideal) S_ .f32 0x47C35000#32)))
          (mulf (F := Ideal)
            (Host.divf (F := Ideal) s1 (broadcastInDim S1x128 ![] bcast_S_S1x128 (constant (F := Ideal) S_ .f32 0x47C35000#32)))
            (Host.divf (F := Ideal) s1 (broadcastInDim S1x128 ![] bcast_S_S1x128 (constant (F := Ideal) S_ .f32 0x47C35000#32)))))
        (broadcastInDim S1x128 ![] bcast_S_S1x128 (constant (F := Ideal) S_ .f32 0x3727C5AC#32))))

/-- The shift as the operations compute it, on whole arrays. -/
def shiftArr (g b : FVec Ideal S128 .f32) (s1 s2 : FVec Ideal S1x128 .f32) : FVec Ideal S1x128 .f32 :=
  subf (F := Ideal) (shapeCast S1x128 b shapeCasts_S128_S1x128)
    (mulf (F := Ideal)
      (Host.divf (F := Ideal) s1 (broadcastInDim S1x128 ![] bcast_S_S1x128 (constant (F := Ideal) S_ .f32 0x47C35000#32)))
      (scaleArr g s1 s2))

/-- A scalar constant broadcast to a row reads the constant's value everywhere. -/
theorem bcast_const_apply (w : BitVec 32) (i : S1x128.Idx) :
    broadcastInDim S1x128 ![] bcast_S_S1x128 (constant (F := Ideal) S_ .f32 w) i = Ideal.ofBits .f32 w := rfl

theorem scaleArr_apply (g : FVec Ideal S128 .f32) (s1 s2 : FVec Ideal S1x128 .f32) (j : Fin 128) :
    scaleArr g s1 s2 (ix2 (0 : Fin 1) j) = scale g s1 s2 j := by
  unfold scaleArr scale var mean rows eps
  simp only [Host.divf, Host.sqrt, addf, subf, mulf, Ideal.hostDivf_def, Ideal.hostUnary_sqrt_def, Ideal.addf_def,
    Ideal.subf_def, Ideal.mulf_def, shapeCast_a_1a_apply]
  rfl

theorem shiftArr_apply (g b : FVec Ideal S128 .f32) (s1 s2 : FVec Ideal S1x128 .f32) (j : Fin 128) :
    shiftArr g b s1 s2 (ix2 (0 : Fin 1) j) = shift g b s1 s2 j := by
  unfold shiftArr shift mean rows
  simp only [Host.divf, subf, mulf, Ideal.hostDivf_def, Ideal.subf_def, Ideal.mulf_def, scaleArr_apply, shapeCast_a_1a_apply]
  rfl

/-! ### What stretch 1 leaves, from what region 0 left -/

/-- The scale row after stretch 1. -/
theorem W3_v29 : (W3 m ρ c (Proc.devRef .tc main_v29) : S1x128.Idx → EReal)
    = scaleArr (W2 m ρ c (Proc.devRef .tc main_arg5)) (W2 m ρ c (Proc.devRef .tc main_v18_1)) (W2 m ρ c (Proc.devRef .tc main_v18_2)) := by
  show StableHlo.after hostOps1 (W2 m ρ c) (Proc.devRef .tc main_v29) = _
  after_results
  rfl

/-- The shift row after stretch 1. -/
theorem W3_v32 : (W3 m ρ c (Proc.devRef .tc main_v32) : S1x128.Idx → EReal)
    = shiftArr (W2 m ρ c (Proc.devRef .tc main_arg5)) (W2 m ρ c (Proc.devRef .tc main_arg6)) (W2 m ρ c (Proc.devRef .tc main_v18_1)) (W2 m ρ c (Proc.devRef .tc main_v18_2)) := by
  show StableHlo.after hostOps1 (W2 m ρ c) (Proc.devRef .tc main_v32) = _
  after_results_simp
  rfl

/-- Stretch 1 leaves region 0's first output alone. -/
theorem W3_v18_0 : W3 m ρ c (Proc.devRef .tc main_v18_0) = W2 m ρ c (Proc.devRef .tc main_v18_0) := by
  show StableHlo.after hostOps1 (W2 m ρ c) (Proc.devRef .tc main_v18_0) = _
  after_results

/-- The scale row after stretch 1, at a column. -/
theorem W3_v29_apply (j : Fin 128) : (W3 m ρ c (Proc.devRef .tc main_v29) : S1x128.Idx → EReal) (ix2 (0 : Fin 1) j)
    = scale (m ((c : Thread nD τ).loc main_arg5)) (W2 m ρ c (Proc.devRef .tc main_v18_1)) (W2 m ρ c (Proc.devRef .tc main_v18_2)) j := by
  rw [W3_v29, W2_main_arg5, scaleArr_apply]

/-- The shift row after stretch 1, at a column. -/
theorem W3_v32_apply (j : Fin 128) : (W3 m ρ c (Proc.devRef .tc main_v32) : S1x128.Idx → EReal) (ix2 (0 : Fin 1) j)
    = shift (m ((c : Thread nD τ).loc main_arg5)) (m ((c : Thread nD τ).loc main_arg6))
        (W2 m ρ c (Proc.devRef .tc main_v18_1)) (W2 m ρ c (Proc.devRef .tc main_v18_2)) j := by
  rw [W3_v32, W2_main_arg5, W2_main_arg6, shiftArr_apply]

/-! ### Stretch 2: the same aggregation, of region 1's output -/

/-- The aggregated rows stretch 2 leaves for region 2. -/
theorem W5_v43 : (W5 m ρ c (Proc.devRef .tc main_v43) : S100000x128.Idx → EReal)
    = aggK (W4 m ρ c (Proc.devRef .tc main_v33)) (m ((c : Thread nD τ).loc main_arg15)) := by
  have e : (W5 m ρ c (Proc.devRef .tc main_v43) : S100000x128.Idx → EReal)
      = agg (W4 m ρ c (Proc.devRef .tc main_v33)) (W4 m ρ c (Proc.devRef .tc main_v1)) (W4 m ρ c (Proc.devRef .tc main_v3)) := by
    show StableHlo.after hostOps2 (W4 m ρ c) (Proc.devRef .tc main_v43) = _
    after_results_simp
    rfl
  rw [e, W4_main_v1, W4_main_v3]; rfl

/-- Stretch 2 leaves region 1's output alone. -/
theorem W5_v33 : W5 m ρ c (Proc.devRef .tc main_v33) = W4 m ρ c (Proc.devRef .tc main_v33) := by
  show StableHlo.after hostOps2 (W4 m ρ c) (Proc.devRef .tc main_v33) = _
  after_results_simp

theorem W5_v44 : (W5 m ρ c (Proc.devRef .tc main_v44) : S128x128.Idx → EReal) = m ((c : Thread nD τ).loc main_arg7) := by
  show StableHlo.after hostOps2 (W4 m ρ c) (Proc.devRef .tc main_v44) = _
  after_results_simp
  exact W4_main_arg7 m ρ c
theorem W5_v45 : (W5 m ρ c (Proc.devRef .tc main_v45) : S128x128.Idx → EReal) = m ((c : Thread nD τ).loc main_arg9) := by
  show StableHlo.after hostOps2 (W4 m ρ c) (Proc.devRef .tc main_v45) = _
  after_results_simp
  exact W4_main_arg9 m ρ c
theorem W5_v46 : (W5 m ρ c (Proc.devRef .tc main_v46) : S1x128.Idx → EReal)
    = shapeCast S1x128 (m ((c : Thread nD τ).loc main_arg8)) shapeCasts_S128_S1x128 := by
  show StableHlo.after hostOps2 (W4 m ρ c) (Proc.devRef .tc main_v46) = _
  after_results_simp
  rw [W4_main_arg8]; rfl
theorem W5_v47 : (W5 m ρ c (Proc.devRef .tc main_v47) : S1x128.Idx → EReal)
    = shapeCast S1x128 (m ((c : Thread nD τ).loc main_arg10)) shapeCasts_S128_S1x128 := by
  show StableHlo.after hostOps2 (W4 m ρ c) (Proc.devRef .tc main_v47) = _
  after_results_simp
  rw [W4_main_arg10]; rfl
theorem W5_v46_apply (j : Fin 128) : (W5 m ρ c (Proc.devRef .tc main_v46) : S1x128.Idx → EReal) (ix2 (0 : Fin 1) j)
    = m ((c : Thread nD τ).loc main_arg8) (ix1 j) := by
  rw [W5_v46]; exact shapeCast_a_1a_apply _ _ 0 j
theorem W5_v47_apply (j : Fin 128) : (W5 m ρ c (Proc.devRef .tc main_v47) : S1x128.Idx → EReal) (ix2 (0 : Fin 1) j)
    = m ((c : Thread nD τ).loc main_arg10) (ix1 j) := by
  rw [W5_v47]; exact shapeCast_a_1a_apply _ _ 0 j

/-! ### What stretch 3 leaves, from what region 2 left -/

/-- The scale row after stretch 3. -/
theorem W7_v59 : (W7 m ρ c (Proc.devRef .tc main_v59) : S1x128.Idx → EReal)
    = scaleArr (W6 m ρ c (Proc.devRef .tc main_arg11)) (W6 m ρ c (Proc.devRef .tc main_v48_1)) (W6 m ρ c (Proc.devRef .tc main_v48_2)) := by
  show StableHlo.after hostOps3 (W6 m ρ c) (Proc.devRef .tc main_v59) = _
  after_results
  rfl

/-- The shift row after stretch 3. -/
theorem W7_v62 : (W7 m ρ c (Proc.devRef .tc main_v62) : S1x128.Idx → EReal)
    = shiftArr (W6 m ρ c (Proc.devRef .tc main_arg11)) (W6 m ρ c (Proc.devRef .tc main_arg12)) (W6 m ρ c (Proc.devRef .tc main_v48_1)) (W6 m ρ c (Proc.devRef .tc main_v48_2)) := by
  show StableHlo.after hostOps3 (W6 m ρ c) (Proc.devRef .tc main_v62) = _
  after_results_simp
  rfl

/-- Stretch 3 leaves region 2's first output alone. -/
theorem W7_v48_0 : W7 m ρ c (Proc.devRef .tc main_v48_0) = W6 m ρ c (Proc.devRef .tc main_v48_0) := by
  show StableHlo.after hostOps3 (W6 m ρ c) (Proc.devRef .tc main_v48_0) = _
  after_results

/-- The scale row after stretch 3, at a column. -/
theorem W7_v59_apply (j : Fin 128) : (W7 m ρ c (Proc.devRef .tc main_v59) : S1x128.Idx → EReal) (ix2 (0 : Fin 1) j)
    = scale (m ((c : Thread nD τ).loc main_arg11)) (W6 m ρ c (Proc.devRef .tc main_v48_1)) (W6 m ρ c (Proc.devRef .tc main_v48_2)) j := by
  rw [W7_v59, W6_main_arg11, scaleArr_apply]

/-- The shift row after stretch 3, at a column. -/
theorem W7_v62_apply (j : Fin 128) : (W7 m ρ c (Proc.devRef .tc main_v62) : S1x128.Idx → EReal) (ix2 (0 : Fin 1) j)
    = shift (m ((c : Thread nD τ).loc main_arg11)) (m ((c : Thread nD τ).loc main_arg12))
        (W6 m ρ c (Proc.devRef .tc main_v48_1)) (W6 m ρ c (Proc.devRef .tc main_v48_2)) j := by
  rw [W7_v62, W6_main_arg11, W6_main_arg12, shiftArr_apply]

/-! ## The tail: pooling by graph, the read-out, and the log-softmax -/

/-- The rows of Y scatter-added from zero at their graph numbers B. -/
def pooledK (Y : FVec Ideal S100000x128 .f32) (B : IVec S100000 32) : FVec Ideal S256x128 .f32 :=
  Host.scatterAdd (F := Ideal) scatter_S256x128_S100000x1_S100000x128_1_0_0_1
    (broadcastInDim S256x128 ![] bcast_S_S256x128 (constant (F := Ideal) S_ .f32 0x00000000#32))
    (broadcastInDim S100000x1 ![0] bcast_S100000_S100000x1_0 B) Y

/-- The number of rows of each graph, at least one: ones scatter-added from zero at the graph numbers, then the
    maximum with one. -/
def countK (B : IVec S100000 32) : FVec Ideal S256 .f32 :=
  maximumf (F := Ideal)
    (Host.scatterAdd (F := Ideal) scatter_S256_S100000x1_S100000_n_0_0_1
      (broadcastInDim S256 ![] bcast_S_S256 (constant (F := Ideal) S_ .f32 0x00000000#32))
      (broadcastInDim S100000x1 ![0] bcast_S100000_S100000x1_0 B)
      (broadcastInDim S100000 ![] bcast_S_S100000 (constant (F := Ideal) S_ .f32 0x3F800000#32)))
    (broadcastInDim S256 ![] bcast_S_S256 (constant (F := Ideal) S_ .f32 0x3F800000#32))

/-- The read-out: the per-graph mean rows times the weights, plus the bias. -/
def logitsK (Y : FVec Ideal S100000x128 .f32) (B : IVec S100000 32) (Wt : FVec Ideal S128x7 .f32) (bias : FVec Ideal S7 .f32) :
    FVec Ideal S256x7 .f32 :=
  addf (F := Ideal)
    (Host.dotGeneral (F := Ideal) dot_S256x128_S128x7_S256x7_1_0_0_1_n_n none
      (Host.divf (F := Ideal) (pooledK Y B)
        (broadcastInDim S256x128 ![0, 1] bcast_S256x1_S256x128_0_1 (broadcastInDim S256x1 ![0] bcast_S256_S256x1_0 (countK B))))
      Wt)
    (broadcastInDim S256x7 ![0, 1] bcast_S1x7_S256x7_0_1 (broadcastInDim S1x7 ![1] bcast_S7_S1x7_1 bias))

/-- A row's entries less the row maximum (the maximum taken from -inf, and once more against -inf). -/
def shiftedK (z : FVec Ideal S256x7 .f32) : FVec Ideal S256x7 .f32 :=
  subf (F := Ideal) z
    (broadcastInDim S256x7 ![0, 1] bcast_S256x1_S256x7_0_1
      (broadcastInDim S256x1 ![0] bcast_S256_S256x1_0
        (maximumf (F := Ideal)
          (broadcastInDim S256 ![] bcast_S_S256 (constant (F := Ideal) S_ .f32 0xFF800000#32))
          (Host.reduce (FloatOps.maximumf (F := Ideal) (φ := .f32)) z (constant (F := Ideal) S_ .f32 0xFF800000#32)
            reducesTo_S256x7_S256_d1 h_S_))))

/-- The log-softmax of each row: the shifted entries less the logarithm of the row sum of their exponentials. -/
def logSoftmaxK (z : FVec Ideal S256x7 .f32) : FVec Ideal S256x7 .f32 :=
  subf (F := Ideal) (shiftedK z)
    (broadcastInDim S256x7 ![0, 1] bcast_S256x1_S256x7_0_1
      (Host.log (F := Ideal)
        (broadcastInDim S256x1 ![0] bcast_S256_S256x1_0
          (Host.reduceAdd (F := Ideal) (Host.exp (F := Ideal) (shiftedK z)) (constant (F := Ideal) S_ .f32 0x00000000#32)
            reducesTo_S256x7_S256_d1 h_S_))))

/-- The tail as one function of region 3's output, the graph numbers, and the read-out weights and bias. -/
def tailK (Y : FVec Ideal S100000x128 .f32) (B : IVec S100000 32) (Wt : FVec Ideal S128x7 .f32) (bias : FVec Ideal S7 .f32) :
    FVec Ideal S256x7 .f32 :=
  logSoftmaxK (logitsK Y B Wt bias)

/-- The read-out stretch 4 leaves, from region 3's output. -/
theorem W9_v79 : (W9 m ρ c (Proc.devRef .tc main_v79) : S256x7.Idx → EReal)
    = logitsK (W8 m ρ c (Proc.devRef .tc main_v63)) (W8 m ρ c (Proc.devRef .tc main_arg16))
        (W8 m ρ c (Proc.devRef .tc main_arg13)) (W8 m ρ c (Proc.devRef .tc main_arg14)) := by
  show StableHlo.after hostOps4 (W8 m ρ c) (Proc.devRef .tc main_v79) = _
  after_results_simp
  rfl

/-- The log-softmax the last stretch leaves, from the read-out. -/
theorem W10_v80_of_v79 : (W10 m ρ c (Proc.devRef .tc main_v80) : S256x7.Idx → EReal)
    = logSoftmaxK (W9 m ρ c (Proc.devRef .tc main_v79)) := by
  show StableHlo.after hostOps4_1 (W9 m ρ c) (Proc.devRef .tc main_v80) = _
  after_results_simp
  rfl

/-- The result, from region 3's output and the launch memory's graph numbers, weights and bias. -/
theorem W10_v80 : (W10 m ρ c (Proc.devRef .tc main_v80) : S256x7.Idx → EReal)
    = tailK (W8 m ρ c (Proc.devRef .tc main_v63)) (m ((c : Thread nD τ).loc main_arg16)) (m ((c : Thread nD τ).loc main_arg13)) (m ((c : Thread nD τ).loc main_arg14)) := by
  rw [W10_v80_of_v79, W9_v79, W8_main_arg16, W8_main_arg13, W8_main_arg14]; rfl

end Cert.KernelIdeal.HostVals
-- ==== Proof.Pay.lean ====
/-
  The arithmetic of one row block, read at an index over the extended reals.

  A block of the message-passing layer holds 4000 rows.  Row r, column j of its result is
      (∑ k, max ((∑ k', (x r k' + a r k') · w₁ k' k) + b₁ k) 0 · w₂ k j) + b₂ j,
  the two matrix products started from a zero accumulator, the changes of float format the identity.
  The two running column sums receive ∑ r of that entry, and ∑ r of its square.  A block of the
  normalisation layer holds  max (h r j · s j + d j) 0.
-/
import proofs.«148986_j16054587752866_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.PayAt

open Cert.KernelIdeal Cert.KernelIdeal.Gen

/-- The contraction of a 4000 × 128 block with a 128 × 128 matrix. -/
abbrev dotBlk := dot_S4000x128_S128x128_S4000x128_1_0_0_1_n_n

theorem lhs_0 (i : S4000x128.Idx) (q : dotBlk.contr.Idx) : (dotBlk.lhsIdx i q 0).val = (i 0).val := by
  unfold DotDims.lhsIdx
  rw [dif_neg (show ¬(0 : Fin S4000x128.rank) ∈ dotBlk.lhsBatch by decide), dif_pos (show (0 : Fin S4000x128.rank) ∈ dotBlk.lhsNonContracting by decide)]
  rfl
theorem lhs_1 (i : S4000x128.Idx) (q : dotBlk.contr.Idx) : (dotBlk.lhsIdx i q 1).val = (q ⟨0, by decide⟩).val :=
  dotBlk.lhsIdx_val_of_single rfl i q
theorem rhs_0 (i : S4000x128.Idx) (q : dotBlk.contr.Idx) : (dotBlk.rhsIdx i q 0).val = (q ⟨0, by decide⟩).val :=
  dotBlk.rhsIdx_val_of_single rfl i q
theorem rhs_1 (i : S4000x128.Idx) (q : dotBlk.contr.Idx) : (dotBlk.rhsIdx i q 1).val = (i 1).val := by
  unfold DotDims.rhsIdx
  rw [dif_neg (show ¬(1 : Fin S128x128.rank) ∈ dotBlk.rhsBatch by decide), dif_pos (show (1 : Fin S128x128.rank) ∈ dotBlk.rhsNonContracting by decide)]
  rfl

/-- A block product from the zero accumulator is the plain sum of products over the 128 contracted columns. -/
theorem matmul_at {φ₁ φ₂ : FTy} (l : FVec Ideal S4000x128 φ₁) (w : FVec Ideal S128x128 φ₂) (r : Fin 4000) (j : Fin 128) :
    matmul dotBlk none l w (constant S4000x128 .f32 0x00000000#32) (ix2 r j) = ∑ k : Fin 128, l (ix2 r k) * w (ix2 k j) := by
  simp only [matmul]
  rw [Ideal.matmul_constant_zero_apply, ← Equiv.sum_comp (ValueIdx.contrEquiv1 dotBlk 128 rfl rfl).symm]
  refine Finset.sum_congr rfl fun k _ => ?_
  have hk := ValueIdx.contrEquiv1_symm_val dotBlk 128 rfl rfl k
  have el : dotBlk.lhsIdx (ix2 r j) ((ValueIdx.contrEquiv1 dotBlk 128 rfl rfl).symm k) = ix2 r k := funext fun a => Fin.ext (by
    match a with
    | ⟨0, _⟩ => exact lhs_0 _ _
    | ⟨1, _⟩ => exact (lhs_1 _ _).trans hk)
  have er : dotBlk.rhsIdx (ix2 r j) ((ValueIdx.contrEquiv1 dotBlk 128 rfl rfl).symm k) = ix2 k j := funext fun a => Fin.ext (by
    match a with
    | ⟨0, _⟩ => exact (rhs_0 _ _).trans hk
    | ⟨1, _⟩ => exact rhs_1 _ _)
  rw [el, er]

/-- A row vector spread over the 4000 rows of a block reads its own column. -/
theorem rowBcast_at {φ : FTy} (v : FVec Ideal S1x128 φ) (r : Fin 4000) (j : Fin 128) :
    broadcastTo S4000x128 v broadcasts_S1x128_S4000x128 (ix2 r j) = v (ix2 0 j) :=
  broadcastTo_apply v broadcasts_S1x128_S4000x128 (ix2 r j) (ix2 0 j) (fun a => by
    match a with
    | ⟨0, _⟩ => rfl
    | ⟨1, _⟩ => rfl)

/-- The sum over the rows of a block, kept as a 1 × 128 row. -/
theorem colSum_at (v : FVec Ideal S4000x128 .f32) (hacc : (0x00000000#32 : BitVec 32) = 0x00000000#32) (j : Fin 128) :
    shapeCast S1x128 (multiReduction .add [0] S128 v 0x00000000#32 reduces_S4000x128_S128 (.inl rfl) hacc) shapeCasts_S128_S1x128 (ix2 0 j)
      = ∑ r : Fin 4000, v (ix2 r j) := by
  refine (shapeCast_addUnit_apply ![128] _ shapeCasts_S128_S1x128 (ix2 0 j)).trans ?_
  refine (Ideal.multiReduction_add_single v 0x00000000#32 reduces_S4000x128_S128 (.inl rfl) hacc _).trans ?_
  refine Finset.sum_congr rfl fun k _ => congrArg v ?_
  funext c; apply Fin.ext
  fin_cases c <;> rfl

/-- Row r, column j of a block of the message-passing layer. -/
theorem pay4_at (x a : FVec Ideal S4000x128 .f32) (w1 : FVec Ideal S128x128 .bf16) (b1 : FVec Ideal S1x128 .f32)
    (w2 : FVec Ideal S128x128 .bf16) (b2 : FVec Ideal S1x128 .f32) (r : Fin 4000) (j : Fin 128) :
    k0_pay4 x a w1 b1 w2 b2 (ix2 r j)
      = (∑ k : Fin 128, max ((∑ k' : Fin 128, (x (ix2 r k') + a (ix2 r k')) * w1 (ix2 k' k)) + b1 (ix2 0 k)) 0 * w2 (ix2 k j)) + b2 (ix2 0 j) := by
  unfold k0_pay4
  simp only [shapeCast_self]
  rw [addf_apply, matmul_at, rowBcast_at]
  refine congrArg (· + b2 (ix2 0 j)) (Finset.sum_congr rfl fun k _ => congrArg (· * w2 (ix2 k j)) ?_)
  rw [truncf_apply, maximumf_apply, addf_apply, matmul_at, rowBcast_at, broadcast_apply]
  refine congrArg₂ max (congrArg (· + b1 (ix2 0 k)) (Finset.sum_congr rfl fun k' _ => ?_)) (by simp [Scalar.ofBits, Ideal.ofBits, Ideal.ieee])
  rw [truncf_apply, addf_apply]

/-- The zero word denotes zero. -/
theorem zeroWord : (Scalar.ofBits (F := Ideal) .f32 0x00000000#32 : EReal) = 0 := by simp [Scalar.ofBits, Ideal.ofBits, Ideal.ieee]

/-- The running column sum after a block: what it held plus the block's column sums. -/
theorem pay5_at (x a : FVec Ideal S4000x128 .f32) (w1 : FVec Ideal S128x128 .bf16) (b1 : FVec Ideal S1x128 .f32)
    (w2 : FVec Ideal S128x128 .bf16) (b2 : FVec Ideal S1x128 .f32) (acc : FVec Ideal S1x128 .f32) (j : Fin 128) :
    k0_pay5 x a w1 b1 w2 b2 acc (ix2 0 j) = acc (ix2 0 j) + ∑ r : Fin 4000, k0_pay4 x a w1 b1 w2 b2 (ix2 r j) := by
  unfold k0_pay5
  simp only [shapeCast_self]
  rw [addf_apply, colSum_at]

/-- The running column sum of squares after a block. -/
theorem pay1_at (v : FVec Ideal S4000x128 .f32) (acc : FVec Ideal S1x128 .f32) (j : Fin 128) :
    k0_pay1 v acc (ix2 0 j) = acc (ix2 0 j) + ∑ r : Fin 4000, v (ix2 r j) * v (ix2 r j) := by
  unfold k0_pay1
  simp only [shapeCast_self]
  rw [addf_apply, colSum_at]
  rfl

theorem pay2_at (i : S1x128.Idx) : (k0_pay2 (F := Ideal)) i = 0 := by
  unfold k0_pay2; exact zeroWord
theorem pay3_at (i : S1x128.Idx) : (k0_pay3 (F := Ideal)) i = 0 := by
  unfold k0_pay3; exact zeroWord

/-- Row r, column j of a block of the normalisation layer. -/
theorem bn_at (h : FVec Ideal S4000x128 .f32) (s d : FVec Ideal S1x128 .f32) (r : Fin 4000) (j : Fin 128) :
    k1_pay1 h s d (ix2 r j) = max (h (ix2 r j) * s (ix2 0 j) + d (ix2 0 j)) 0 := by
  unfold k1_pay1
  simp only [shapeCast_self]
  rw [maximumf_apply, addf_apply, mulf_apply, rowBcast_at, rowBcast_at, broadcast_apply, zeroWord]

end Cert.KernelIdeal.PayAt
end
-- ==== Proof.Body0.lean ====
/-
  What one run of the message-passing layer's body leaves in its three output buffers, as values.

  At the first grid point the body clears the two running sums, then stores the block's result and adds the
  block's column sums (of the entries, and of their squares) to the cleared sums.  At every later point it
  adds them to what the point before left.  Each buffer is written by stores that cover it whole, so what it
  holds is the last store's value, whose loads read whole buffers.
-/
import proofs.«148986_j16054587752866_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Body0

open Cert.KernelIdeal Cert.KernelIdeal.Gen

variable {F : FTy → Type} [FloatOps F]

theorem hz : (![0, 0] : Fin 2 → Nat) = fun _ => 0 := funext fun a => by fin_cases a <;> rfl

/-- At the first point the block's result is the layer's arithmetic of the six input blocks. -/
theorem out_A_6 (c : Dev nD) (i : grid0.Coords) (a1 : Memref sig .tc .vmem S4000x128 .f32) (h1 : a1.IsWhole) (a2 : Memref sig .tc .vmem S4000x128 .f32) (h2 : a2.IsWhole) (a3 : Memref sig .tc .vmem S128x128 .bf16) (h3 : a3.IsWhole) (a4 : Memref sig .tc .vmem S1x128 .f32) (h4 : a4.IsWhole) (a5 : Memref sig .tc .vmem S128x128 .bf16) (h5 : a5.IsWhole) (a6 : Memref sig .tc .vmem S1x128 .f32) (h6 : a6.IsWhole) (a7 : Memref sig .tc .vmem S4000x128 .f32) (h7 : a7.IsWhole) (a8 : Memref sig .tc .vmem S1x128 .f32) (h8 : a8.IsWhole) (a9 : Memref sig .tc .vmem S1x128 .f32) (h9 : a9.IsWhole) (hc : cond0_0 i) (x0 : Vec F S4000x128 .f32) (x1 : Vec F S4000x128 .f32) (x2 : Vec F S128x128 .bf16) (x3 : Vec F S1x128 .f32) (x4 : Vec F S128x128 .bf16) (x5 : Vec F S1x128 .f32) :
    out0_A_6 c i a1 h1 a2 h2 a3 h3 a4 h4 a5 h5 a6 h6 a7 h7 a8 h8 a9 h9 hc x0 x1 x2 x3 x4 x5 = k0_pay4 x0 x1 x2 x3 x4 x5 := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  rw [View.canon_unit_zero hz]
  simp only [View.readAt_eq_ld, h1.read_unread, h2.read_unread, h3.read_unread, h4.read_unread, h5.read_unread, h6.read_unread,
    View.ld_unit_zero (S := S4000x128) hz, View.ld_unit_zero (S := S128x128) hz, View.ld_unit_zero (S := S1x128) hz]

theorem out_A_7 (c : Dev nD) (i : grid0.Coords) (a1 : Memref sig .tc .vmem S4000x128 .f32) (h1 : a1.IsWhole) (a2 : Memref sig .tc .vmem S4000x128 .f32) (h2 : a2.IsWhole) (a3 : Memref sig .tc .vmem S128x128 .bf16) (h3 : a3.IsWhole) (a4 : Memref sig .tc .vmem S1x128 .f32) (h4 : a4.IsWhole) (a5 : Memref sig .tc .vmem S128x128 .bf16) (h5 : a5.IsWhole) (a6 : Memref sig .tc .vmem S1x128 .f32) (h6 : a6.IsWhole) (a7 : Memref sig .tc .vmem S4000x128 .f32) (h7 : a7.IsWhole) (a8 : Memref sig .tc .vmem S1x128 .f32) (h8 : a8.IsWhole) (a9 : Memref sig .tc .vmem S1x128 .f32) (h9 : a9.IsWhole) (hc : cond0_0 i) (x0 : Vec F S4000x128 .f32) (x1 : Vec F S4000x128 .f32) (x2 : Vec F S128x128 .bf16) (x3 : Vec F S1x128 .f32) (x4 : Vec F S128x128 .bf16) (x5 : Vec F S1x128 .f32) :
    out0_A_7 c i a1 h1 a2 h2 a3 h3 a4 h4 a5 h5 a6 h6 a7 h7 a8 h8 a9 h9 hc x0 x1 x2 x3 x4 x5 = k0_pay5 x0 x1 x2 x3 x4 x5 k0_pay2 := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    View.ld_unit_zero (S := S4000x128) hz, View.ld_unit_zero (S := S128x128) hz, View.ld_unit_zero (S := S1x128) hz]

theorem out_A_8 (c : Dev nD) (i : grid0.Coords) (a1 : Memref sig .tc .vmem S4000x128 .f32) (h1 : a1.IsWhole) (a2 : Memref sig .tc .vmem S4000x128 .f32) (h2 : a2.IsWhole) (a3 : Memref sig .tc .vmem S128x128 .bf16) (h3 : a3.IsWhole) (a4 : Memref sig .tc .vmem S1x128 .f32) (h4 : a4.IsWhole) (a5 : Memref sig .tc .vmem S128x128 .bf16) (h5 : a5.IsWhole) (a6 : Memref sig .tc .vmem S1x128 .f32) (h6 : a6.IsWhole) (a7 : Memref sig .tc .vmem S4000x128 .f32) (h7 : a7.IsWhole) (a8 : Memref sig .tc .vmem S1x128 .f32) (h8 : a8.IsWhole) (a9 : Memref sig .tc .vmem S1x128 .f32) (h9 : a9.IsWhole) (hc : cond0_0 i) (x0 : Vec F S4000x128 .f32) (x1 : Vec F S4000x128 .f32) (x2 : Vec F S128x128 .bf16) (x3 : Vec F S1x128 .f32) (x4 : Vec F S128x128 .bf16) (x5 : Vec F S1x128 .f32) :
    out0_A_8 c i a1 h1 a2 h2 a3 h3 a4 h4 a5 h5 a6 h6 a7 h7 a8 h8 a9 h9 hc x0 x1 x2 x3 x4 x5 = k0_pay1 (k0_pay4 x0 x1 x2 x3 x4 x5) k0_pay3 := by
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    View.ld_unit_zero (S := S4000x128) hz, View.ld_unit_zero (S := S128x128) hz, View.ld_unit_zero (S := S1x128) hz]

/-- At a later point the block's result is the same arithmetic; the two running sums receive the block's column sums. -/
theorem out_B_6 (c : Dev nD) (i : grid0.Coords) (a1 : Memref sig .tc .vmem S4000x128 .f32) (h1 : a1.IsWhole) (a2 : Memref sig .tc .vmem S4000x128 .f32) (h2 : a2.IsWhole) (a3 : Memref sig .tc .vmem S128x128 .bf16) (h3 : a3.IsWhole) (a4 : Memref sig .tc .vmem S1x128 .f32) (h4 : a4.IsWhole) (a5 : Memref sig .tc .vmem S128x128 .bf16) (h5 : a5.IsWhole) (a6 : Memref sig .tc .vmem S1x128 .f32) (h6 : a6.IsWhole) (a7 : Memref sig .tc .vmem S4000x128 .f32) (h7 : a7.IsWhole) (a8 : Memref sig .tc .vmem S1x128 .f32) (h8 : a8.IsWhole) (a9 : Memref sig .tc .vmem S1x128 .f32) (h9 : a9.IsWhole) (hc : ¬cond0_0 i) (x0 : Vec F S4000x128 .f32) (x1 : Vec F S4000x128 .f32) (x2 : Vec F S128x128 .bf16) (x3 : Vec F S1x128 .f32) (x4 : Vec F S128x128 .bf16) (x5 : Vec F S1x128 .f32) (xo7 : Vec F S1x128 .f32) (xo8 : Vec F S1x128 .f32) :
    out0_B_6 c i a1 h1 a2 h2 a3 h3 a4 h4 a5 h5 a6 h6 a7 h7 a8 h8 a9 h9 hc x0 x1 x2 x3 x4 x5 xo7 xo8 = k0_pay4 x0 x1 x2 x3 x4 x5 := by
  unfold out0_B_6
  rw [View.read_writes_eq_canon _ _ _ (cover0_B_6 c i a1 h1 a2 h2 a3 h3 a4 h4 a5 h5 a6 h6 a7 h7 a8 h8 a9 h9 hc x0 x1 x2 x3 x4 x5 xo7 xo8)]
  unfold kernelRun0_B
  dsimp only
  rw [View.canon_unit_zero hz]
  simp only [View.readAt_eq_ld, h1.read_unread, h2.read_unread, h3.read_unread, h4.read_unread, h5.read_unread, h6.read_unread,
    View.ld_unit_zero (S := S4000x128) hz, View.ld_unit_zero (S := S128x128) hz, View.ld_unit_zero (S := S1x128) hz]

theorem out_B_7 (c : Dev nD) (i : grid0.Coords) (a1 : Memref sig .tc .vmem S4000x128 .f32) (h1 : a1.IsWhole) (a2 : Memref sig .tc .vmem S4000x128 .f32) (h2 : a2.IsWhole) (a3 : Memref sig .tc .vmem S128x128 .bf16) (h3 : a3.IsWhole) (a4 : Memref sig .tc .vmem S1x128 .f32) (h4 : a4.IsWhole) (a5 : Memref sig .tc .vmem S128x128 .bf16) (h5 : a5.IsWhole) (a6 : Memref sig .tc .vmem S1x128 .f32) (h6 : a6.IsWhole) (a7 : Memref sig .tc .vmem S4000x128 .f32) (h7 : a7.IsWhole) (a8 : Memref sig .tc .vmem S1x128 .f32) (h8 : a8.IsWhole) (a9 : Memref sig .tc .vmem S1x128 .f32) (h9 : a9.IsWhole) (hc : ¬cond0_0 i) (x0 : Vec F S4000x128 .f32) (x1 : Vec F S4000x128 .f32) (x2 : Vec F S128x128 .bf16) (x3 : Vec F S1x128 .f32) (x4 : Vec F S128x128 .bf16) (x5 : Vec F S1x128 .f32) (xo7 : Vec F S1x128 .f32) (xo8 : Vec F S1x128 .f32) :
    out0_B_7 c i a1 h1 a2 h2 a3 h3 a4 h4 a5 h5 a6 h6 a7 h7 a8 h8 a9 h9 hc x0 x1 x2 x3 x4 x5 xo7 xo8 = k0_pay5 x0 x1 x2 x3 x4 x5 xo7 := by
  unfold out0_B_7
  rw [View.read_writes_eq_canon _ _ _ (cover0_B_7 c i a1 h1 a2 h2 a3 h3 a4 h4 a5 h5 a6 h6 a7 h7 a8 h8 a9 h9 hc x0 x1 x2 x3 x4 x5 xo7 xo8)]
  unfold kernelRun0_B
  dsimp only
  rw [View.canon_unit_zero hz]
  simp only [View.readAt_eq_ld, h1.read_unread, h2.read_unread, h3.read_unread, h4.read_unread, h5.read_unread, h6.read_unread, h8.read_unread, h9.read_unread,
    View.ld_unit_zero (S := S4000x128) hz, View.ld_unit_zero (S := S128x128) hz, View.ld_unit_zero (S := S1x128) hz]

theorem out_B_8 (c : Dev nD) (i : grid0.Coords) (a1 : Memref sig .tc .vmem S4000x128 .f32) (h1 : a1.IsWhole) (a2 : Memref sig .tc .vmem S4000x128 .f32) (h2 : a2.IsWhole) (a3 : Memref sig .tc .vmem S128x128 .bf16) (h3 : a3.IsWhole) (a4 : Memref sig .tc .vmem S1x128 .f32) (h4 : a4.IsWhole) (a5 : Memref sig .tc .vmem S128x128 .bf16) (h5 : a5.IsWhole) (a6 : Memref sig .tc .vmem S1x128 .f32) (h6 : a6.IsWhole) (a7 : Memref sig .tc .vmem S4000x128 .f32) (h7 : a7.IsWhole) (a8 : Memref sig .tc .vmem S1x128 .f32) (h8 : a8.IsWhole) (a9 : Memref sig .tc .vmem S1x128 .f32) (h9 : a9.IsWhole) (hc : ¬cond0_0 i) (x0 : Vec F S4000x128 .f32) (x1 : Vec F S4000x128 .f32) (x2 : Vec F S128x128 .bf16) (x3 : Vec F S1x128 .f32) (x4 : Vec F S128x128 .bf16) (x5 : Vec F S1x128 .f32) (xo7 : Vec F S1x128 .f32) (xo8 : Vec F S1x128 .f32) :
    out0_B_8 c i a1 h1 a2 h2 a3 h3 a4 h4 a5 h5 a6 h6 a7 h7 a8 h8 a9 h9 hc x0 x1 x2 x3 x4 x5 xo7 xo8 = k0_pay1 (k0_pay4 x0 x1 x2 x3 x4 x5) xo8 := by
  unfold out0_B_8
  rw [View.read_writes_eq_canon _ _ _ (cover0_B_8 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread, h6.read_unread, h8.read_unread, h9.read_unread,
    View.ld_unit_zero (S := S4000x128) hz, View.ld_unit_zero (S := S128x128) hz, View.ld_unit_zero (S := S1x128) hz]

end Cert.KernelIdeal.Body0
end
-- ==== Proof.Laws.lean ====
import proofs.«148986_j16054587752866_1_alg».proof.Proof.Basic
import Mathlib
import Idealize.ShloMosaic.PureOps.Ideal

/-!
# Laws of the extended reals for a batch normalisation written two ways

Throughout, the quotient is Ideal.div (by a nonzero divisor it is x * y⁻¹, that is x / y: div_eq_div,
div_coe_eq_div) and the square root is Ideal.sqrt (the real square root on nonnegative reals).

Coercions
* coe_sum : ((∑ i ∈ s, f i : ℝ) : EReal) = ∑ i ∈ s, (f i : EReal)
* coe_max : ((max a b : ℝ) : EReal) = max (a : EReal) (b : EReal)

Closure of the real values
* isReal_zero : IsReal 0;  isReal_one : IsReal 1;  IsReal.coe r : IsReal (r : EReal)   (Basic)
* IsReal.add, IsReal.sub, IsReal.mul, IsReal.max : IsReal x → IsReal y → IsReal (x ∘ y)
* IsReal.neg : IsReal x → IsReal (-x)
* IsReal.sum s f : (∀ i ∈ s, IsReal (f i)) → IsReal (∑ i ∈ s, f i)
* IsReal.sum_univ f : (∀ i, IsReal (f i)) → IsReal (∑ i, f i)
* IsReal.div_coe : IsReal x → ∀ y : ℝ, y ≠ 0 → IsReal (Ideal.div x (y : EReal))
* IsReal.div : IsReal x → IsReal y → y ≠ 0 → IsReal (Ideal.div x y)
* IsReal.sqrt : IsReal x → 0 ≤ x → IsReal (Ideal.sqrt x)

Division and square root
* div_coe_coe x y : y ≠ 0 → Ideal.div (x : EReal) (y : EReal) = ((x / y : ℝ) : EReal)
* div_eq_div x y : y ≠ 0 → Ideal.div x y = x / y
* div_coe_eq_div x (y : ℝ) : y ≠ 0 → Ideal.div x (y : EReal) = x / (y : EReal)
* sqrt_coe_of_nonneg r : 0 ≤ r → Ideal.sqrt (r : EReal) = ((Real.sqrt r : ℝ) : EReal)
* sqrt_real_pos : IsReal x → 0 < x → ∃ s : ℝ, 0 < s ∧ Ideal.sqrt x = (s : EReal)
* sqrt_pos : IsReal x → 0 < x → 0 < Ideal.sqrt x;   sqrt_ne_zero : … → Ideal.sqrt x ≠ 0
* isReal_div_sqrt : IsReal g → IsReal x → 0 < x → IsReal (Ideal.div g (Ideal.sqrt x))

Variance (p : ι → EReal, hp : ∀ i, IsReal (p i), N : ℝ, hcard : (Fintype.card ι : ℝ) = N)
* real_variance q N m : … → m = (∑ j, q j) / N →
    (∑ i, (q i - m) * (q i - m)) / N = (∑ i, q i * q i) / N - m * m            (over ℝ)
* mean_eq_coe, varRef_eq_coe, varKer_eq_coe : the three quantities on coerced reals, as coerced reals
* variance_eq p hp N hcard (hN : N ≠ 0) μ (hμ : μ = Ideal.div (0 + ∑ i, p i) N) :
    Ideal.div (0 + ∑ i, (p i - μ) * (p i - μ)) N = Ideal.div (∑ i, p i * p i) N - μ * μ
* variance_eq_div : the same with / in place of Ideal.div
* isReal_mean p hp N (hN : N ≠ 0) : IsReal (Ideal.div (0 + ∑ i, p i) N)
* varRef_real_nonneg p hp N (hN : 0 < N) μ (hμ : IsReal μ) :
    ∃ v : ℝ, 0 ≤ v ∧ Ideal.div (0 + ∑ i, (p i - μ) * (p i - μ)) N = (v : EReal)
* isReal_varRef, varRef_nonneg : its two halves
* add_pos_real : IsReal v → 0 ≤ v → IsReal e → 0 < e → ∃ x : ℝ, 0 < x ∧ v + e = (x : EReal)
* varRef_add_eps_pos : ∃ x : ℝ, 0 < x ∧ Ideal.div (0 + ∑ i, (p i - μ) * (p i - μ)) N + eps = (x : EReal)

Affine law (h μ s b real)
* affine : (h - μ) * s + b = h * s + (b - μ * s)
* affine_max : max ((h - μ) * s + b) 0 = max (h * s + (b - μ * s)) 0
* isReal_affine_max : IsReal (max ((h - μ) * s + b) 0)

The normalisation (g b eps real, 0 < eps, 0 < N, μ vr vk as in the variance laws)
* batchnorm_eq … i : max ((p i - μ) * Ideal.div g (Ideal.sqrt (vr + eps)) + b) 0
    = max (p i * Ideal.div g (Ideal.sqrt (vk + eps)) + (b - μ * Ideal.div g (Ideal.sqrt (vk + eps)))) 0
* batchnorm_eq_div : the same with / in place of Ideal.div everywhere
* isReal_batchnorm … i : IsReal (max ((p i - μ) * Ideal.div g (Ideal.sqrt (vr + eps)) + b) 0)
* card_fin_100000 : (Fintype.card (Fin 100000) : ℝ) = 100000

Regrouping and the running total (any additive commutative monoid)
* sum_regroup_general m n f h : ∑ t : Fin m, ∑ r : Fin n, f ⟨t * n + r, h t r⟩ = ∑ i, f i
* sum_regroup f h : ∑ t : Fin 25, ∑ r : Fin 4000, f ⟨t * 4000 + r, h t r⟩ = ∑ i : Fin 100000, f i
* sum_blocks_nat (g : ℕ → M) :
    ∑ s ∈ Finset.range 25, ∑ r : Fin 4000, g (s * 4000 + r) = ∑ i : Fin 100000, g i
* fold_eq_sum a S : a 0 = 0 + S 0 → (∀ t, a (t + 1) = a t + S (t + 1)) →
    ∀ t, a t = ∑ s ∈ Finset.range (t + 1), S s
* fold_eq_sum_lt n a S : the same with the step law only for t + 1 < n, concluding for t < n
* fold_eq_sum_fin25 a S : … → a 24 = ∑ t : Fin 25, S t
-/

open Idealize.ShloMosaic

namespace Cert.Laws

/-! ## Coercion of finite sums -/

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Closure of the real values -/

theorem isReal_zero : IsReal 0 := ⟨0, EReal.coe_zero.symm⟩

theorem isReal_one : IsReal 1 := ⟨1, EReal.coe_one.symm⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.sub {x y : EReal} (hx : IsReal x) (hy : IsReal y) : IsReal (x - y) := by
  obtain ⟨a, rfl⟩ := hx; obtain ⟨b, rfl⟩ := hy
  exact ⟨a - b, (EReal.coe_sub a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.neg {x : EReal} (hx : IsReal x) : IsReal (-x) := by
  obtain ⟨a, rfl⟩ := hx
  exact ⟨-a, (EReal.coe_neg a).symm⟩

/-- The coercion commutes with the maximum. -/
theorem coe_max (a b : ℝ) : ((max a b : ℝ) : EReal) = max (a : EReal) (b : EReal) :=
  EReal.coe_strictMono.monotone.map_max

theorem IsReal.max {x y : EReal} (hx : IsReal x) (hy : IsReal y) : IsReal (max x y) := by
  obtain ⟨a, rfl⟩ := hx; obtain ⟨b, rfl⟩ := hy
  exact ⟨Max.max a b, (coe_max a b).symm⟩

theorem IsReal.sum {ι : Type*} (s : Finset ι) (f : ι → EReal) (h : ∀ i ∈ s, IsReal (f i)) :
    IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

theorem IsReal.sum_univ {ι : Type*} [Fintype ι] (f : ι → EReal) (h : ∀ i, IsReal (f i)) :
    IsReal (∑ i, f i) :=
  IsReal.sum Finset.univ f fun i _ => h i

/-! ## Division -/

/-- The quotient of two reals, the divisor nonzero, is the real quotient. -/
theorem div_coe_coe (x y : ℝ) (hy : y ≠ 0) :
    Ideal.div (x : EReal) (y : EReal) = ((x / y : ℝ) : EReal) := by
  rw [Ideal.div_coe hy, ← EReal.coe_mul, mul_one_div]

/-- Off a zero divisor the quotient is the extended reals' own. -/
theorem div_eq_div (x y : EReal) (hy : y ≠ 0) : Ideal.div x y = x / y := by
  rw [Ideal.div, if_neg hy, div_eq_mul_inv]

theorem IsReal.div_coe {x : EReal} (hx : IsReal x) (y : ℝ) (hy : y ≠ 0) :
    IsReal (Ideal.div x (y : EReal)) := by
  obtain ⟨a, rfl⟩ := hx
  exact ⟨a / y, div_coe_coe a y hy⟩

theorem IsReal.div {x y : EReal} (hx : IsReal x) (hy : IsReal y) (h0 : y ≠ 0) :
    IsReal (Ideal.div x y) := by
  obtain ⟨b, rfl⟩ := hy
  exact hx.div_coe b (EReal.coe_ne_zero.mp h0)

/-! ## The variance, written two ways -/

/-- Over the reals: the mean of the squared deviations from the mean is the mean of the squares
    less the squared mean. -/
theorem real_variance {ι : Type*} [Fintype ι] (q : ι → ℝ) (N m : ℝ)
    (hcard : (Fintype.card ι : ℝ) = N) (hN : N ≠ 0) (hm : m = (∑ j, q j) / N) :
    (∑ i, (q i - m) * (q i - m)) / N = (∑ i, q i * q i) / N - m * m := by
  have hsum : ∑ j, q j = N * m := by rw [hm]; field_simp
  have hexp : ∑ i, (q i - m) * (q i - m) = ∑ i, q i * q i - 2 * m * ∑ i, q i + N * (m * m) := by
    have h : ∀ i, (q i - m) * (q i - m) = q i * q i - 2 * m * q i + m * m := fun i => by ring
    simp only [h, Finset.sum_add_distrib, Finset.sum_sub_distrib, ← Finset.mul_sum,
      Finset.sum_const, Finset.card_univ, nsmul_eq_mul, hcard]
    ring
  rw [hexp, hsum]
  field_simp
  ring

/-- The mean of finitely many reals is real. -/
theorem mean_eq_coe {ι : Type*} [Fintype ι] (q : ι → ℝ) (N : ℝ) (hN : N ≠ 0) :
    Ideal.div (0 + ∑ i, (q i : EReal)) (N : EReal) = (((∑ i, q i) / N : ℝ) : EReal) := by
  rw [zero_add, ← coe_sum, div_coe_coe _ _ hN]

/-- The reference variance as a real number. -/
theorem varRef_eq_coe {ι : Type*} [Fintype ι] (q : ι → ℝ) (N m : ℝ) (hN : N ≠ 0) :
    Ideal.div (0 + ∑ i, ((q i : EReal) - (m : EReal)) * ((q i : EReal) - (m : EReal))) (N : EReal)
      = (((∑ i, (q i - m) * (q i - m)) / N : ℝ) : EReal) := by
  simp only [zero_add, ← EReal.coe_sub, ← EReal.coe_mul, ← coe_sum, div_coe_coe _ _ hN]

/-- The kernel variance as a real number. -/
theorem varKer_eq_coe {ι : Type*} [Fintype ι] (q : ι → ℝ) (N m : ℝ) (hN : N ≠ 0) :
    Ideal.div (∑ i, (q i : EReal) * (q i : EReal)) (N : EReal) - (m : EReal) * (m : EReal)
      = (((∑ i, q i * q i) / N - m * m : ℝ) : EReal) := by
  simp only [← EReal.coe_sub, ← EReal.coe_mul, ← coe_sum, div_coe_coe _ _ hN]

/-- The two variances agree on real data. -/
theorem variance_eq {ι : Type*} [Fintype ι] (p : ι → EReal) (hp : ∀ i, IsReal (p i)) (N : ℝ)
    (hcard : (Fintype.card ι : ℝ) = N) (hN : N ≠ 0)
    (μ : EReal) (hμ : μ = Ideal.div (0 + ∑ i, p i) (N : EReal)) :
    Ideal.div (0 + ∑ i, (p i - μ) * (p i - μ)) (N : EReal)
      = Ideal.div (∑ i, p i * p i) (N : EReal) - μ * μ := by
  choose q hq using hp
  obtain rfl : p = fun i => (q i : EReal) := funext hq
  rw [mean_eq_coe q N hN] at hμ
  subst hμ
  rw [varRef_eq_coe q N _ hN, varKer_eq_coe q N _ hN, real_variance q N _ hcard hN rfl]

/-- The mean is real. -/
theorem isReal_mean {ι : Type*} [Fintype ι] (p : ι → EReal) (hp : ∀ i, IsReal (p i)) (N : ℝ)
    (hN : N ≠ 0) : IsReal (Ideal.div (0 + ∑ i, p i) (N : EReal)) :=
  (isReal_zero.add (IsReal.sum_univ p hp)).div_coe N hN

/-- The reference variance is a nonnegative real. -/
theorem varRef_real_nonneg {ι : Type*} [Fintype ι] (p : ι → EReal) (hp : ∀ i, IsReal (p i))
    (N : ℝ) (hN : 0 < N) (μ : EReal) (hμ : IsReal μ) :
    ∃ v : ℝ, 0 ≤ v ∧ Ideal.div (0 + ∑ i, (p i - μ) * (p i - μ)) (N : EReal) = (v : EReal) := by
  choose q hq using hp
  obtain rfl : p = fun i => (q i : EReal) := funext hq
  obtain ⟨m, rfl⟩ := hμ
  refine ⟨(∑ i, (q i - m) * (q i - m)) / N, ?_, varRef_eq_coe q N m hN.ne'⟩
  exact div_nonneg (Finset.sum_nonneg fun i _ => mul_self_nonneg _) hN.le

theorem isReal_varRef {ι : Type*} [Fintype ι] (p : ι → EReal) (hp : ∀ i, IsReal (p i))
    (N : ℝ) (hN : 0 < N) (μ : EReal) (hμ : IsReal μ) :
    IsReal (Ideal.div (0 + ∑ i, (p i - μ) * (p i - μ)) (N : EReal)) := by
  obtain ⟨v, _, h⟩ := varRef_real_nonneg p hp N hN μ hμ
  exact ⟨v, h⟩

theorem varRef_nonneg {ι : Type*} [Fintype ι] (p : ι → EReal) (hp : ∀ i, IsReal (p i))
    (N : ℝ) (hN : 0 < N) (μ : EReal) (hμ : IsReal μ) :
    0 ≤ Ideal.div (0 + ∑ i, (p i - μ) * (p i - μ)) (N : EReal) := by
  obtain ⟨v, hv, h⟩ := varRef_real_nonneg p hp N hN μ hμ
  rw [h]; exact EReal.coe_nonneg.mpr hv

/-- A nonnegative real plus a positive real is a positive real. -/
theorem add_pos_real {v e : EReal} (hv : IsReal v) (hv0 : 0 ≤ v) (he : IsReal e) (he0 : 0 < e) :
    ∃ x : ℝ, 0 < x ∧ v + e = (x : EReal) := by
  obtain ⟨a, rfl⟩ := hv; obtain ⟨c, rfl⟩ := he
  exact ⟨a + c, add_pos_of_nonneg_of_pos (EReal.coe_nonneg.mp hv0) (EReal.coe_pos.mp he0),
    (EReal.coe_add a c).symm⟩

/-! ## The square root -/

theorem sqrt_coe_of_nonneg (r : ℝ) (h : 0 ≤ r) :
    Ideal.sqrt (r : EReal) = ((Real.sqrt r : ℝ) : EReal) := by
  rw [Ideal.sqrt_coe, if_neg (not_lt.mpr h)]

/-- The square root of a positive real is a positive real. -/
theorem sqrt_real_pos {x : EReal} (hx : IsReal x) (h : 0 < x) :
    ∃ s : ℝ, 0 < s ∧ Ideal.sqrt x = (s : EReal) := by
  obtain ⟨r, rfl⟩ := hx
  have hr : 0 < r := EReal.coe_pos.mp h
  exact ⟨Real.sqrt r, Real.sqrt_pos.mpr hr, sqrt_coe_of_nonneg r hr.le⟩

theorem IsReal.sqrt {x : EReal} (hx : IsReal x) (h : 0 ≤ x) : IsReal (Ideal.sqrt x) := by
  obtain ⟨r, rfl⟩ := hx
  exact ⟨Real.sqrt r, sqrt_coe_of_nonneg r (EReal.coe_nonneg.mp h)⟩

theorem sqrt_pos {x : EReal} (hx : IsReal x) (h : 0 < x) : 0 < Ideal.sqrt x := by
  obtain ⟨s, hs, e⟩ := sqrt_real_pos hx h
  rw [e]; exact EReal.coe_pos.mpr hs

theorem sqrt_ne_zero {x : EReal} (hx : IsReal x) (h : 0 < x) : Ideal.sqrt x ≠ 0 :=
  (sqrt_pos hx h).ne'

/-- The scale: a real divided by the square root of a positive real is real. -/
theorem isReal_div_sqrt {g x : EReal} (hg : IsReal g) (hx : IsReal x) (h : 0 < x) :
    IsReal (Ideal.div g (Ideal.sqrt x)) :=
  hg.div (hx.sqrt h.le) (sqrt_ne_zero hx h)

/-! ## The affine law -/

/-- Subtracting the mean before scaling is scaling and then adding a shifted offset. -/
theorem affine {h μ s b : EReal} (hh : IsReal h) (hμ : IsReal μ) (hs : IsReal s) (hb : IsReal b) :
    (h - μ) * s + b = h * s + (b - μ * s) := by
  obtain ⟨h, rfl⟩ := hh; obtain ⟨μ, rfl⟩ := hμ; obtain ⟨s, rfl⟩ := hs; obtain ⟨b, rfl⟩ := hb
  simp only [← EReal.coe_sub, ← EReal.coe_mul, ← EReal.coe_add]
  congr 1; ring

theorem affine_max {h μ s b : EReal} (hh : IsReal h) (hμ : IsReal μ) (hs : IsReal s)
    (hb : IsReal b) : max ((h - μ) * s + b) 0 = max (h * s + (b - μ * s)) 0 := by
  rw [affine hh hμ hs hb]

theorem isReal_affine_max {h μ s b : EReal} (hh : IsReal h) (hμ : IsReal μ) (hs : IsReal s)
    (hb : IsReal b) : IsReal (max ((h - μ) * s + b) 0) :=
  (((hh.sub hμ).mul hs).add hb).max isReal_zero

/-! ## The normalisation, written two ways -/

/-- Normalising with the reference variance and subtracting the mean first is normalising with the
    kernel variance and folding the mean into the offset. -/
theorem batchnorm_eq {ι : Type*} [Fintype ι] (p : ι → EReal) (hp : ∀ i, IsReal (p i)) (N : ℝ)
    (hcard : (Fintype.card ι : ℝ) = N) (hN : 0 < N) {g b eps : EReal} (hg : IsReal g)
    (hb : IsReal b) (heps : IsReal eps) (heps0 : 0 < eps) (μ vr vk : EReal)
    (hμ : μ = Ideal.div (0 + ∑ i, p i) (N : EReal))
    (hvr : vr = Ideal.div (0 + ∑ i, (p i - μ) * (p i - μ)) (N : EReal))
    (hvk : vk = Ideal.div (∑ i, p i * p i) (N : EReal) - μ * μ) (i : ι) :
    max ((p i - μ) * Ideal.div g (Ideal.sqrt (vr + eps)) + b) 0
      = max (p i * Ideal.div g (Ideal.sqrt (vk + eps))
          + (b - μ * Ideal.div g (Ideal.sqrt (vk + eps)))) 0 := by
  have hμR : IsReal μ := by rw [hμ]; exact isReal_mean p hp N hN.ne'
  have hvv : vr = vk := by rw [hvr, hvk]; exact variance_eq p hp N hcard hN.ne' μ hμ
  have hvrR : IsReal vr := by rw [hvr]; exact isReal_varRef p hp N hN μ hμR
  have hvr0 : 0 ≤ vr := by rw [hvr]; exact varRef_nonneg p hp N hN μ hμR
  obtain ⟨x, hx, hxe⟩ := add_pos_real hvrR hvr0 heps heps0
  have hsR : IsReal (Ideal.div g (Ideal.sqrt (vr + eps))) :=
    isReal_div_sqrt hg ⟨x, hxe⟩ (by rw [hxe]; exact EReal.coe_pos.mpr hx)
  rw [← hvv]
  exact affine_max (hp i) hμR hsR hb

/-- The normalised, clamped value is real. -/
theorem isReal_batchnorm {ι : Type*} [Fintype ι] (p : ι → EReal) (hp : ∀ i, IsReal (p i)) (N : ℝ)
    (hN : 0 < N) {g b eps : EReal} (hg : IsReal g) (hb : IsReal b) (heps : IsReal eps)
    (heps0 : 0 < eps) (μ vr : EReal) (hμ : μ = Ideal.div (0 + ∑ i, p i) (N : EReal))
    (hvr : vr = Ideal.div (0 + ∑ i, (p i - μ) * (p i - μ)) (N : EReal)) (i : ι) :
    IsReal (max ((p i - μ) * Ideal.div g (Ideal.sqrt (vr + eps)) + b) 0) := by
  have hμR : IsReal μ := by rw [hμ]; exact isReal_mean p hp N hN.ne'
  have hvrR : IsReal vr := by rw [hvr]; exact isReal_varRef p hp N hN μ hμR
  have hvr0 : 0 ≤ vr := by rw [hvr]; exact varRef_nonneg p hp N hN μ hμR
  obtain ⟨x, hx, hxe⟩ := add_pos_real hvrR hvr0 heps heps0
  have hsR : IsReal (Ideal.div g (Ideal.sqrt (vr + eps))) :=
    isReal_div_sqrt hg ⟨x, hxe⟩ (by rw [hxe]; exact EReal.coe_pos.mpr hx)
  exact isReal_affine_max (hp i) hμR hsR hb

/-! ## Regrouping a sum, and the running total -/

/-- A sum over m * n indices is the sum over m blocks of the sums over each block of n. -/
theorem sum_regroup_general {M : Type*} [AddCommMonoid M] (m n : ℕ) (f : Fin (m * n) → M)
    (h : ∀ (t : Fin m) (r : Fin n), t.val * n + r.val < m * n) :
    ∑ t : Fin m, ∑ r : Fin n, f ⟨t.val * n + r.val, h t r⟩ = ∑ i, f i := by
  rw [← Fintype.sum_prod_type']
  refine Fintype.sum_equiv finProdFinEquiv _ _ fun x => congrArg f (Fin.ext ?_)
  simp only [finProdFinEquiv_apply_val]
  ring

/-- One hundred thousand terms as twenty-five blocks of four thousand. -/
theorem sum_regroup {M : Type*} [AddCommMonoid M] (f : Fin 100000 → M)
    (h : ∀ (t : Fin 25) (r : Fin 4000), t.val * 4000 + r.val < 100000) :
    ∑ t : Fin 25, ∑ r : Fin 4000, f ⟨t.val * 4000 + r.val, h t r⟩ = ∑ i : Fin 100000, f i :=
  sum_regroup_general 25 4000 f h

/-- Twenty-five blocks of four thousand consecutive naturals are the naturals below one hundred
    thousand. -/
theorem sum_blocks_nat {M : Type*} [AddCommMonoid M] (g : ℕ → M) :
    ∑ s ∈ Finset.range 25, ∑ r : Fin 4000, g (s * 4000 + r.val) = ∑ i : Fin 100000, g i.val := by
  rw [← Fin.sum_univ_eq_sum_range (fun s => ∑ r : Fin 4000, g (s * 4000 + r.val)) 25]
  exact sum_regroup (fun i => g i.val) (fun t r => by have := t.isLt; have := r.isLt; omega)

/-- A running total that starts at the first term and adds one term per step is the partial sum. -/
theorem fold_eq_sum {M : Type*} [AddCommMonoid M] (a S : ℕ → M) (h0 : a 0 = 0 + S 0)
    (hs : ∀ t, a (t + 1) = a t + S (t + 1)) (t : ℕ) :
    a t = ∑ s ∈ Finset.range (t + 1), S s := by
  induction t with
  | zero => rw [h0, zero_add, Finset.sum_range_one]
  | succ t ih => rw [hs, ih, Finset.sum_range_succ _ (t + 1)]

/-- The same, the step law known only below a bound. -/
theorem fold_eq_sum_lt {M : Type*} [AddCommMonoid M] (n : ℕ) (a S : ℕ → M) (h0 : a 0 = 0 + S 0)
    (hs : ∀ t, t + 1 < n → a (t + 1) = a t + S (t + 1)) (t : ℕ) (ht : t < n) :
    a t = ∑ s ∈ Finset.range (t + 1), S s := by
  induction t with
  | zero => rw [h0, zero_add, Finset.sum_range_one]
  | succ t ih => rw [hs t ht, ih (Nat.lt_of_succ_lt ht), Finset.sum_range_succ _ (t + 1)]

/-- After twenty-five steps the running total is the sum of the twenty-five terms. -/
theorem fold_eq_sum_fin25 {M : Type*} [AddCommMonoid M] (a S : ℕ → M) (h0 : a 0 = 0 + S 0)
    (hs : ∀ t, t + 1 < 25 → a (t + 1) = a t + S (t + 1)) :
    a 24 = ∑ t : Fin 25, S t.val := by
  rw [fold_eq_sum_lt 25 a S h0 hs 24 (by norm_num), Fin.sum_univ_eq_sum_range]

/-! ## The same laws with the extended reals' own quotient -/

/-- By a nonzero real the quotient is the extended reals' own. -/
theorem div_coe_eq_div (x : EReal) (y : ℝ) (hy : y ≠ 0) :
    Ideal.div x (y : EReal) = x / (y : EReal) :=
  div_eq_div x _ (EReal.coe_ne_zero.mpr hy)

theorem variance_eq_div {ι : Type*} [Fintype ι] (p : ι → EReal) (hp : ∀ i, IsReal (p i)) (N : ℝ)
    (hcard : (Fintype.card ι : ℝ) = N) (hN : N ≠ 0)
    (μ : EReal) (hμ : μ = (0 + ∑ i, p i) / (N : EReal)) :
    (0 + ∑ i, (p i - μ) * (p i - μ)) / (N : EReal) = (∑ i, p i * p i) / (N : EReal) - μ * μ := by
  simp only [← div_coe_eq_div _ N hN] at hμ ⊢
  exact variance_eq p hp N hcard hN μ hμ

/-- The reference variance plus a positive real is a positive real. -/
theorem varRef_add_eps_pos {ι : Type*} [Fintype ι] (p : ι → EReal) (hp : ∀ i, IsReal (p i))
    (N : ℝ) (hN : 0 < N) {eps : EReal} (heps : IsReal eps) (heps0 : 0 < eps) (μ : EReal)
    (hμ : IsReal μ) :
    ∃ x : ℝ, 0 < x ∧
      Ideal.div (0 + ∑ i, (p i - μ) * (p i - μ)) (N : EReal) + eps = (x : EReal) :=
  add_pos_real (isReal_varRef p hp N hN μ hμ) (varRef_nonneg p hp N hN μ hμ) heps heps0

theorem batchnorm_eq_div {ι : Type*} [Fintype ι] (p : ι → EReal) (hp : ∀ i, IsReal (p i)) (N : ℝ)
    (hcard : (Fintype.card ι : ℝ) = N) (hN : 0 < N) {g b eps : EReal} (hg : IsReal g)
    (hb : IsReal b) (heps : IsReal eps) (heps0 : 0 < eps) (μ vr vk : EReal)
    (hμ : μ = (0 + ∑ i, p i) / (N : EReal))
    (hvr : vr = (0 + ∑ i, (p i - μ) * (p i - μ)) / (N : EReal))
    (hvk : vk = (∑ i, p i * p i) / (N : EReal) - μ * μ) (i : ι) :
    max ((p i - μ) * (g / Ideal.sqrt (vr + eps)) + b) 0
      = max (p i * (g / Ideal.sqrt (vk + eps)) + (b - μ * (g / Ideal.sqrt (vk + eps)))) 0 := by
  simp only [← div_coe_eq_div _ N hN.ne'] at hμ hvr hvk
  have hμR : IsReal μ := by rw [hμ]; exact isReal_mean p hp N hN.ne'
  have hvv : vr = vk := by rw [hvr, hvk]; exact variance_eq p hp N hcard hN.ne' μ hμ
  obtain ⟨x, hx, hxe⟩ := varRef_add_eps_pos p hp N hN heps heps0 μ hμR
  rw [← hvr] at hxe
  have hne : Ideal.sqrt (vr + eps) ≠ 0 :=
    sqrt_ne_zero ⟨x, hxe⟩ (by rw [hxe]; exact EReal.coe_pos.mpr hx)
  have h := batchnorm_eq p hp N hcard hN hg hb heps heps0 μ vr vk hμ hvr hvk i
  rw [← hvv] at h ⊢
  rwa [div_eq_div g _ hne] at h

/-- The number of indices below one hundred thousand, as a real. -/
theorem card_fin_100000 : (Fintype.card (Fin 100000) : ℝ) = 100000 := by
  rw [Fintype.card_fin]; norm_num

end Cert.Laws
-- ==== Proof.Spec.lean ====
/-
  The two layers as functions of whole arrays, index by index, over the extended reals.

  preArr X A w₁ b₁ w₂ b₂ is the message-passing layer before normalisation: row i, column j is
      (∑ k, max ((∑ k', (X i k' + A i k') · w₁ k' k) + b₁ k) 0 · w₂ k j) + b₂ j.
  colSum and colSumSq are the column sums of a 100000 × 128 array and of its squares, kept as 1 × 128 rows.
-/
import Idealize.ShloMosaic.Lib.ValueIdx
import Idealize.ShloMosaic.PureOps.Ideal.Laws

noncomputable section

open Idealize.ShloMosaic Idealize.ShloMosaic.ValueIdx

namespace Cert.Spec

abbrev SN : Shape := ⟨2, ![100000, 128]⟩
abbrev SW : Shape := ⟨2, ![128, 128]⟩
abbrev SR : Shape := ⟨2, ![1, 128]⟩

/-- The message-passing layer before normalisation. -/
def preArr (X A : SN.Idx → EReal) (w1 : SW.Idx → EReal) (b1 : SR.Idx → EReal) (w2 : SW.Idx → EReal) (b2 : SR.Idx → EReal) : SN.Idx → EReal :=
  fun i => (∑ k : Fin 128, max ((∑ k' : Fin 128, (X (ix2 (i 0) k') + A (ix2 (i 0) k')) * w1 (ix2 k' k)) + b1 (ix2 0 k)) 0 * w2 (ix2 k (i 1))) + b2 (ix2 0 (i 1))

/-- The column sums of an array, as a row. -/
def colSum (H : SN.Idx → EReal) : SR.Idx → EReal := fun i => ∑ r : Fin 100000, H (ix2 r (i 1))

/-- The column sums of its squares. -/
def colSumSq (H : SN.Idx → EReal) : SR.Idx → EReal := fun i => ∑ r : Fin 100000, H (ix2 r (i 1)) * H (ix2 r (i 1))

theorem preArr_apply (X A : SN.Idx → EReal) (w1 : SW.Idx → EReal) (b1 : SR.Idx → EReal) (w2 : SW.Idx → EReal) (b2 : SR.Idx → EReal) (i : Fin 100000) (j : Fin 128) :
    preArr X A w1 b1 w2 b2 (ix2 i j) = (∑ k : Fin 128, max ((∑ k' : Fin 128, (X (ix2 i k') + A (ix2 i k')) * w1 (ix2 k' k)) + b1 (ix2 0 k)) 0 * w2 (ix2 k j)) + b2 (ix2 0 j) := rfl

theorem colSum_apply (H : SN.Idx → EReal) (j : Fin 128) : colSum H (ix2 0 j) = ∑ r : Fin 100000, H (ix2 r j) := rfl
theorem colSumSq_apply (H : SN.Idx → EReal) (j : Fin 128) : colSumSq H (ix2 0 j) = ∑ r : Fin 100000, H (ix2 r j) * H (ix2 r j) := rfl

end Cert.Spec
end
-- ==== Proof.Region0.lean ====
/-
  The message-passing layer as a whole-array function, with its two column sums.

  Each of the 25 grid points reads rows 4000·t … 4000·t + 3999 of the two input arrays and the whole of the two
  weight matrices and the two bias rows.  It writes the same rows of the output: entry (i, j) becomes
      (∑ k, max ((∑ k', (x i k' + a i k') · w₁ k' k) + b₁ k) 0 · w₂ k j) + b₂ j.
  Two 1 × 128 rows are cleared at the first point and receive, at every point, the sums over the block's rows of
  the entries and of their squares; they are written back after the last point.  The 25 blocks cover the output
  array, and 25 blocks of 4000 rows are the 100000 rows, so after the region the three arrays are that function
  of the arrays found, its column sums, and the column sums of its squares.
-/
import proofs.«148986_j16054587752866_1_alg».proof.Proof.Gen.KernelIdeal.Frame
import Idealize.ShloMosaic.Lib.Pipeline.Value
import Idealize.ShloMosaic.Lib.Tactic
import proofs.«148986_j16054587752866_1_alg».proof.Proof.Pay
import proofs.«148986_j16054587752866_1_alg».proof.Proof.Body0
import proofs.«148986_j16054587752866_1_alg».proof.Proof.Laws
import proofs.«148986_j16054587752866_1_alg».proof.Proof.Spec
import Idealize.ShloMosaic.Lib.ValueIdx
set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen

open Idealize.ShloMosaic.ValueIdx

open Cert.Spec (preArr colSum colSumSq)

variable (V : (c : Dev nD) → (b : Ref sig .tc) → Buf (Elt Ideal) ((c : Thread nD τ).loc b))

/-- The block of the result that point t computes. -/
def blkPre (c : Dev nD) (t : Fin cfg0.N) : Vec Ideal S4000x128 .f32 :=
  k0_pay4 (iblk0 V c 0 t) (iblk0 V c 1 t) (iblk0 V c 2 t) (iblk0 V c 3 t) (iblk0 V c 4 t) (iblk0 V c 5 t)

/-- At the first point the three buffers hold the block and the block's sums added to zero rows. -/
theorem outs_A (c : Dev nD) (t : Fin cfg0.N) (h0 : t.val % 25 = 0) :
    outsAt0 V c t.val t.isLt = (blkPre V c t, k0_pay5 (iblk0 V c 0 t) (iblk0 V c 1 t) (iblk0 V c 2 t) (iblk0 V c 3 t) (iblk0 V c 4 t) (iblk0 V c 5 t) (k0_pay2 (F := Ideal)), k0_pay1 (F := Ideal) (blkPre V c t) (k0_pay3 (F := Ideal))) := by
  rw [outsAt0_A V c t h0,
    Body0.out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t),
    Body0.out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t),
    Body0.out_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk0 V c 0 t) (iblk0 V c 1 t) (iblk0 V c 2 t) (iblk0 V c 3 t) (iblk0 V c 4 t) (iblk0 V c 5 t)]
  rfl

/-- At a later point the three buffers hold the block and the block's sums added to what the point before left. -/
theorem outs_B (c : Dev nD) (t : Fin cfg0.N) (h0 : ¬t.val % 25 = 0) :
    outsAt0 V c t.val t.isLt = (blkPre V c t, k0_pay5 (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1,
      k0_pay1 (F := Ideal) (blkPre V c t) (outsAt0 V c (t.val - 1) (Nat.lt_of_le_of_lt (Nat.sub_le _ _) t.isLt)).2.2) := by
  rw [outsAt0_B V c t h0,
    Body0.out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2,
    Body0.out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2,
    Body0.out_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2.1 (outsAt0 V c (t.val - 1) (Nat.lt_of_le_of_lt (Nat.sub_le _ _) t.isLt)).2.2]
  rfl

/-- The two running rows after point n: the sums of the entries and of their squares over the blocks so far. -/
def chain (c : Dev nD) : (n : ℕ) → n < cfg0.N → Vec Ideal S1x128 .f32 × Vec Ideal S1x128 .f32
  | 0, h => (k0_pay5 (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (k0_pay2 (F := Ideal)),
      k0_pay1 (F := Ideal) (blkPre V c ⟨0, h⟩) (k0_pay3 (F := Ideal)))
  | n + 1, h => (k0_pay5 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (chain c n (Nat.lt_of_succ_lt h)).1,
      k0_pay1 (F := Ideal) (blkPre V c ⟨n + 1, h⟩) (chain c n (Nat.lt_of_succ_lt h)).2)

/-- What the three buffers hold after point n: the block, and the two running rows. -/
theorem outsAt_eq (c : Dev nD) : ∀ (n : ℕ) (h : n < cfg0.N),
    outsAt0 V c n h = (blkPre V c ⟨n, h⟩, (chain V c n h).1, (chain V c n h).2)
  | 0, h => outs_A V c ⟨0, h⟩ rfl
  | n + 1, h => by
    have hN : cfg0.N = 25 := N_0
    have hB : ¬(⟨n + 1, h⟩ : Fin cfg0.N).val % 25 = 0 := by dsimp only; omega
    rw [show outsAt0 V c (n + 1) h = _ from outs_B V c ⟨n + 1, h⟩ hB]
    show (_, k0_pay5 _ _ _ _ _ _ (outsAt0 V c n _).2.1, k0_pay1 _ (outsAt0 V c n _).2.2) = _
    rw [outsAt_eq c n]
    rfl

theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- The layer's entry, its indices given up to equality. -/
theorem pre_blk (X A : S100000x128.Idx → EReal) (w1 : S128x128.Idx → EReal) (b1 : S1x128.Idx → EReal)
    (w2 : S128x128.Idx → EReal) (b2 : S1x128.Idx → EReal) (i : S100000x128.Idx)
    (eX eA : Fin 128 → S100000x128.Idx) (ew1 : Fin 128 → Fin 128 → S128x128.Idx) (eb1 : Fin 128 → S1x128.Idx)
    (ew2 : Fin 128 → S128x128.Idx) (eb2 : S1x128.Idx)
    (hX : ∀ k', eX k' = ix2 (i 0) k') (hA : ∀ k', eA k' = ix2 (i 0) k') (hw1 : ∀ k' k, ew1 k' k = ix2 k' k)
    (hb1 : ∀ k, eb1 k = ix2 0 k) (hw2 : ∀ k, ew2 k = ix2 k (i 1)) (hb2 : eb2 = ix2 0 (i 1)) :
    (∑ k : Fin 128, max ((∑ k' : Fin 128, (X (eX k') + A (eA k')) * w1 (ew1 k' k)) + b1 (eb1 k)) 0 * w2 (ew2 k)) + b2 eb2
      = preArr X A w1 b1 w2 b2 i := by
  obtain rfl : eX = fun k' => ix2 (i 0) k' := funext hX
  obtain rfl : eA = fun k' => ix2 (i 0) k' := funext hA
  obtain rfl : ew1 = fun k' k => ix2 k' k := funext fun k' => funext (hw1 k')
  obtain rfl : eb1 = fun k => ix2 0 k := funext hb1
  obtain rfl : ew2 = fun k => ix2 k (i 1) := funext hw2
  subst hb2
  rfl

/-- Row r, column j of the block at point t is row 4000·t + r, column j of the layer on the arrays found. -/
theorem blkPre_at (c : Dev nD) (t : Fin cfg0.N) (r : Fin 4000) (j : Fin 128) (hr : t.val * 4000 + r.val < 100000) :
    blkPre V c t (ix2 r j) = (preArr (V c main_arg0) (V c main_v13) (V c main_v14) (V c main_v16) (V c main_v15) (V c main_v17)) (ix2 ⟨t.val * 4000 + r.val, hr⟩ j) := by
  unfold blkPre
  rw [PayAt.pay4_at]
  obtain ⟨e00, e01, e10, e11, e20, e21, e30, e31, e40, e41, e50, e51, _⟩ := idx_facts t
  have hX : ∀ k' : Fin 128, ((cfg0.win 0).blk t).view.emb (ix2 r k' : S4000x128.Idx) = ix2 ⟨t.val * 4000 + r.val, hr⟩ k' := fun k' => by
    funext a; apply Fin.ext
    match a with
    | ⟨0, _⟩ => show win0_0.index t (0 : Fin 2) * 4000 + 1 * r.val = t.val * 4000 + r.val; rw [e00]; omega
    | ⟨1, _⟩ => show win0_0.index t (1 : Fin 2) * 128 + 1 * k'.val = k'.val; rw [e01]; omega
  have hA : ∀ k' : Fin 128, ((cfg0.win 1).blk t).view.emb (ix2 r k' : S4000x128.Idx) = ix2 ⟨t.val * 4000 + r.val, hr⟩ k' := fun k' => by
    funext a; apply Fin.ext
    match a with
    | ⟨0, _⟩ => show win0_1.index t (0 : Fin 2) * 4000 + 1 * r.val = t.val * 4000 + r.val; rw [e10]; omega
    | ⟨1, _⟩ => show win0_1.index t (1 : Fin 2) * 128 + 1 * k'.val = k'.val; rw [e11]; omega
  have hw1 : ∀ k' k : Fin 128, ((cfg0.win 2).blk t).view.emb (ix2 k' k : S128x128.Idx) = ix2 k' k := fun k' k => by
    funext a; apply Fin.ext
    match a with
    | ⟨0, _⟩ => show win0_2.index t (0 : Fin 2) * 128 + 1 * k'.val = k'.val; rw [e20]; omega
    | ⟨1, _⟩ => show win0_2.index t (1 : Fin 2) * 128 + 1 * k.val = k.val; rw [e21]; omega
  have hb1 : ∀ k : Fin 128, ((cfg0.win 3).blk t).view.emb (ix2 0 k : S1x128.Idx) = ix2 0 k := fun k => by
    funext a; apply Fin.ext
    match a with
    | ⟨0, _⟩ => show win0_3.index t (0 : Fin 2) * 1 + 1 * 0 = 0; rw [e30]
    | ⟨1, _⟩ => show win0_3.index t (1 : Fin 2) * 128 + 1 * k.val = k.val; rw [e31]; omega
  have hw2 : ∀ k : Fin 128, ((cfg0.win 4).blk t).view.emb (ix2 k j : S128x128.Idx) = ix2 k j := fun k => by
    funext a; apply Fin.ext
    match a with
    | ⟨0, _⟩ => show win0_4.index t (0 : Fin 2) * 128 + 1 * k.val = k.val; rw [e40]; omega
    | ⟨1, _⟩ => show win0_4.index t (1 : Fin 2) * 128 + 1 * j.val = j.val; rw [e41]; omega
  have hb2 : ((cfg0.win 5).blk t).view.emb (ix2 0 j : S1x128.Idx) = ix2 0 j := by
    funext a; apply Fin.ext
    match a with
    | ⟨0, _⟩ => show win0_5.index t (0 : Fin 2) * 1 + 1 * 0 = 0; rw [e50]
    | ⟨1, _⟩ => show win0_5.index t (1 : Fin 2) * 128 + 1 * j.val = j.val; rw [e51]; omega
  exact pre_blk (V c main_arg0) (V c main_v13) (V c main_v14) (V c main_v16) (V c main_v15) (V c main_v17)
    (ix2 ⟨t.val * 4000 + r.val, hr⟩ j)
    (fun k' => ((cfg0.win 0).blk t).view.emb (ix2 r k' : S4000x128.Idx)) (fun k' => ((cfg0.win 1).blk t).view.emb (ix2 r k' : S4000x128.Idx))
    (fun k' k => ((cfg0.win 2).blk t).view.emb (ix2 k' k : S128x128.Idx)) (fun k => ((cfg0.win 3).blk t).view.emb (ix2 0 k : S1x128.Idx))
    (fun k => ((cfg0.win 4).blk t).view.emb (ix2 k j : S128x128.Idx)) (((cfg0.win 5).blk t).view.emb (ix2 0 j : S1x128.Idx))
    hX hA hw1 hb1 hw2 hb2

/-- What point t writes back of the result is the layer's block of the arrays found. -/
theorem flushed6_eq (c : Dev nD) (t : Fin cfg0.N) :
    (dat0 V c).flushed 6 t = ((cfg0.win 6).blk t).view.read (Elt Ideal) (preArr (V c main_arg0) (V c main_v13) (V c main_v14) (V c main_v16) (V c main_v15) (V c main_v17)) := by
  show (cfg0.win 6).cut (grid0.coords t) ((dat0 V c).after 6 t) = _
  rw [after0_6, outsAt_eq V c t.val t.isLt]
  funext y
  obtain ⟨r, j, rfl⟩ : ∃ (r : Fin 4000) (j : Fin 128), y = ix2 r j := ⟨y 0, y 1, eq_ix2 y⟩
  have hN : cfg0.N = 25 := N_0
  have hr : t.val * 4000 + r.val < 100000 := by have := t.isLt; have := r.isLt; omega
  obtain ⟨e00, e01, e10, e11, e20, e21, e30, e31, e40, e41, e50, e51, e60, e61, _⟩ := idx_facts t
  have h6 : ((cfg0.win 6).blk t).view.emb (ix2 r j : S4000x128.Idx) = ix2 ⟨t.val * 4000 + r.val, hr⟩ j := by
    funext a; apply Fin.ext
    match a with
    | ⟨0, _⟩ => show win0_6.index t (0 : Fin 2) * 4000 + 1 * r.val = t.val * 4000 + r.val; rw [e60]; omega
    | ⟨1, _⟩ => show win0_6.index t (1 : Fin 2) * 128 + 1 * j.val = j.val; rw [e61]; omega
  exact (blkPre_at V c t r j hr).trans (congrArg (preArr (V c main_arg0) (V c main_v13) (V c main_v14) (V c main_v16) (V c main_v15) (V c main_v17)) h6.symm)

theorem mem_blk6 (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v18_0).slice (win0_6.rect t)).set ↔ _
  rw [View.set_slice_whole, Rect.mem_set_unit]
  exact Iff.rfl

/-- After the region the result array is the layer of the six arrays the region found. -/
theorem final6 (c : Dev nD) : (dat0 V c).arrAt 6 cfg0.N = (preArr (V c main_arg0) (V c main_v13) (V c main_v14) (V c main_v16) (V c main_v15) (V c main_v17)) :=
  (dat0 V c).arrAt_eq_of_cover 6 _ (fun t _ => flushed6_eq V c t) fun i => by
    have hi0 : (i 0).val < 100000 := (i 0).isLt
    have hi1 : (i 1).val < 128 := (i 1).isLt
    have hN : cfg0.N = 25 := N_0
    refine ⟨⟨(i 0).val / 4000, by omega⟩, flush0_6 _, ?_⟩
    rw [mem_blk6]
    obtain ⟨e00, e01, e10, e11, e20, e21, e30, e31, e40, e41, e50, e51, e60, e61, _⟩ := idx_facts ⟨(i 0).val / 4000, by omega⟩
    intro a
    match a with
    | ⟨0, _⟩ => show win0_6.index _ (0 : Fin 2) * 4000 ≤ (i 0).val ∧ (i 0).val < win0_6.index _ (0 : Fin 2) * 4000 + 4000; rw [e60]; dsimp only; omega
    | ⟨1, _⟩ => show win0_6.index _ (1 : Fin 2) * 128 ≤ (i 1).val ∧ (i 1).val < win0_6.index _ (1 : Fin 2) * 128 + 128; rw [e61]; omega

/-- Column j of the layer on the arrays found, along the naturals (zero past the last row). -/
def gP (c : Dev nD) (j : Fin 128) : ℕ → EReal :=
  fun i => if h : i < 100000 then (preArr (V c main_arg0) (V c main_v13) (V c main_v14) (V c main_v16) (V c main_v15) (V c main_v17)) (ix2 ⟨i, h⟩ j) else 0

theorem blk_g (c : Dev nD) (t : Fin cfg0.N) (r : Fin 4000) (j : Fin 128) :
    blkPre V c t (ix2 r j) = gP V c j (t.val * 4000 + r.val) := by
  have hN : cfg0.N = 25 := N_0
  have hr : t.val * 4000 + r.val < 100000 := by have := t.isLt; have := r.isLt; omega
  rw [blkPre_at V c t r j hr]
  unfold gP
  rw [dif_pos hr]

/-- The first running row after point n, at column j: the entries of the rows so far, block by block. -/
theorem acc7_at (c : Dev nD) (j : Fin 128) : ∀ (n : ℕ) (h : n < cfg0.N),
    (chain V c n h).1 (ix2 0 j) = ∑ s ∈ Finset.range (n + 1), ∑ r : Fin 4000, gP V c j (s * 4000 + r.val)
  | 0, h => by
    show k0_pay5 (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (k0_pay2 (F := Ideal)) (ix2 0 j) = _
    rw [PayAt.pay5_at, PayAt.pay2_at, zero_add, Finset.sum_range_one]
    exact Finset.sum_congr rfl fun r _ => blk_g V c ⟨0, h⟩ r j
  | n + 1, h => by
    show k0_pay5 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (chain V c n (Nat.lt_of_succ_lt h)).1 (ix2 0 j) = _
    rw [PayAt.pay5_at, acc7_at c j n, Finset.sum_range_succ _ (n + 1)]
    exact congrArg _ (Finset.sum_congr rfl fun r _ => blk_g V c ⟨n + 1, h⟩ r j)

/-- The second running row after point n, at column j: the squares of the entries of the rows so far. -/
theorem acc8_at (c : Dev nD) (j : Fin 128) : ∀ (n : ℕ) (h : n < cfg0.N),
    (chain V c n h).2 (ix2 0 j)
      = ∑ s ∈ Finset.range (n + 1), ∑ r : Fin 4000, gP V c j (s * 4000 + r.val) * gP V c j (s * 4000 + r.val)
  | 0, h => by
    show k0_pay1 (F := Ideal) (blkPre V c ⟨0, h⟩) (k0_pay3 (F := Ideal)) (ix2 0 j) = _
    rw [PayAt.pay1_at, PayAt.pay3_at, zero_add, Finset.sum_range_one]
    exact Finset.sum_congr rfl fun r _ => by rw [blk_g V c ⟨0, h⟩ r j]
  | n + 1, h => by
    show k0_pay1 (F := Ideal) (blkPre V c ⟨n + 1, h⟩) (chain V c n (Nat.lt_of_succ_lt h)).2 (ix2 0 j) = _
    rw [PayAt.pay1_at, acc8_at c j n, Finset.sum_range_succ _ (n + 1)]
    exact congrArg _ (Finset.sum_congr rfl fun r _ => by rw [blk_g V c ⟨n + 1, h⟩ r j])

/-- After the last point the first running row holds the column sums. -/
theorem total7 (c : Dev nD) (j : Fin 128) (t : Fin cfg0.N) (h24 : t.val = 24) :
    (chain V c t.val t.isLt).1 (ix2 0 j) = colSum (preArr (V c main_arg0) (V c main_v13) (V c main_v14) (V c main_v16) (V c main_v15) (V c main_v17)) (ix2 0 j) := by
  obtain ⟨n, hn⟩ := t
  dsimp only at h24
  subst h24
  refine (acc7_at V c j 24 hn).trans ((Cert.Laws.sum_blocks_nat (gP V c j)).trans ?_)
  exact Finset.sum_congr rfl fun i _ => dif_pos i.isLt

/-- After the last point the second running row holds the column sums of the squares. -/
theorem total8 (c : Dev nD) (j : Fin 128) (t : Fin cfg0.N) (h24 : t.val = 24) :
    (chain V c t.val t.isLt).2 (ix2 0 j) = colSumSq (preArr (V c main_arg0) (V c main_v13) (V c main_v14) (V c main_v16) (V c main_v15) (V c main_v17)) (ix2 0 j) := by
  obtain ⟨n, hn⟩ := t
  dsimp only at h24
  subst h24
  refine (acc8_at V c j 24 hn).trans ((Cert.Laws.sum_blocks_nat fun i => gP V c j i * gP V c j i).trans ?_)
  exact Finset.sum_congr rfl fun i _ => by
    show gP V c j i.val * gP V c j i.val = _
    unfold gP
    rw [dif_pos i.isLt]

/-- The one write-back of running row one, after the last point, writes the column sums. -/
theorem flushed7_eq (c : Dev nD) (t : Fin cfg0.N) (hf : (cfg0.win 7).flush t = true) :
    (dat0 V c).flushed 7 t = ((cfg0.win 7).blk t).view.read (Elt Ideal) (colSum (preArr (V c main_arg0) (V c main_v13) (V c main_v14) (V c main_v16) (V c main_v15) (V c main_v17))) := by
  have hN : cfg0.N = 25 := N_0
  have h24 : t.val = 24 := by have := (flush0_7 t).mp hf; have := t.isLt; omega
  show (cfg0.win 7).cut (grid0.coords t) ((dat0 V c).after 7 t) = _
  rw [after0_7, outsAt_eq V c t.val t.isLt]
  funext y
  obtain ⟨r0, j, rfl⟩ : ∃ (r0 : Fin 1) (j : Fin 128), y = ix2 r0 j := ⟨y 0, y 1, eq_ix2 y⟩
  obtain rfl : r0 = 0 := Subsingleton.elim _ _
  obtain ⟨e00, e01, e10, e11, e20, e21, e30, e31, e40, e41, e50, e51, e60, e61, e70, e71, e80, e81⟩ := idx_facts t
  have h : ((cfg0.win 7).blk t).view.emb (ix2 0 j : S1x128.Idx) = ix2 0 j := by
    funext a; apply Fin.ext
    match a with
    | ⟨0, _⟩ => show win0_7.index t (0 : Fin 2) * 1 + 1 * 0 = 0; rw [e70]
    | ⟨1, _⟩ => show win0_7.index t (1 : Fin 2) * 128 + 1 * j.val = j.val; rw [e71]; omega
  have key := total7 V c j t h24
  generalize colSum (preArr (V c main_arg0) (V c main_v13) (V c main_v14) (V c main_v16) (V c main_v15) (V c main_v17)) = G at key ⊢
  exact key.trans (congrArg G h.symm)

theorem mem_blk7 (t : Fin cfg0.N) (i : S1x128.Idx) :
    i ∈ ((cfg0.win 7).blk t).view.set ↔ ∀ a : Fin 2, win0_7.index t a * S1x128.size a ≤ (i a).val ∧ (i a).val < win0_7.index t a * S1x128.size a + S1x128.size a := by
  show i ∈ ((View.whole main_v18_1).slice (win0_7.rect t)).set ↔ _
  rw [View.set_slice_whole, Rect.mem_set_unit]
  exact Iff.rfl

/-- After the region the first row array holds the column sums of the layer of the six arrays the region found. -/
theorem final7 (c : Dev nD) : (dat0 V c).arrAt 7 cfg0.N = colSum (preArr (V c main_arg0) (V c main_v13) (V c main_v14) (V c main_v16) (V c main_v15) (V c main_v17)) :=
  (dat0 V c).arrAt_eq_of_cover 7 _ (fun t hf => flushed7_eq V c t hf) fun i => by
    have hi0 : (i 0).val < 1 := (i 0).isLt
    have hi1 : (i 1).val < 128 := (i 1).isLt
    have hN : cfg0.N = 25 := N_0
    refine ⟨⟨24, by omega⟩, (flush0_7 _).mpr rfl, ?_⟩
    rw [mem_blk7]
    obtain ⟨e00, e01, e10, e11, e20, e21, e30, e31, e40, e41, e50, e51, e60, e61, e70, e71, e80, e81⟩ := idx_facts ⟨24, by omega⟩
    intro a
    match a with
    | ⟨0, _⟩ => show win0_7.index _ (0 : Fin 2) * 1 ≤ (i 0).val ∧ (i 0).val < win0_7.index _ (0 : Fin 2) * 1 + 1; rw [e70]; omega
    | ⟨1, _⟩ => show win0_7.index _ (1 : Fin 2) * 128 ≤ (i 1).val ∧ (i 1).val < win0_7.index _ (1 : Fin 2) * 128 + 128; rw [e71]; omega

/-- The one write-back of running row two, after the last point, writes the column sums of the squares. -/
theorem flushed8_eq (c : Dev nD) (t : Fin cfg0.N) (hf : (cfg0.win 8).flush t = true) :
    (dat0 V c).flushed 8 t = ((cfg0.win 8).blk t).view.read (Elt Ideal) (colSumSq (preArr (V c main_arg0) (V c main_v13) (V c main_v14) (V c main_v16) (V c main_v15) (V c main_v17))) := by
  have hN : cfg0.N = 25 := N_0
  have h24 : t.val = 24 := by have := (flush0_8 t).mp hf; have := t.isLt; omega
  show (cfg0.win 8).cut (grid0.coords t) ((dat0 V c).after 8 t) = _
  rw [after0_8, outsAt_eq V c t.val t.isLt]
  funext y
  obtain ⟨r0, j, rfl⟩ : ∃ (r0 : Fin 1) (j : Fin 128), y = ix2 r0 j := ⟨y 0, y 1, eq_ix2 y⟩
  obtain rfl : r0 = 0 := Subsingleton.elim _ _
  obtain ⟨e00, e01, e10, e11, e20, e21, e30, e31, e40, e41, e50, e51, e60, e61, e70, e71, e80, e81⟩ := idx_facts t
  have h : ((cfg0.win 8).blk t).view.emb (ix2 0 j : S1x128.Idx) = ix2 0 j := by
    funext a; apply Fin.ext
    match a with
    | ⟨0, _⟩ => show win0_8.index t (0 : Fin 2) * 1 + 1 * 0 = 0; rw [e80]
    | ⟨1, _⟩ => show win0_8.index t (1 : Fin 2) * 128 + 1 * j.val = j.val; rw [e81]; omega
  have key := total8 V c j t h24
  generalize colSumSq (preArr (V c main_arg0) (V c main_v13) (V c main_v14) (V c main_v16) (V c main_v15) (V c main_v17)) = G at key ⊢
  exact key.trans (congrArg G h.symm)

theorem mem_blk8 (t : Fin cfg0.N) (i : S1x128.Idx) :
    i ∈ ((cfg0.win 8).blk t).view.set ↔ ∀ a : Fin 2, win0_8.index t a * S1x128.size a ≤ (i a).val ∧ (i a).val < win0_8.index t a * S1x128.size a + S1x128.size a := by
  show i ∈ ((View.whole main_v18_2).slice (win0_8.rect t)).set ↔ _
  rw [View.set_slice_whole, Rect.mem_set_unit]
  exact Iff.rfl

/-- After the region the second row array holds the column sums of the squares of the layer of the six arrays the region found. -/
theorem final8 (c : Dev nD) : (dat0 V c).arrAt 8 cfg0.N = colSumSq (preArr (V c main_arg0) (V c main_v13) (V c main_v14) (V c main_v16) (V c main_v15) (V c main_v17)) :=
  (dat0 V c).arrAt_eq_of_cover 8 _ (fun t hf => flushed8_eq V c t hf) fun i => by
    have hi0 : (i 0).val < 1 := (i 0).isLt
    have hi1 : (i 1).val < 128 := (i 1).isLt
    have hN : cfg0.N = 25 := N_0
    refine ⟨⟨24, by omega⟩, (flush0_8 _).mpr rfl, ?_⟩
    rw [mem_blk8]
    obtain ⟨e00, e01, e10, e11, e20, e21, e30, e31, e40, e41, e50, e51, e60, e61, e70, e71, e80, e81⟩ := idx_facts ⟨24, by omega⟩
    intro a
    match a with
    | ⟨0, _⟩ => show win0_8.index _ (0 : Fin 2) * 1 ≤ (i 0).val ∧ (i 0).val < win0_8.index _ (0 : Fin 2) * 1 + 1; rw [e80]; omega
    | ⟨1, _⟩ => show win0_8.index _ (1 : Fin 2) * 128 ≤ (i 1).val ∧ (i 1).val < win0_8.index _ (1 : Fin 2) * 128 + 128; rw [e81]; omega

end Cert.KernelIdeal.Region0
end
-- ==== Proof.Region1.lean ====
/-
  The first normalisation layer as a whole-array function.

  Each of the 25 grid points reads rows 4000·t … 4000·t + 3999 of the input array and the two 1 × 128 rows
  (scale and shift), and writes the same rows of the output: entry (i, j) becomes max (h i j · s j + d j) 0.
  The 25 blocks cover the output array, so after the region it is that function of the arrays found.
-/
import proofs.«148986_j16054587752866_1_alg».proof.Proof.Gen.KernelIdeal.Frame
import Idealize.ShloMosaic.Lib.Pipeline.Value
import Idealize.ShloMosaic.Lib.Tactic
import proofs.«148986_j16054587752866_1_alg».proof.Proof.Pay
import Idealize.ShloMosaic.Lib.ValueIdx
set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen

open Idealize.ShloMosaic.ValueIdx

variable (V : (c : Dev nD) → (b : Ref sig .tc) → Buf (Elt Ideal) ((c : Thread nD τ).loc b))

theorem hz : (![0, 0] : Fin 2 → Nat) = fun _ => 0 := funext fun a => by fin_cases a <;> rfl

/-- The normalisation layer on whole arrays: entry (i, j) is max (h i j · s j + d j) 0. -/
def bnArr (H : S100000x128.Idx → EReal) (s d : S1x128.Idx → EReal) : S100000x128.Idx → EReal :=
  fun i => max (H i * s (ix2 0 (i 1)) + d (ix2 0 (i 1))) 0

theorem bn_fun (h : FVec Ideal S4000x128 .f32) (s d : FVec Ideal S1x128 .f32) :
    k1_pay1 h s d = fun y => max (h y * s (ix2 0 (y 1)) + d (ix2 0 (y 1))) 0 := by
  funext y
  obtain ⟨r, j, rfl⟩ : ∃ (r : Fin 4000) (j : Fin 128), y = ix2 r j := ⟨y 0, y 1, eq_ix2 y⟩
  exact PayAt.bn_at h s d r j

theorem bn_blk (H : S100000x128.Idx → EReal) (s d : S1x128.Idx → EReal) (e0 e3 : S100000x128.Idx) (e1 e2 : S1x128.Idx)
    (h0 : e0 = e3) (h1 : e1 = ix2 0 (e3 1)) (h2 : e2 = ix2 0 (e3 1)) : max (H e0 * s e1 + d e2) 0 = bnArr H s d e3 := by
  subst h0 h1 h2; rfl

theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

theorem flushed_eq (c : Dev nD) (t : Fin cfg1.N) :
    (dat1 V c).flushed 3 t = ((cfg1.win 3).blk t).view.read (Elt Ideal) (bnArr (V c main_v18_0) (V c main_v29) (V c main_v32)) := by
  show (cfg1.win 3).cut (grid1.coords t) ((dat1 V c).after 3 t) = _
  rw [after1_3]
  unfold out1_3
  rw [View.canon_unit_zero hz]
  simp only [View.ld_unit_zero (S := S4000x128) hz, View.ld_unit_zero (S := S1x128) hz]
  rw [bn_fun (iblk1 V c 0 t) (iblk1 V c 1 t) (iblk1 V c 2 t)]
  funext y
  obtain ⟨e0, e1, e2, e3, e4, e5, e6, e7⟩ := idx_facts t
  have h0 : ((cfg1.win 0).blk t).view.emb y = ((cfg1.win 3).blk t).view.emb y := by
    funext a; apply Fin.ext
    match a with
    | ⟨0, _⟩ => show win1_0.index t (0 : Fin 2) * 4000 + 1 * (y 0).val = win1_3.index t (0 : Fin 2) * 4000 + 1 * (y 0).val; omega
    | ⟨1, _⟩ => show win1_0.index t (1 : Fin 2) * 128 + 1 * (y 1).val = win1_3.index t (1 : Fin 2) * 128 + 1 * (y 1).val; omega
  have h1 : ((cfg1.win 1).blk t).view.emb (ix2 0 (y 1)) = ix2 0 ((((cfg1.win 3).blk t).view.emb y) 1) := by
    funext a; apply Fin.ext
    match a with
    | ⟨0, _⟩ => show win1_1.index t (0 : Fin 2) * 1 + 1 * 0 = 0; omega
    | ⟨1, _⟩ => show win1_1.index t (1 : Fin 2) * 128 + 1 * (y 1).val = win1_3.index t (1 : Fin 2) * 128 + 1 * (y 1).val; omega
  have h2 : ((cfg1.win 2).blk t).view.emb (ix2 0 (y 1)) = ix2 0 ((((cfg1.win 3).blk t).view.emb y) 1) := by
    funext a; apply Fin.ext
    match a with
    | ⟨0, _⟩ => show win1_2.index t (0 : Fin 2) * 1 + 1 * 0 = 0; omega
    | ⟨1, _⟩ => show win1_2.index t (1 : Fin 2) * 128 + 1 * (y 1).val = win1_3.index t (1 : Fin 2) * 128 + 1 * (y 1).val; omega
  exact bn_blk (V c main_v18_0) (V c main_v29) (V c main_v32) (((cfg1.win 0).blk t).view.emb y) (((cfg1.win 3).blk t).view.emb y)
    (((cfg1.win 1).blk t).view.emb (ix2 0 (y 1))) (((cfg1.win 2).blk t).view.emb (ix2 0 (y 1))) h0 h1 h2

theorem mem_blk (t : Fin cfg1.N) (i : S100000x128.Idx) :
    i ∈ ((cfg1.win 3).blk t).view.set ↔ ∀ a : Fin 2, win1_3.index t a * S4000x128.size a ≤ (i a).val ∧ (i a).val < win1_3.index t a * S4000x128.size a + S4000x128.size a := by
  show i ∈ ((View.whole main_v33).slice (win1_3.rect t)).set ↔ _
  rw [View.set_slice_whole, Rect.mem_set_unit]
  exact Iff.rfl

/-- After the region the output array is the normalisation layer of the three arrays the region found. -/
theorem final (c : Dev nD) : (dat1 V c).arrAt 3 cfg1.N = bnArr (V c main_v18_0) (V c main_v29) (V c main_v32) :=
  (dat1 V c).arrAt_eq_of_cover 3 _ (fun t _ => flushed_eq V c t) fun i => by
    have hi0 : (i 0).val < 100000 := (i 0).isLt
    have hi1 : (i 1).val < 128 := (i 1).isLt
    have hN : cfg1.N = 25 := N_1
    refine ⟨⟨(i 0).val / 4000, by omega⟩, flush1_3 _, ?_⟩
    rw [mem_blk]
    obtain ⟨e0, e1, e2, e3, e4, e5, e6, e7⟩ := idx_facts ⟨(i 0).val / 4000, by omega⟩
    intro a
    match a with
    | ⟨0, _⟩ => show win1_3.index _ (0 : Fin 2) * 4000 ≤ (i 0).val ∧ (i 0).val < win1_3.index _ (0 : Fin 2) * 4000 + 4000; rw [e6]; dsimp only; omega
    | ⟨1, _⟩ => show win1_3.index _ (1 : Fin 2) * 128 ≤ (i 1).val ∧ (i 1).val < win1_3.index _ (1 : Fin 2) * 128 + 128; rw [e7]; omega

end Cert.KernelIdeal.Region1
end
-- ==== Proof.LayerLaw.lean ====
/-
  One layer, two ways.

  Both programs compute the same message-passing layer P = preArr X A …, entry by entry.  They then normalise
  its columns.  With μ the column mean, the reference takes the variance as the mean of (p − μ)², scales the
  centred entries by g / √(var + ε) and adds the offset; the kernel takes the variance as (mean of p²) − μ²,
  precomputes scale = g / √(var + ε) and shift = offset − μ · scale, and forms p · scale + shift.  For real
  (finite) entries these agree: the two variances are one real number, and the affine forms differ by
  distributing the scale over p − μ.  Every intermediate value stays real, so the next layer may use the law again.
-/
import proofs.«148986_j16054587752866_1_alg».proof.Proof.Spec
import proofs.«148986_j16054587752866_1_alg».proof.Proof.Region1
import proofs.«148986_j16054587752866_1_alg».proof.Proof.Laws
import proofs.«148986_j16054587752866_1_alg».proof.Proof.RefSideAt

noncomputable section

open Idealize.ShloMosaic Idealize.ShloMosaic.ValueIdx

namespace Cert.LayerLaw

open Cert.Laws Cert.Spec Cert.RefSide

abbrev S1 : Shape := ⟨1, ![128]⟩

/-- The word of 100000.0 and the word of the variance's ε, as the kernel's host operations read them. -/
abbrev rowsW : EReal := Ideal.ofBits .f32 0x47C35000#32
abbrev epsW : EReal := Ideal.ofBits .f32 0x3727C5AC#32

/-- The kernel's column mean, variance, scale and shift from the two running sums. -/
def meanK (P : SN.Idx → EReal) (j : Fin 128) : EReal := Ideal.div (Spec.colSum P (ix2 0 j)) rowsW
def varK (P : SN.Idx → EReal) (j : Fin 128) : EReal := Ideal.div (Spec.colSumSq P (ix2 0 j)) rowsW - meanK P j * meanK P j
def scaleK (g : S1.Idx → EReal) (P : SN.Idx → EReal) (j : Fin 128) : EReal := Ideal.div (g (ix1 j)) (Ideal.sqrt (varK P j + epsW))
def shiftK (g be : S1.Idx → EReal) (P : SN.Idx → EReal) (j : Fin 128) : EReal := be (ix1 j) - meanK P j * scaleK g P j

theorem meanK_eq (P : SN.Idx → EReal) (j : Fin 128) : meanK P j = mu P j := by
  unfold meanK mu
  rw [show rowsW = ((100000 : ℝ) : EReal) from count_eq, Spec.colSum_apply, zero_add]

/-- The normalised layer of real entries: the kernel's form is the reference's. -/
theorem bn_eq_norm (P : SN.Idx → EReal) (hP : ∀ i, IsReal (P i)) (g be : S1.Idx → EReal) (hg : ∀ i, IsReal (g i)) (hbe : ∀ i, IsReal (be i))
    (s d : SR.Idx → EReal) (hs : ∀ j, s (ix2 0 j) = scaleK g P j) (hd : ∀ j, d (ix2 0 j) = shiftK g be P j) :
    Cert.KernelIdeal.Region1.bnArr P s d = normOf P g be := by
  funext i
  obtain ⟨a, b, rfl⟩ : ∃ (a : Fin 100000) (b : Fin 128), i = ix2 a b := ⟨i 0, i 1, eq_ix2 i⟩
  rw [normOf_apply]
  show max (P (ix2 a b) * s (ix2 0 b) + d (ix2 0 b)) 0 = _
  rw [hs, hd]
  obtain ⟨e, he0, he⟩ := eps_pos
  have key := batchnorm_eq (fun i' : Fin 100000 => P (ix2 i' b)) (fun i' => hP _) 100000 card_fin_100000 (by norm_num)
    (hg (ix1 b)) (hbe (ix1 b)) (⟨e, he⟩ : IsReal eps) (by rw [he]; exact_mod_cast he0) (mu P b) (vr P b) (varK P b) rfl rfl
    (by unfold varK; rw [meanK_eq, show rowsW = ((100000 : ℝ) : EReal) from count_eq, Spec.colSumSq_apply]) a
  unfold shiftK scaleK
  rw [meanK_eq]
  exact key.symm

/-- The normalised layer of real entries is real. -/
theorem norm_real (P : SN.Idx → EReal) (hP : ∀ i, IsReal (P i)) (g be : S1.Idx → EReal) (hg : ∀ i, IsReal (g i)) (hbe : ∀ i, IsReal (be i))
    (i : SN.Idx) : IsReal (normOf P g be i) := by
  obtain ⟨a, b, rfl⟩ : ∃ (a : Fin 100000) (b : Fin 128), i = ix2 a b := ⟨i 0, i 1, eq_ix2 i⟩
  rw [normOf_apply]
  obtain ⟨e, he0, he⟩ := eps_pos
  exact isReal_batchnorm (fun i' : Fin 100000 => P (ix2 i' b)) (fun i' => hP _) 100000 (by norm_num)
    (hg (ix1 b)) (hbe (ix1 b)) (⟨e, he⟩ : IsReal eps) (by rw [he]; exact_mod_cast he0) (mu P b) (vr P b) rfl rfl a

/-- The message-passing layer of real arrays is real: sums, products and maxima of reals. -/
theorem pre_real (X A : SN.Idx → EReal) (w1 : SW.Idx → EReal) (b1 : SR.Idx → EReal) (w2 : SW.Idx → EReal) (b2 : SR.Idx → EReal)
    (hX : ∀ i, IsReal (X i)) (hA : ∀ i, IsReal (A i)) (hw1 : ∀ i, IsReal (w1 i)) (hb1 : ∀ i, IsReal (b1 i)) (hw2 : ∀ i, IsReal (w2 i)) (hb2 : ∀ i, IsReal (b2 i))
    (i : SN.Idx) : IsReal (preArr X A w1 b1 w2 b2 i) := by
  unfold preArr
  refine IsReal.add (IsReal.sum_univ _ fun k => IsReal.mul (IsReal.max (IsReal.add (IsReal.sum_univ _ fun k' => IsReal.mul (IsReal.add (hX _) (hA _)) (hw1 _)) (hb1 _)) isReal_zero) (hw2 _)) (hb2 _)

/-- The kernel's layer before normalisation is the reference's, entry by entry: the same sums of the same products. -/
theorem pre_eq (X A : SN.Idx → EReal) (w1 : SW.Idx → EReal) (b1 : SR.Idx → EReal) (w2 : SW.Idx → EReal) (b2 : SR.Idx → EReal)
    (wa wb : SW.Idx → EReal) (ba bb : S1.Idx → EReal) (hw1 : ∀ i, w1 i = wa i) (hw2 : ∀ i, w2 i = wb i)
    (hb1 : ∀ j : Fin 128, b1 (ix2 0 j) = ba (ix1 j)) (hb2 : ∀ j : Fin 128, b2 (ix2 0 j) = bb (ix1 j)) :
    preArr X A w1 b1 w2 b2 = preOf X A wa ba wb bb := by
  funext i
  obtain ⟨a, b, rfl⟩ : ∃ (a : Fin 100000) (b : Fin 128), i = ix2 a b := ⟨i 0, i 1, eq_ix2 i⟩
  rw [preOf_apply, preArr_apply, hb2]
  refine congrArg (· + bb (ix1 b)) (Finset.sum_congr rfl fun k _ => ?_)
  rw [hw2, hb1]
  refine congrArg (fun z => max (z + ba (ix1 k)) 0 * wb (ix2 k b)) (Finset.sum_congr rfl fun k' _ => ?_)
  rw [hw1]

end Cert.LayerLaw
end
-- ==== Proof.Glue.lean ====
/-
  The idealized kernel program and the idealized reference program apply the same host operations for the neighbour
  aggregation and for the pooled read-out with its log-softmax.  Each program prints its own copies of the shape
  relations and dimension records these operations take; the copies have identical contents, so the functions
  written over the one program's records and over the other's are equal, by unfolding both down to the operations.
-/
import proofs.«148986_j16054587752866_1_alg».proof.Proof.HostVals
import proofs.«148986_j16054587752866_1_alg».proof.Proof.RefSideAt

noncomputable section

namespace Cert.Glue

open Idealize.ShloMosaic

/-- The neighbour aggregation is the same function in both programs: the same operations, over records that the
    two programs print separately with identical contents. -/
theorem aggK_eq (X : FVec Ideal Cert.KernelIdeal.S100000x128 .f32) (E : IVec Cert.KernelIdeal.S2x1600000 32) :
    Cert.KernelIdeal.HostVals.aggK X E = Cert.RefSide.aggOf X E := by
  unfold Cert.KernelIdeal.HostVals.aggK Cert.KernelIdeal.HostVals.agg Cert.KernelIdeal.HostVals.srcOf Cert.KernelIdeal.HostVals.dstOf
    Cert.RefSide.aggOf Cert.RefSide.gathered Cert.RefSide.srcIdx Cert.RefSide.srcRow Cert.RefSide.dstRow
  rfl

/-- The pooled read-out followed by the log-softmax is the same function in both programs. -/
theorem tailK_eq (Y : FVec Ideal Cert.KernelIdeal.S100000x128 .f32) (B : IVec Cert.KernelIdeal.S100000 32)
    (Wt : FVec Ideal Cert.KernelIdeal.S128x7 .f32) (bias : FVec Ideal Cert.KernelIdeal.S7 .f32) :
    Cert.KernelIdeal.HostVals.tailK Y B Wt bias = Cert.RefSide.tailOf Y B Wt bias := by
  unfold Cert.KernelIdeal.HostVals.tailK Cert.KernelIdeal.HostVals.logSoftmaxK Cert.KernelIdeal.HostVals.shiftedK Cert.KernelIdeal.HostVals.logitsK Cert.KernelIdeal.HostVals.pooledK Cert.KernelIdeal.HostVals.countK
    Cert.RefSide.tailOf Cert.RefSide.logSoftmax Cert.RefSide.shifted Cert.RefSide.logitsOf
  rfl

end Cert.Glue
-- ==== Proof.FiniteArgs.lean ====
/-
  The precondition of the certificate says that every floating-point argument array holds finite numbers: for each
  of the fifteen arrays x it tests |x| < +inf at every element and takes the conjunction of all the tests.  Over the
  extended reals |x| is max x (-x) and +inf is the top element, so max x (-x) < ⊤ excludes both x = ⊤ and x = ⊥
  (for x = ⊥ the negation is ⊤): the element is the image of a real number.  This module reads the precondition
  back: first for one element, then for one array under one all-reduction, then for the whole conjunction, and last
  for the argument arrays of the idealized kernel in a memory satisfying the precondition.
-/
import proofs.«148986_j16054587752866_1_alg».proof.Defs
import proofs.«148986_j16054587752866_1_alg».proof.Proof.Basic
import proofs.«148986_j16054587752866_1_alg».proof.Proof.Gen.Pre_finite_inputs
import Idealize.ShloMosaic.Lib.ReduceAll
import Idealize.ShloMosaic.Lib.ValueIdx

noncomputable section

namespace Cert.FiniteArgs

open Idealize.ShloMosaic Idealize.SL.Sem Idealize.ShloMosaic.ValueIdx
open Cert.Laws

/-- The single-precision pattern 0x7F800000 denotes +inf. -/
theorem inf_bits : (FloatOps.ofBits (F := Ideal) .f32 0x7F800000#32 : EReal) = ⊤ := by
  show Ideal.ofBits .f32 0x7F800000#32 = ⊤
  simp [Ideal.ofBits, Ideal.ieee]

/-- An extended real x with max x (-x) < +inf is a real number. -/
theorem isReal_of_abs_lt_top (x : EReal) (h : max x (-x) < ⊤) : IsReal x := by
  rw [isReal_iff]
  induction x using EReal.rec with
  | bot => simp at h
  | coe r => exact ⟨EReal.coe_ne_bot r, EReal.coe_ne_top r⟩
  | top => simp at h

/-- The element test |x| < +inf that came out 1: x is a real number. -/
theorem isReal_of_test (x : EReal)
    (h : FloatOps.cmpf (F := Ideal) (φ := .f32) .olt (FloatOps.hostAbsf (F := Ideal) (φ := .f32) x)
      (FloatOps.ofBits (F := Ideal) .f32 0x7F800000#32) = 1#1) :
    IsReal x := by
  rw [inf_bits] at h
  apply isReal_of_abs_lt_top
  change BitVec.ofBool (decide (max x (-x) < ⊤)) = 1#1 at h
  by_contra hc
  simp [hc] at h

/-- The rank-0 shape has one index. -/
instance : Subsingleton Cert.Pre_finite_inputs.S_.Idx := ⟨fun a b => funext fun d => d.elim0⟩

/-- One all-reduction of the tests |x i| < +inf that came out 1: every element of x is a real number. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
      (cmpf .olt (Host.absf x) (broadcastInDim s ![] hb (constant Cert.Pre_finite_inputs.S_ .f32 0x7F800000#32)))
      init hr hu j = 1#1)
    (i : s.Idx) : IsReal (x i) :=
  isReal_of_test (x i) (Host.reduce_andi_all _ init hr hu j e i)

/-- The whole predicate read back: if the conjunction of the fifteen all-reductions is 1, every element of every
    one of the fifteen floating-point arrays is a real number (the two integer arrays are not tested). -/
theorem fn_real [Cert.Pre_finite_inputs.Facts] (x0 : FVec Ideal Cert.Pre_finite_inputs.S100000x128 .f32) (x1 : FVec Ideal Cert.Pre_finite_inputs.S128x128 .f32) (x2 : FVec Ideal Cert.Pre_finite_inputs.S128 .f32) (x3 : FVec Ideal Cert.Pre_finite_inputs.S128x128 .f32) (x4 : FVec Ideal Cert.Pre_finite_inputs.S128 .f32) (x5 : FVec Ideal Cert.Pre_finite_inputs.S128 .f32) (x6 : FVec Ideal Cert.Pre_finite_inputs.S128 .f32) (x7 : FVec Ideal Cert.Pre_finite_inputs.S128x128 .f32) (x8 : FVec Ideal Cert.Pre_finite_inputs.S128 .f32) (x9 : FVec Ideal Cert.Pre_finite_inputs.S128x128 .f32) (x10 : FVec Ideal Cert.Pre_finite_inputs.S128 .f32) (x11 : FVec Ideal Cert.Pre_finite_inputs.S128 .f32) (x12 : FVec Ideal Cert.Pre_finite_inputs.S128 .f32) (x13 : FVec Ideal Cert.Pre_finite_inputs.S128x7 .f32) (x14 : FVec Ideal Cert.Pre_finite_inputs.S7 .f32) (x15 : IVec Cert.Pre_finite_inputs.S2x1600000 32) (x16 : IVec Cert.Pre_finite_inputs.S100000 32)
    (h : Cert.Pre_finite_inputs.fn (F := Ideal) x0 x1 x2 x3 x4 x5 x6 x7 x8 x9 x10 x11 x12 x13 x14 x15 x16 = fun _ => 1#1) :
    (∀ i, IsReal (x0 i)) ∧ (∀ i, IsReal (x1 i)) ∧ (∀ i, IsReal (x2 i)) ∧ (∀ i, IsReal (x3 i)) ∧ (∀ i, IsReal (x4 i)) ∧ (∀ i, IsReal (x5 i)) ∧ (∀ i, IsReal (x6 i)) ∧ (∀ i, IsReal (x7 i)) ∧ (∀ i, IsReal (x8 i)) ∧ (∀ i, IsReal (x9 i)) ∧ (∀ i, IsReal (x10 i)) ∧ (∀ i, IsReal (x11 i)) ∧ (∀ i, IsReal (x12 i)) ∧ (∀ i, IsReal (x13 i)) ∧ (∀ i, IsReal (x14 i)) := by
  have e := congrFun h ix0
  dsimp only [Cert.Pre_finite_inputs.fn, Cert.Pre_finite_inputs.fn_part1, Cert.Pre_finite_inputs.fn_part2, Cert.Pre_finite_inputs.fn_part3, Cert.Pre_finite_inputs.fn_part4, Idealize.ShloMosaic.andi] at e
  simp only [IntOp.andi_eq_one] at e
  obtain ⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩ := e
  exact ⟨fun i => all_real _ _ _ _ _ _ h0 i,
    fun i => all_real _ _ _ _ _ _ h1 i,
    fun i => all_real _ _ _ _ _ _ h2 i,
    fun i => all_real _ _ _ _ _ _ h3 i,
    fun i => all_real _ _ _ _ _ _ h4 i,
    fun i => all_real _ _ _ _ _ _ h5 i,
    fun i => all_real _ _ _ _ _ _ h6 i,
    fun i => all_real _ _ _ _ _ _ h7 i,
    fun i => all_real _ _ _ _ _ _ h8 i,
    fun i => all_real _ _ _ _ _ _ h9 i,
    fun i => all_real _ _ _ _ _ _ h10 i,
    fun i => all_real _ _ _ _ _ _ h11 i,
    fun i => all_real _ _ _ _ _ _ h12 i,
    fun i => all_real _ _ _ _ _ _ h13 i,
    fun i => all_real _ _ _ _ _ _ h14 i⟩

/-- The argument arrays of the idealized kernel, in a memory satisfying the precondition, on any device. -/
theorem args_real (m : (ℓ : Loc Cert.KernelIdeal.nD Cert.KernelIdeal.τ Cert.KernelIdeal.sig) → Buf (Elt Ideal) ℓ) (h : Cert.Pre_KernelIdeal m) (c : Dev Cert.KernelIdeal.nD) :
    (∀ i : Cert.KernelIdeal.S100000x128.Idx, IsReal ((m ((c.tc : Thread Cert.KernelIdeal.nD Cert.KernelIdeal.τ).loc Cert.KernelIdeal.main_arg0)) i))
      ∧ (∀ i : Cert.KernelIdeal.S128x128.Idx, IsReal ((m ((c.tc : Thread Cert.KernelIdeal.nD Cert.KernelIdeal.τ).loc Cert.KernelIdeal.main_arg1)) i))
      ∧ (∀ i : Cert.KernelIdeal.S128.Idx, IsReal ((m ((c.tc : Thread Cert.KernelIdeal.nD Cert.KernelIdeal.τ).loc Cert.KernelIdeal.main_arg2)) i))
      ∧ (∀ i : Cert.KernelIdeal.S128x128.Idx, IsReal ((m ((c.tc : Thread Cert.KernelIdeal.nD Cert.KernelIdeal.τ).loc Cert.KernelIdeal.main_arg3)) i))
      ∧ (∀ i : Cert.KernelIdeal.S128.Idx, IsReal ((m ((c.tc : Thread Cert.KernelIdeal.nD Cert.KernelIdeal.τ).loc Cert.KernelIdeal.main_arg4)) i))
      ∧ (∀ i : Cert.KernelIdeal.S128.Idx, IsReal ((m ((c.tc : Thread Cert.KernelIdeal.nD Cert.KernelIdeal.τ).loc Cert.KernelIdeal.main_arg5)) i))
      ∧ (∀ i : Cert.KernelIdeal.S128.Idx, IsReal ((m ((c.tc : Thread Cert.KernelIdeal.nD Cert.KernelIdeal.τ).loc Cert.KernelIdeal.main_arg6)) i))
      ∧ (∀ i : Cert.KernelIdeal.S128x128.Idx, IsReal ((m ((c.tc : Thread Cert.KernelIdeal.nD Cert.KernelIdeal.τ).loc Cert.KernelIdeal.main_arg7)) i))
      ∧ (∀ i : Cert.KernelIdeal.S128.Idx, IsReal ((m ((c.tc : Thread Cert.KernelIdeal.nD Cert.KernelIdeal.τ).loc Cert.KernelIdeal.main_arg8)) i))
      ∧ (∀ i : Cert.KernelIdeal.S128x128.Idx, IsReal ((m ((c.tc : Thread Cert.KernelIdeal.nD Cert.KernelIdeal.τ).loc Cert.KernelIdeal.main_arg9)) i))
      ∧ (∀ i : Cert.KernelIdeal.S128.Idx, IsReal ((m ((c.tc : Thread Cert.KernelIdeal.nD Cert.KernelIdeal.τ).loc Cert.KernelIdeal.main_arg10)) i))
      ∧ (∀ i : Cert.KernelIdeal.S128.Idx, IsReal ((m ((c.tc : Thread Cert.KernelIdeal.nD Cert.KernelIdeal.τ).loc Cert.KernelIdeal.main_arg11)) i))
      ∧ (∀ i : Cert.KernelIdeal.S128.Idx, IsReal ((m ((c.tc : Thread Cert.KernelIdeal.nD Cert.KernelIdeal.τ).loc Cert.KernelIdeal.main_arg12)) i))
      ∧ (∀ i : Cert.KernelIdeal.S128x7.Idx, IsReal ((m ((c.tc : Thread Cert.KernelIdeal.nD Cert.KernelIdeal.τ).loc Cert.KernelIdeal.main_arg13)) i))
      ∧ (∀ i : Cert.KernelIdeal.S7.Idx, IsReal ((m ((c.tc : Thread Cert.KernelIdeal.nD Cert.KernelIdeal.τ).loc Cert.KernelIdeal.main_arg14)) i)) :=
  fn_real (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (h c)

/-- Every element of argument 0 is a real number. -/
theorem arg0_real (m : (ℓ : Loc Cert.KernelIdeal.nD Cert.KernelIdeal.τ Cert.KernelIdeal.sig) → Buf (Elt Ideal) ℓ) (h : Cert.Pre_KernelIdeal m)
    (c : Dev Cert.KernelIdeal.nD) (i : Cert.KernelIdeal.S100000x128.Idx) :
    IsReal (m ((c.tc : Thread Cert.KernelIdeal.nD Cert.KernelIdeal.τ).loc Cert.KernelIdeal.main_arg0) i) :=
  (args_real m h c).1 i

/-- Every element of argument 1 is a real number. -/
theorem arg1_real (m : (ℓ : Loc Cert.KernelIdeal.nD Cert.KernelIdeal.τ Cert.KernelIdeal.sig) → Buf (Elt Ideal) ℓ) (h : Cert.Pre_KernelIdeal m)
    (c : Dev Cert.KernelIdeal.nD) (i : Cert.KernelIdeal.S128x128.Idx) :
    IsReal (m ((c.tc : Thread Cert.KernelIdeal.nD Cert.KernelIdeal.τ).loc Cert.KernelIdeal.main_arg1) i) :=
  (args_real m h c).2.1 i

/-- Every element of argument 2 is a real number. -/
theorem arg2_real (m : (ℓ : Loc Cert.KernelIdeal.nD Cert.KernelIdeal.τ Cert.KernelIdeal.sig) → Buf (Elt Ideal) ℓ) (h : Cert.Pre_KernelIdeal m)
    (c : Dev Cert.KernelIdeal.nD) (i : Cert.KernelIdeal.S128.Idx) :
    IsReal (m ((c.tc : Thread Cert.KernelIdeal.nD Cert.KernelIdeal.τ).loc Cert.KernelIdeal.main_arg2) i) :=
  (args_real m h c).2.2.1 i

/-- Every element of argument 3 is a real number. -/
theorem arg3_real (m : (ℓ : Loc Cert.KernelIdeal.nD Cert.KernelIdeal.τ Cert.KernelIdeal.sig) → Buf (Elt Ideal) ℓ) (h : Cert.Pre_KernelIdeal m)
    (c : Dev Cert.KernelIdeal.nD) (i : Cert.KernelIdeal.S128x128.Idx) :
    IsReal (m ((c.tc : Thread Cert.KernelIdeal.nD Cert.KernelIdeal.τ).loc Cert.KernelIdeal.main_arg3) i) :=
  (args_real m h c).2.2.2.1 i

/-- Every element of argument 4 is a real number. -/
theorem arg4_real (m : (ℓ : Loc Cert.KernelIdeal.nD Cert.KernelIdeal.τ Cert.KernelIdeal.sig) → Buf (Elt Ideal) ℓ) (h : Cert.Pre_KernelIdeal m)
    (c : Dev Cert.KernelIdeal.nD) (i : Cert.KernelIdeal.S128.Idx) :
    IsReal (m ((c.tc : Thread Cert.KernelIdeal.nD Cert.KernelIdeal.τ).loc Cert.KernelIdeal.main_arg4) i) :=
  (args_real m h c).2.2.2.2.1 i

/-- Every element of argument 5 is a real number. -/
theorem arg5_real (m : (ℓ : Loc Cert.KernelIdeal.nD Cert.KernelIdeal.τ Cert.KernelIdeal.sig) → Buf (Elt Ideal) ℓ) (h : Cert.Pre_KernelIdeal m)
    (c : Dev Cert.KernelIdeal.nD) (i : Cert.KernelIdeal.S128.Idx) :
    IsReal (m ((c.tc : Thread Cert.KernelIdeal.nD Cert.KernelIdeal.τ).loc Cert.KernelIdeal.main_arg5) i) :=
  (args_real m h c).2.2.2.2.2.1 i

/-- Every element of argument 6 is a real number. -/
theorem arg6_real (m : (ℓ : Loc Cert.KernelIdeal.nD Cert.KernelIdeal.τ Cert.KernelIdeal.sig) → Buf (Elt Ideal) ℓ) (h : Cert.Pre_KernelIdeal m)
    (c : Dev Cert.KernelIdeal.nD) (i : Cert.KernelIdeal.S128.Idx) :
    IsReal (m ((c.tc : Thread Cert.KernelIdeal.nD Cert.KernelIdeal.τ).loc Cert.KernelIdeal.main_arg6) i) :=
  (args_real m h c).2.2.2.2.2.2.1 i

/-- Every element of argument 7 is a real number. -/
theorem arg7_real (m : (ℓ : Loc Cert.KernelIdeal.nD Cert.KernelIdeal.τ Cert.KernelIdeal.sig) → Buf (Elt Ideal) ℓ) (h : Cert.Pre_KernelIdeal m)
    (c : Dev Cert.KernelIdeal.nD) (i : Cert.KernelIdeal.S128x128.Idx) :
    IsReal (m ((c.tc : Thread Cert.KernelIdeal.nD Cert.KernelIdeal.τ).loc Cert.KernelIdeal.main_arg7) i) :=
  (args_real m h c).2.2.2.2.2.2.2.1 i

/-- Every element of argument 8 is a real number. -/
theorem arg8_real (m : (ℓ : Loc Cert.KernelIdeal.nD Cert.KernelIdeal.τ Cert.KernelIdeal.sig) → Buf (Elt Ideal) ℓ) (h : Cert.Pre_KernelIdeal m)
    (c : Dev Cert.KernelIdeal.nD) (i : Cert.KernelIdeal.S128.Idx) :
    IsReal (m ((c.tc : Thread Cert.KernelIdeal.nD Cert.KernelIdeal.τ).loc Cert.KernelIdeal.main_arg8) i) :=
  (args_real m h c).2.2.2.2.2.2.2.2.1 i

/-- Every element of argument 9 is a real number. -/
theorem arg9_real (m : (ℓ : Loc Cert.KernelIdeal.nD Cert.KernelIdeal.τ Cert.KernelIdeal.sig) → Buf (Elt Ideal) ℓ) (h : Cert.Pre_KernelIdeal m)
    (c : Dev Cert.KernelIdeal.nD) (i : Cert.KernelIdeal.S128x128.Idx) :
    IsReal (m ((c.tc : Thread Cert.KernelIdeal.nD Cert.KernelIdeal.τ).loc Cert.KernelIdeal.main_arg9) i) :=
  (args_real m h c).2.2.2.2.2.2.2.2.2.1 i

/-- Every element of argument 10 is a real number. -/
theorem arg10_real (m : (ℓ : Loc Cert.KernelIdeal.nD Cert.KernelIdeal.τ Cert.KernelIdeal.sig) → Buf (Elt Ideal) ℓ) (h : Cert.Pre_KernelIdeal m)
    (c : Dev Cert.KernelIdeal.nD) (i : Cert.KernelIdeal.S128.Idx) :
    IsReal (m ((c.tc : Thread Cert.KernelIdeal.nD Cert.KernelIdeal.τ).loc Cert.KernelIdeal.main_arg10) i) :=
  (args_real m h c).2.2.2.2.2.2.2.2.2.2.1 i

/-- Every element of argument 11 is a real number. -/
theorem arg11_real (m : (ℓ : Loc Cert.KernelIdeal.nD Cert.KernelIdeal.τ Cert.KernelIdeal.sig) → Buf (Elt Ideal) ℓ) (h : Cert.Pre_KernelIdeal m)
    (c : Dev Cert.KernelIdeal.nD) (i : Cert.KernelIdeal.S128.Idx) :
    IsReal (m ((c.tc : Thread Cert.KernelIdeal.nD Cert.KernelIdeal.τ).loc Cert.KernelIdeal.main_arg11) i) :=
  (args_real m h c).2.2.2.2.2.2.2.2.2.2.2.1 i

/-- Every element of argument 12 is a real number. -/
theorem arg12_real (m : (ℓ : Loc Cert.KernelIdeal.nD Cert.KernelIdeal.τ Cert.KernelIdeal.sig) → Buf (Elt Ideal) ℓ) (h : Cert.Pre_KernelIdeal m)
    (c : Dev Cert.KernelIdeal.nD) (i : Cert.KernelIdeal.S128.Idx) :
    IsReal (m ((c.tc : Thread Cert.KernelIdeal.nD Cert.KernelIdeal.τ).loc Cert.KernelIdeal.main_arg12) i) :=
  (args_real m h c).2.2.2.2.2.2.2.2.2.2.2.2.1 i

/-- Every element of argument 13 is a real number. -/
theorem arg13_real (m : (ℓ : Loc Cert.KernelIdeal.nD Cert.KernelIdeal.τ Cert.KernelIdeal.sig) → Buf (Elt Ideal) ℓ) (h : Cert.Pre_KernelIdeal m)
    (c : Dev Cert.KernelIdeal.nD) (i : Cert.KernelIdeal.S128x7.Idx) :
    IsReal (m ((c.tc : Thread Cert.KernelIdeal.nD Cert.KernelIdeal.τ).loc Cert.KernelIdeal.main_arg13) i) :=
  (args_real m h c).2.2.2.2.2.2.2.2.2.2.2.2.2.1 i

/-- Every element of argument 14 is a real number. -/
theorem arg14_real (m : (ℓ : Loc Cert.KernelIdeal.nD Cert.KernelIdeal.τ Cert.KernelIdeal.sig) → Buf (Elt Ideal) ℓ) (h : Cert.Pre_KernelIdeal m)
    (c : Dev Cert.KernelIdeal.nD) (i : Cert.KernelIdeal.S7.Idx) :
    IsReal (m ((c.tc : Thread Cert.KernelIdeal.nD Cert.KernelIdeal.τ).loc Cert.KernelIdeal.main_arg14) i) :=
  (args_real m h c).2.2.2.2.2.2.2.2.2.2.2.2.2.2 i

end Cert.FiniteArgs
-- ==== Proof.KLayer1.lean ====
/-
  The first layer of the kernel program, as a function of the argument arrays.

  The host operations before the first region leave the node features, their aggregate over incoming edges and
  the layer's weights in the region's windows.  The region writes the layer before normalisation and its
  column sums; the next host operations turn the sums into a scale and a shift; the second region applies
  them.  Entry by entry this is the reference's normalised layer, because every value involved is real.
-/
import proofs.«148986_j16054587752866_1_alg».proof.Proof.HostVals
import proofs.«148986_j16054587752866_1_alg».proof.Proof.Region0
import proofs.«148986_j16054587752866_1_alg».proof.Proof.Region1
import proofs.«148986_j16054587752866_1_alg».proof.Proof.LayerLaw
import proofs.«148986_j16054587752866_1_alg».proof.Proof.Glue
import proofs.«148986_j16054587752866_1_alg».proof.Proof.FiniteArgs
import proofs.«148986_j16054587752866_1_alg».proof.Proof.Layers

set_option maxRecDepth 16384

noncomputable section

open Idealize.ShloMosaic Idealize.ShloMosaic.TcCoe Idealize.SL.Sem Idealize.ShloMosaic.ValueIdx

namespace Cert.KLayer1

open Cert.KernelIdeal Cert.KernelIdeal.Gen Cert.KernelIdeal.HostVals Cert.Laws

variable (m : (ℓ : Loc nD τ sig) → Buf (Elt Ideal) ℓ) (ρ : Dev nD → PrngReg) (c : Dev nD)

/-- The first layer before normalisation, in the reference's operations. -/
abbrev P1 : S100000x128.Idx → EReal := Cert.RefSide.preOf (m ((c : Thread nD τ).loc main_arg0)) (Cert.RefSide.aggOf (m ((c : Thread nD τ).loc main_arg0)) (m ((c : Thread nD τ).loc main_arg15))) (m ((c : Thread nD τ).loc main_arg1)) (m ((c : Thread nD τ).loc main_arg2)) (m ((c : Thread nD τ).loc main_arg3)) (m ((c : Thread nD τ).loc main_arg4))

/-- What the first region computes from its windows is that array. -/
theorem preArr_eq :
    Cert.Spec.preArr (V1 m ρ c main_arg0) (V1 m ρ c main_v13) (V1 m ρ c main_v14) (V1 m ρ c main_v16) (V1 m ρ c main_v15) (V1 m ρ c main_v17) = P1 m c := by
  have e0 : (V1 m ρ c main_arg0 : S100000x128.Idx → EReal) = m ((c : Thread nD τ).loc main_arg0) := W1_main_arg0 m ρ c
  have e13 : (V1 m ρ c main_v13 : S100000x128.Idx → EReal) = Cert.RefSide.aggOf (m ((c : Thread nD τ).loc main_arg0)) (m ((c : Thread nD τ).loc main_arg15)) :=
    (W1_v13 m ρ c).trans (Cert.Glue.aggK_eq _ _)
  rw [e0, e13]
  exact Cert.LayerLaw.pre_eq _ _ _ _ _ _ _ _ _ _ (fun i => congrFun (W1_v14 m ρ c) i) (fun i => congrFun (W1_v15 m ρ c) i)
    (fun j => W1_v16_apply m ρ c j) (fun j => W1_v17_apply m ρ c j)

theorem pre1 : (W2 m ρ c (Proc.devRef .tc main_v18_0) : S100000x128.Idx → EReal) = P1 m c :=
  ((hF0 m ρ c 6).symm.trans (Cert.KernelIdeal.Region0.final6 (V1 m ρ) c)).trans (preArr_eq m ρ c)

theorem sum1 : (W2 m ρ c (Proc.devRef .tc main_v18_1) : S1x128.Idx → EReal) = Cert.Spec.colSum (P1 m c) :=
  ((hF0 m ρ c 7).symm.trans (Cert.KernelIdeal.Region0.final7 (V1 m ρ) c)).trans (congrArg Cert.Spec.colSum (preArr_eq m ρ c))

theorem sumsq1 : (W2 m ρ c (Proc.devRef .tc main_v18_2) : S1x128.Idx → EReal) = Cert.Spec.colSumSq (P1 m c) :=
  ((hF0 m ρ c 8).symm.trans (Cert.KernelIdeal.Region0.final8 (V1 m ρ) c)).trans (congrArg Cert.Spec.colSumSq (preArr_eq m ρ c))

/-- Every entry of that array is real when the arguments are. -/
theorem P1_real (hpre : Cert.Pre_KernelIdeal (hPre_finite_inputs := Cert.Pre_finite_inputs.Gen.facts) m) (i : S100000x128.Idx) : IsReal (P1 m c i) := by
  have e : P1 m c = Cert.Spec.preArr (m ((c : Thread nD τ).loc main_arg0)) (Cert.RefSide.aggOf (m ((c : Thread nD τ).loc main_arg0)) (m ((c : Thread nD τ).loc main_arg15))) (m ((c : Thread nD τ).loc main_arg1))
      (fun i => (m ((c : Thread nD τ).loc main_arg2)) (ix1 (i 1))) (m ((c : Thread nD τ).loc main_arg3)) (fun i => (m ((c : Thread nD τ).loc main_arg4)) (ix1 (i 1))) :=
    (Cert.LayerLaw.pre_eq _ _ _ _ _ _ _ _ _ _ (fun _ => rfl) (fun _ => rfl) (fun _ => rfl) (fun _ => rfl)).symm
  rw [e]
  exact Cert.LayerLaw.pre_real _ _ _ _ _ _ (Cert.FiniteArgs.arg0_real m hpre c) (Cert.RefSide.aggOf_isReal _ _ (Cert.FiniteArgs.arg0_real m hpre c))
    (Cert.FiniteArgs.arg1_real m hpre c) (fun _ => Cert.FiniteArgs.arg2_real m hpre c _) (Cert.FiniteArgs.arg3_real m hpre c) (fun _ => Cert.FiniteArgs.arg4_real m hpre c _) i

/-- After the second region the array is the first normalised layer. -/
theorem layer1 (hpre : Cert.Pre_KernelIdeal (hPre_finite_inputs := Cert.Pre_finite_inputs.Gen.facts) m) :
    (W4 m ρ c (Proc.devRef .tc main_v33) : S100000x128.Idx → EReal) = Cert.Layers.H1 m c := by
  refine ((hF1 m ρ c 3).symm.trans (Cert.KernelIdeal.Region1.final (V3 m ρ) c)).trans ?_
  have eP : (V3 m ρ c main_v18_0 : S100000x128.Idx → EReal) = P1 m c := (W3_v18_0 m ρ c).trans (pre1 m ρ c)
  rw [eP]
  refine (Cert.LayerLaw.bn_eq_norm (P1 m c) (P1_real m c hpre) (m ((c : Thread nD τ).loc main_arg5)) (m ((c : Thread nD τ).loc main_arg6))
    (Cert.FiniteArgs.arg5_real m hpre c) (Cert.FiniteArgs.arg6_real m hpre c) _ _ (fun j => ?_) (fun j => ?_)).trans rfl
  · refine (W3_v29_apply m ρ c j).trans ?_
    rw [sum1, sumsq1]
    rfl
  · refine (W3_v32_apply m ρ c j).trans ?_
    rw [sum1, sumsq1]
    rfl

theorem H1_real (hpre : Cert.Pre_KernelIdeal (hPre_finite_inputs := Cert.Pre_finite_inputs.Gen.facts) m) (i : S100000x128.Idx) : IsReal (Cert.Layers.H1 m c i) :=
  Cert.LayerLaw.norm_real (P1 m c) (P1_real m c hpre) _ _ (Cert.FiniteArgs.arg5_real m hpre c) (Cert.FiniteArgs.arg6_real m hpre c) i

end Cert.KLayer1
end
-- ==== Proof.Pay2.lean ====
/-
  The same arithmetic for the second message-passing layer and the second normalisation layer: the two
  layers run one body each, so every entry reads as in the first.
-/
import proofs.«148986_j16054587752866_1_alg».proof.Proof.Pay

noncomputable section

open Idealize.ShloMosaic Idealize.ShloMosaic.ValueIdx

namespace Cert.KernelIdeal.PayAt2

open Cert.KernelIdeal Cert.KernelIdeal.Gen Cert.KernelIdeal.PayAt

/-- Row r, column j of a block of the message-passing layer. -/
theorem pay4_at (x a : FVec Ideal S4000x128 .f32) (w1 : FVec Ideal S128x128 .bf16) (b1 : FVec Ideal S1x128 .f32)
    (w2 : FVec Ideal S128x128 .bf16) (b2 : FVec Ideal S1x128 .f32) (r : Fin 4000) (j : Fin 128) :
    k2_pay4 x a w1 b1 w2 b2 (ix2 r j)
      = (∑ k : Fin 128, max ((∑ k' : Fin 128, (x (ix2 r k') + a (ix2 r k')) * w1 (ix2 k' k)) + b1 (ix2 0 k)) 0 * w2 (ix2 k j)) + b2 (ix2 0 j) := by
  unfold k2_pay4
  simp only [shapeCast_self]
  rw [addf_apply, matmul_at, rowBcast_at]
  refine congrArg (· + b2 (ix2 0 j)) (Finset.sum_congr rfl fun k _ => congrArg (· * w2 (ix2 k j)) ?_)
  rw [truncf_apply, maximumf_apply, addf_apply, matmul_at, rowBcast_at, broadcast_apply]
  refine congrArg₂ max (congrArg (· + b1 (ix2 0 k)) (Finset.sum_congr rfl fun k' _ => ?_)) (by simp [Scalar.ofBits, Ideal.ofBits, Ideal.ieee])
  rw [truncf_apply, addf_apply]

/-- The running column sum after a block: what it held plus the block's column sums. -/
theorem pay5_at (x a : FVec Ideal S4000x128 .f32) (w1 : FVec Ideal S128x128 .bf16) (b1 : FVec Ideal S1x128 .f32)
    (w2 : FVec Ideal S128x128 .bf16) (b2 : FVec Ideal S1x128 .f32) (acc : FVec Ideal S1x128 .f32) (j : Fin 128) :
    k2_pay5 x a w1 b1 w2 b2 acc (ix2 0 j) = acc (ix2 0 j) + ∑ r : Fin 4000, k2_pay4 x a w1 b1 w2 b2 (ix2 r j) := by
  unfold k2_pay5
  simp only [shapeCast_self]
  rw [addf_apply, colSum_at]

/-- The running column sum of squares after a block. -/
theorem pay1_at (v : FVec Ideal S4000x128 .f32) (acc : FVec Ideal S1x128 .f32) (j : Fin 128) :
    k2_pay1 v acc (ix2 0 j) = acc (ix2 0 j) + ∑ r : Fin 4000, v (ix2 r j) * v (ix2 r j) := by
  unfold k2_pay1
  simp only [shapeCast_self]
  rw [addf_apply, colSum_at]
  rfl

theorem pay2_at (i : S1x128.Idx) : (k2_pay2 (F := Ideal)) i = 0 := by
  unfold k2_pay2; exact zeroWord
theorem pay3_at (i : S1x128.Idx) : (k2_pay3 (F := Ideal)) i = 0 := by
  unfold k2_pay3; exact zeroWord

/-- Row r, column j of a block of the normalisation layer. -/
theorem bn_at (h : FVec Ideal S4000x128 .f32) (s d : FVec Ideal S1x128 .f32) (r : Fin 4000) (j : Fin 128) :
    k3_pay1 h s d (ix2 r j) = max (h (ix2 r j) * s (ix2 0 j) + d (ix2 0 j)) 0 := by
  unfold k3_pay1
  simp only [shapeCast_self]
  rw [maximumf_apply, addf_apply, mulf_apply, rowBcast_at, rowBcast_at, broadcast_apply, zeroWord]

end Cert.KernelIdeal.PayAt2
end
-- ==== Proof.Body2.lean ====
/-
  What one run of the second message-passing layer's body leaves in its three output buffers, as values.

  At the first grid point the body clears the two running sums, then stores the block's result and adds the
  block's column sums (of the entries, and of their squares) to the cleared sums.  At every later point it
  adds them to what the point before left.  Each buffer is written by stores that cover it whole, so what it
  holds is the last store's value, whose loads read whole buffers.
-/
import proofs.«148986_j16054587752866_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Body2

open Cert.KernelIdeal Cert.KernelIdeal.Gen

variable {F : FTy → Type} [FloatOps F]

theorem hz : (![0, 0] : Fin 2 → Nat) = fun _ => 0 := funext fun a => by fin_cases a <;> rfl

/-- At the first point the block's result is the layer's arithmetic of the six input blocks. -/
theorem out_A_6 (c : Dev nD) (i : grid2.Coords) (a1 : Memref sig .tc .vmem S4000x128 .f32) (h1 : a1.IsWhole) (a2 : Memref sig .tc .vmem S4000x128 .f32) (h2 : a2.IsWhole) (a3 : Memref sig .tc .vmem S128x128 .bf16) (h3 : a3.IsWhole) (a4 : Memref sig .tc .vmem S1x128 .f32) (h4 : a4.IsWhole) (a5 : Memref sig .tc .vmem S128x128 .bf16) (h5 : a5.IsWhole) (a6 : Memref sig .tc .vmem S1x128 .f32) (h6 : a6.IsWhole) (a7 : Memref sig .tc .vmem S4000x128 .f32) (h7 : a7.IsWhole) (a8 : Memref sig .tc .vmem S1x128 .f32) (h8 : a8.IsWhole) (a9 : Memref sig .tc .vmem S1x128 .f32) (h9 : a9.IsWhole) (hc : cond2_0 i) (x0 : Vec F S4000x128 .f32) (x1 : Vec F S4000x128 .f32) (x2 : Vec F S128x128 .bf16) (x3 : Vec F S1x128 .f32) (x4 : Vec F S128x128 .bf16) (x5 : Vec F S1x128 .f32) :
    out2_A_6 c i a1 h1 a2 h2 a3 h3 a4 h4 a5 h5 a6 h6 a7 h7 a8 h8 a9 h9 hc x0 x1 x2 x3 x4 x5 = k2_pay4 x0 x1 x2 x3 x4 x5 := by
  unfold out2_A_6
  rw [View.read_writes_eq_canon _ _ _ (cover2_A_6 c i a1 h1 a2 h2 a3 h3 a4 h4 a5 h5 a6 h6 a7 h7 a8 h8 a9 h9 hc x0 x1 x2 x3 x4 x5)]
  unfold kernelRun2_A
  dsimp only
  rw [View.canon_unit_zero hz]
  simp only [View.readAt_eq_ld, h1.read_unread, h2.read_unread, h3.read_unread, h4.read_unread, h5.read_unread, h6.read_unread,
    View.ld_unit_zero (S := S4000x128) hz, View.ld_unit_zero (S := S128x128) hz, View.ld_unit_zero (S := S1x128) hz]

theorem out_A_7 (c : Dev nD) (i : grid2.Coords) (a1 : Memref sig .tc .vmem S4000x128 .f32) (h1 : a1.IsWhole) (a2 : Memref sig .tc .vmem S4000x128 .f32) (h2 : a2.IsWhole) (a3 : Memref sig .tc .vmem S128x128 .bf16) (h3 : a3.IsWhole) (a4 : Memref sig .tc .vmem S1x128 .f32) (h4 : a4.IsWhole) (a5 : Memref sig .tc .vmem S128x128 .bf16) (h5 : a5.IsWhole) (a6 : Memref sig .tc .vmem S1x128 .f32) (h6 : a6.IsWhole) (a7 : Memref sig .tc .vmem S4000x128 .f32) (h7 : a7.IsWhole) (a8 : Memref sig .tc .vmem S1x128 .f32) (h8 : a8.IsWhole) (a9 : Memref sig .tc .vmem S1x128 .f32) (h9 : a9.IsWhole) (hc : cond2_0 i) (x0 : Vec F S4000x128 .f32) (x1 : Vec F S4000x128 .f32) (x2 : Vec F S128x128 .bf16) (x3 : Vec F S1x128 .f32) (x4 : Vec F S128x128 .bf16) (x5 : Vec F S1x128 .f32) :
    out2_A_7 c i a1 h1 a2 h2 a3 h3 a4 h4 a5 h5 a6 h6 a7 h7 a8 h8 a9 h9 hc x0 x1 x2 x3 x4 x5 = k2_pay5 x0 x1 x2 x3 x4 x5 k2_pay2 := by
  unfold out2_A_7
  rw [View.read_writes_eq_canon _ _ _ (cover2_A_7 c i a1 h1 a2 h2 a3 h3 a4 h4 a5 h5 a6 h6 a7 h7 a8 h8 a9 h9 hc x0 x1 x2 x3 x4 x5)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    View.ld_unit_zero (S := S4000x128) hz, View.ld_unit_zero (S := S128x128) hz, View.ld_unit_zero (S := S1x128) hz]

theorem out_A_8 (c : Dev nD) (i : grid2.Coords) (a1 : Memref sig .tc .vmem S4000x128 .f32) (h1 : a1.IsWhole) (a2 : Memref sig .tc .vmem S4000x128 .f32) (h2 : a2.IsWhole) (a3 : Memref sig .tc .vmem S128x128 .bf16) (h3 : a3.IsWhole) (a4 : Memref sig .tc .vmem S1x128 .f32) (h4 : a4.IsWhole) (a5 : Memref sig .tc .vmem S128x128 .bf16) (h5 : a5.IsWhole) (a6 : Memref sig .tc .vmem S1x128 .f32) (h6 : a6.IsWhole) (a7 : Memref sig .tc .vmem S4000x128 .f32) (h7 : a7.IsWhole) (a8 : Memref sig .tc .vmem S1x128 .f32) (h8 : a8.IsWhole) (a9 : Memref sig .tc .vmem S1x128 .f32) (h9 : a9.IsWhole) (hc : cond2_0 i) (x0 : Vec F S4000x128 .f32) (x1 : Vec F S4000x128 .f32) (x2 : Vec F S128x128 .bf16) (x3 : Vec F S1x128 .f32) (x4 : Vec F S128x128 .bf16) (x5 : Vec F S1x128 .f32) :
    out2_A_8 c i a1 h1 a2 h2 a3 h3 a4 h4 a5 h5 a6 h6 a7 h7 a8 h8 a9 h9 hc x0 x1 x2 x3 x4 x5 = k2_pay1 (k2_pay4 x0 x1 x2 x3 x4 x5) k2_pay3 := by
  unfold out2_A_8
  rw [View.read_writes_eq_canon _ _ _ (cover2_A_8 c i a1 h1 a2 h2 a3 h3 a4 h4 a5 h5 a6 h6 a7 h7 a8 h8 a9 h9 hc x0 x1 x2 x3 x4 x5)]
  unfold kernelRun2_A
  dsimp only
  sl_unfold_words
  rw [View.canon_cons_unit_zero (S := S1x128) hz, View.readCov_unit_zero (S := S1x128) _ hz]
  simp only [View.readAt_eq_ld, h1.read_unread, h2.read_unread, h3.read_unread, h4.read_unread, h5.read_unread, h6.read_unread,
    View.ld_unit_zero (S := S4000x128) hz, View.ld_unit_zero (S := S128x128) hz, View.ld_unit_zero (S := S1x128) hz]

/-- At a later point the block's result is the same arithmetic; the two running sums receive the block's column sums. -/
theorem out_B_6 (c : Dev nD) (i : grid2.Coords) (a1 : Memref sig .tc .vmem S4000x128 .f32) (h1 : a1.IsWhole) (a2 : Memref sig .tc .vmem S4000x128 .f32) (h2 : a2.IsWhole) (a3 : Memref sig .tc .vmem S128x128 .bf16) (h3 : a3.IsWhole) (a4 : Memref sig .tc .vmem S1x128 .f32) (h4 : a4.IsWhole) (a5 : Memref sig .tc .vmem S128x128 .bf16) (h5 : a5.IsWhole) (a6 : Memref sig .tc .vmem S1x128 .f32) (h6 : a6.IsWhole) (a7 : Memref sig .tc .vmem S4000x128 .f32) (h7 : a7.IsWhole) (a8 : Memref sig .tc .vmem S1x128 .f32) (h8 : a8.IsWhole) (a9 : Memref sig .tc .vmem S1x128 .f32) (h9 : a9.IsWhole) (hc : ¬cond2_0 i) (x0 : Vec F S4000x128 .f32) (x1 : Vec F S4000x128 .f32) (x2 : Vec F S128x128 .bf16) (x3 : Vec F S1x128 .f32) (x4 : Vec F S128x128 .bf16) (x5 : Vec F S1x128 .f32) (xo7 : Vec F S1x128 .f32) (xo8 : Vec F S1x128 .f32) :
    out2_B_6 c i a1 h1 a2 h2 a3 h3 a4 h4 a5 h5 a6 h6 a7 h7 a8 h8 a9 h9 hc x0 x1 x2 x3 x4 x5 xo7 xo8 = k2_pay4 x0 x1 x2 x3 x4 x5 := by
  unfold out2_B_6
  rw [View.read_writes_eq_canon _ _ _ (cover2_B_6 c i a1 h1 a2 h2 a3 h3 a4 h4 a5 h5 a6 h6 a7 h7 a8 h8 a9 h9 hc x0 x1 x2 x3 x4 x5 xo7 xo8)]
  unfold kernelRun2_B
  dsimp only
  rw [View.canon_unit_zero hz]
  simp only [View.readAt_eq_ld, h1.read_unread, h2.read_unread, h3.read_unread, h4.read_unread, h5.read_unread, h6.read_unread,
    View.ld_unit_zero (S := S4000x128) hz, View.ld_unit_zero (S := S128x128) hz, View.ld_unit_zero (S := S1x128) hz]

theorem out_B_7 (c : Dev nD) (i : grid2.Coords) (a1 : Memref sig .tc .vmem S4000x128 .f32) (h1 : a1.IsWhole) (a2 : Memref sig .tc .vmem S4000x128 .f32) (h2 : a2.IsWhole) (a3 : Memref sig .tc .vmem S128x128 .bf16) (h3 : a3.IsWhole) (a4 : Memref sig .tc .vmem S1x128 .f32) (h4 : a4.IsWhole) (a5 : Memref sig .tc .vmem S128x128 .bf16) (h5 : a5.IsWhole) (a6 : Memref sig .tc .vmem S1x128 .f32) (h6 : a6.IsWhole) (a7 : Memref sig .tc .vmem S4000x128 .f32) (h7 : a7.IsWhole) (a8 : Memref sig .tc .vmem S1x128 .f32) (h8 : a8.IsWhole) (a9 : Memref sig .tc .vmem S1x128 .f32) (h9 : a9.IsWhole) (hc : ¬cond2_0 i) (x0 : Vec F S4000x128 .f32) (x1 : Vec F S4000x128 .f32) (x2 : Vec F S128x128 .bf16) (x3 : Vec F S1x128 .f32) (x4 : Vec F S128x128 .bf16) (x5 : Vec F S1x128 .f32) (xo7 : Vec F S1x128 .f32) (xo8 : Vec F S1x128 .f32) :
    out2_B_7 c i a1 h1 a2 h2 a3 h3 a4 h4 a5 h5 a6 h6 a7 h7 a8 h8 a9 h9 hc x0 x1 x2 x3 x4 x5 xo7 xo8 = k2_pay5 x0 x1 x2 x3 x4 x5 xo7 := by
  unfold out2_B_7
  rw [View.read_writes_eq_canon _ _ _ (cover2_B_7 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz]
  simp only [View.readAt_eq_ld, h1.read_unread, h2.read_unread, h3.read_unread, h4.read_unread, h5.read_unread, h6.read_unread, h8.read_unread, h9.read_unread,
    View.ld_unit_zero (S := S4000x128) hz, View.ld_unit_zero (S := S128x128) hz, View.ld_unit_zero (S := S1x128) hz]

theorem out_B_8 (c : Dev nD) (i : grid2.Coords) (a1 : Memref sig .tc .vmem S4000x128 .f32) (h1 : a1.IsWhole) (a2 : Memref sig .tc .vmem S4000x128 .f32) (h2 : a2.IsWhole) (a3 : Memref sig .tc .vmem S128x128 .bf16) (h3 : a3.IsWhole) (a4 : Memref sig .tc .vmem S1x128 .f32) (h4 : a4.IsWhole) (a5 : Memref sig .tc .vmem S128x128 .bf16) (h5 : a5.IsWhole) (a6 : Memref sig .tc .vmem S1x128 .f32) (h6 : a6.IsWhole) (a7 : Memref sig .tc .vmem S4000x128 .f32) (h7 : a7.IsWhole) (a8 : Memref sig .tc .vmem S1x128 .f32) (h8 : a8.IsWhole) (a9 : Memref sig .tc .vmem S1x128 .f32) (h9 : a9.IsWhole) (hc : ¬cond2_0 i) (x0 : Vec F S4000x128 .f32) (x1 : Vec F S4000x128 .f32) (x2 : Vec F S128x128 .bf16) (x3 : Vec F S1x128 .f32) (x4 : Vec F S128x128 .bf16) (x5 : Vec F S1x128 .f32) (xo7 : Vec F S1x128 .f32) (xo8 : Vec F S1x128 .f32) :
    out2_B_8 c i a1 h1 a2 h2 a3 h3 a4 h4 a5 h5 a6 h6 a7 h7 a8 h8 a9 h9 hc x0 x1 x2 x3 x4 x5 xo7 xo8 = k2_pay1 (k2_pay4 x0 x1 x2 x3 x4 x5) xo8 := by
  unfold out2_B_8
  rw [View.read_writes_eq_canon _ _ _ (cover2_B_8 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz]
  simp only [View.readAt_eq_ld, h1.read_unread, h2.read_unread, h3.read_unread, h4.read_unread, h5.read_unread, h6.read_unread, h8.read_unread, h9.read_unread,
    View.ld_unit_zero (S := S4000x128) hz, View.ld_unit_zero (S := S128x128) hz, View.ld_unit_zero (S := S1x128) hz]

end Cert.KernelIdeal.Body2
end
-- ==== Proof.Region2.lean ====
/-
  The second message-passing layer as a whole-array function, with its two column sums.

  Each of the 25 grid points reads rows 4000·t … 4000·t + 3999 of the two input arrays and the whole of the two
  weight matrices and the two bias rows.  It writes the same rows of the output: entry (i, j) becomes
      (∑ k, max ((∑ k', (x i k' + a i k') · w₁ k' k) + b₁ k) 0 · w₂ k j) + b₂ j.
  Two 1 × 128 rows are cleared at the first point and receive, at every point, the sums over the block's rows of
  the entries and of their squares; they are written back after the last point.  The 25 blocks cover the output
  array, and 25 blocks of 4000 rows are the 100000 rows, so after the region the three arrays are that function
  of the arrays found, its column sums, and the column sums of its squares.
-/
import proofs.«148986_j16054587752866_1_alg».proof.Proof.Gen.KernelIdeal.Frame
import Idealize.ShloMosaic.Lib.Pipeline.Value
import Idealize.ShloMosaic.Lib.Tactic
import proofs.«148986_j16054587752866_1_alg».proof.Proof.Pay2
import proofs.«148986_j16054587752866_1_alg».proof.Proof.Body2
import proofs.«148986_j16054587752866_1_alg».proof.Proof.Laws
import proofs.«148986_j16054587752866_1_alg».proof.Proof.Spec
import Idealize.ShloMosaic.Lib.ValueIdx
set_option maxRecDepth 16384

noncomputable section

open Idealize.ShloMosaic Idealize.ShloMosaic.TcCoe Idealize.SL.Sem
open Idealize.ShloMosaic.Pipeline (Dat)

namespace Cert.KernelIdeal.Region2

open Cert.KernelIdeal Cert.KernelIdeal.Gen

open Idealize.ShloMosaic.ValueIdx

open Cert.Spec (preArr colSum colSumSq)

variable (V : (c : Dev nD) → (b : Ref sig .tc) → Buf (Elt Ideal) ((c : Thread nD τ).loc b))

/-- The block of the result that point t computes. -/
def blkPre (c : Dev nD) (t : Fin cfg2.N) : Vec Ideal S4000x128 .f32 :=
  k2_pay4 (iblk2 V c 0 t) (iblk2 V c 1 t) (iblk2 V c 2 t) (iblk2 V c 3 t) (iblk2 V c 4 t) (iblk2 V c 5 t)

/-- At the first point the three buffers hold the block and the block's sums added to zero rows. -/
theorem outs_A (c : Dev nD) (t : Fin cfg2.N) (h0 : t.val % 25 = 0) :
    outsAt2 V c t.val t.isLt = (blkPre V c t, k2_pay5 (iblk2 V c 0 t) (iblk2 V c 1 t) (iblk2 V c 2 t) (iblk2 V c 3 t) (iblk2 V c 4 t) (iblk2 V c 5 t) (k2_pay2 (F := Ideal)), k2_pay1 (F := Ideal) (blkPre V c t) (k2_pay3 (F := Ideal))) := by
  rw [outsAt2_A V c t h0,
    Body2.out_A_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t),
    Body2.out_A_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t),
    Body2.out_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) ((hcond2_0 t).mpr h0) (iblk2 V c 0 t) (iblk2 V c 1 t) (iblk2 V c 2 t) (iblk2 V c 3 t) (iblk2 V c 4 t) (iblk2 V c 5 t)]
  rfl

/-- At a later point the three buffers hold the block and the block's sums added to what the point before left. -/
theorem outs_B (c : Dev nD) (t : Fin cfg2.N) (h0 : ¬t.val % 25 = 0) :
    outsAt2 V c t.val t.isLt = (blkPre V c t, k2_pay5 (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1,
      k2_pay1 (F := Ideal) (blkPre V c t) (outsAt2 V c (t.val - 1) (Nat.lt_of_le_of_lt (Nat.sub_le _ _) t.isLt)).2.2) := by
  rw [outsAt2_B V c t h0,
    Body2.out_B_6 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2,
    Body2.out_B_7 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2,
    Body2.out_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (fun h => h0 ((hcond2_0 t).mp h)) (iblk2 V c 0 t) (iblk2 V c 1 t) (iblk2 V c 2 t) (iblk2 V c 3 t) (iblk2 V c 4 t) (iblk2 V c 5 t) (outsAt2 V c (t.val - 1) (Nat.lt_of_le_of_lt (Nat.sub_le _ _) t.isLt)).2.1 (outsAt2 V c (t.val - 1) (Nat.lt_of_le_of_lt (Nat.sub_le _ _) t.isLt)).2.2]
  rfl

/-- The two running rows after point n: the sums of the entries and of their squares over the blocks so far. -/
def chain (c : Dev nD) : (n : ℕ) → n < cfg2.N → Vec Ideal S1x128 .f32 × Vec Ideal S1x128 .f32
  | 0, h => (k2_pay5 (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (k2_pay2 (F := Ideal)),
      k2_pay1 (F := Ideal) (blkPre V c ⟨0, h⟩) (k2_pay3 (F := Ideal)))
  | n + 1, h => (k2_pay5 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (chain c n (Nat.lt_of_succ_lt h)).1,
      k2_pay1 (F := Ideal) (blkPre V c ⟨n + 1, h⟩) (chain c n (Nat.lt_of_succ_lt h)).2)

/-- What the three buffers hold after point n: the block, and the two running rows. -/
theorem outsAt_eq (c : Dev nD) : ∀ (n : ℕ) (h : n < cfg2.N),
    outsAt2 V c n h = (blkPre V c ⟨n, h⟩, (chain V c n h).1, (chain V c n h).2)
  | 0, h => outs_A V c ⟨0, h⟩ rfl
  | n + 1, h => by
    have hN : cfg2.N = 25 := N_2
    have hB : ¬(⟨n + 1, h⟩ : Fin cfg2.N).val % 25 = 0 := by dsimp only; omega
    rw [show outsAt2 V c (n + 1) h = _ from outs_B V c ⟨n + 1, h⟩ hB]
    show (_, k2_pay5 _ _ _ _ _ _ (outsAt2 V c n _).2.1, k2_pay1 _ (outsAt2 V c n _).2.2) = _
    rw [outsAt_eq c n]
    rfl

theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0 :=
  (by decide +kernel : ∀ t : Fin grid2.N, _)

/-- The layer's entry, its indices given up to equality. -/
theorem pre_blk (X A : S100000x128.Idx → EReal) (w1 : S128x128.Idx → EReal) (b1 : S1x128.Idx → EReal)
    (w2 : S128x128.Idx → EReal) (b2 : S1x128.Idx → EReal) (i : S100000x128.Idx)
    (eX eA : Fin 128 → S100000x128.Idx) (ew1 : Fin 128 → Fin 128 → S128x128.Idx) (eb1 : Fin 128 → S1x128.Idx)
    (ew2 : Fin 128 → S128x128.Idx) (eb2 : S1x128.Idx)
    (hX : ∀ k', eX k' = ix2 (i 0) k') (hA : ∀ k', eA k' = ix2 (i 0) k') (hw1 : ∀ k' k, ew1 k' k = ix2 k' k)
    (hb1 : ∀ k, eb1 k = ix2 0 k) (hw2 : ∀ k, ew2 k = ix2 k (i 1)) (hb2 : eb2 = ix2 0 (i 1)) :
    (∑ k : Fin 128, max ((∑ k' : Fin 128, (X (eX k') + A (eA k')) * w1 (ew1 k' k)) + b1 (eb1 k)) 0 * w2 (ew2 k)) + b2 eb2
      = preArr X A w1 b1 w2 b2 i := by
  obtain rfl : eX = fun k' => ix2 (i 0) k' := funext hX
  obtain rfl : eA = fun k' => ix2 (i 0) k' := funext hA
  obtain rfl : ew1 = fun k' k => ix2 k' k := funext fun k' => funext (hw1 k')
  obtain rfl : eb1 = fun k => ix2 0 k := funext hb1
  obtain rfl : ew2 = fun k => ix2 k (i 1) := funext hw2
  subst hb2
  rfl

/-- Row r, column j of the block at point t is row 4000·t + r, column j of the layer on the arrays found. -/
theorem blkPre_at (c : Dev nD) (t : Fin cfg2.N) (r : Fin 4000) (j : Fin 128) (hr : t.val * 4000 + r.val < 100000) :
    blkPre V c t (ix2 r j) = (preArr (V c main_v33) (V c main_v43) (V c main_v44) (V c main_v46) (V c main_v45) (V c main_v47)) (ix2 ⟨t.val * 4000 + r.val, hr⟩ j) := by
  unfold blkPre
  rw [PayAt2.pay4_at]
  obtain ⟨e00, e01, e10, e11, e20, e21, e30, e31, e40, e41, e50, e51, _⟩ := idx_facts t
  have hX : ∀ k' : Fin 128, ((cfg2.win 0).blk t).view.emb (ix2 r k' : S4000x128.Idx) = ix2 ⟨t.val * 4000 + r.val, hr⟩ k' := fun k' => by
    funext a; apply Fin.ext
    match a with
    | ⟨0, _⟩ => show win2_0.index t (0 : Fin 2) * 4000 + 1 * r.val = t.val * 4000 + r.val; rw [e00]; omega
    | ⟨1, _⟩ => show win2_0.index t (1 : Fin 2) * 128 + 1 * k'.val = k'.val; rw [e01]; omega
  have hA : ∀ k' : Fin 128, ((cfg2.win 1).blk t).view.emb (ix2 r k' : S4000x128.Idx) = ix2 ⟨t.val * 4000 + r.val, hr⟩ k' := fun k' => by
    funext a; apply Fin.ext
    match a with
    | ⟨0, _⟩ => show win2_1.index t (0 : Fin 2) * 4000 + 1 * r.val = t.val * 4000 + r.val; rw [e10]; omega
    | ⟨1, _⟩ => show win2_1.index t (1 : Fin 2) * 128 + 1 * k'.val = k'.val; rw [e11]; omega
  have hw1 : ∀ k' k : Fin 128, ((cfg2.win 2).blk t).view.emb (ix2 k' k : S128x128.Idx) = ix2 k' k := fun k' k => by
    funext a; apply Fin.ext
    match a with
    | ⟨0, _⟩ => show win2_2.index t (0 : Fin 2) * 128 + 1 * k'.val = k'.val; rw [e20]; omega
    | ⟨1, _⟩ => show win2_2.index t (1 : Fin 2) * 128 + 1 * k.val = k.val; rw [e21]; omega
  have hb1 : ∀ k : Fin 128, ((cfg2.win 3).blk t).view.emb (ix2 0 k : S1x128.Idx) = ix2 0 k := fun k => by
    funext a; apply Fin.ext
    match a with
    | ⟨0, _⟩ => show win2_3.index t (0 : Fin 2) * 1 + 1 * 0 = 0; rw [e30]
    | ⟨1, _⟩ => show win2_3.index t (1 : Fin 2) * 128 + 1 * k.val = k.val; rw [e31]; omega
  have hw2 : ∀ k : Fin 128, ((cfg2.win 4).blk t).view.emb (ix2 k j : S128x128.Idx) = ix2 k j := fun k => by
    funext a; apply Fin.ext
    match a with
    | ⟨0, _⟩ => show win2_4.index t (0 : Fin 2) * 128 + 1 * k.val = k.val; rw [e40]; omega
    | ⟨1, _⟩ => show win2_4.index t (1 : Fin 2) * 128 + 1 * j.val = j.val; rw [e41]; omega
  have hb2 : ((cfg2.win 5).blk t).view.emb (ix2 0 j : S1x128.Idx) = ix2 0 j := by
    funext a; apply Fin.ext
    match a with
    | ⟨0, _⟩ => show win2_5.index t (0 : Fin 2) * 1 + 1 * 0 = 0; rw [e50]
    | ⟨1, _⟩ => show win2_5.index t (1 : Fin 2) * 128 + 1 * j.val = j.val; rw [e51]; omega
  exact pre_blk (V c main_v33) (V c main_v43) (V c main_v44) (V c main_v46) (V c main_v45) (V c main_v47)
    (ix2 ⟨t.val * 4000 + r.val, hr⟩ j)
    (fun k' => ((cfg2.win 0).blk t).view.emb (ix2 r k' : S4000x128.Idx)) (fun k' => ((cfg2.win 1).blk t).view.emb (ix2 r k' : S4000x128.Idx))
    (fun k' k => ((cfg2.win 2).blk t).view.emb (ix2 k' k : S128x128.Idx)) (fun k => ((cfg2.win 3).blk t).view.emb (ix2 0 k : S1x128.Idx))
    (fun k => ((cfg2.win 4).blk t).view.emb (ix2 k j : S128x128.Idx)) (((cfg2.win 5).blk t).view.emb (ix2 0 j : S1x128.Idx))
    hX hA hw1 hb1 hw2 hb2

/-- What point t writes back of the result is the layer's block of the arrays found. -/
theorem flushed6_eq (c : Dev nD) (t : Fin cfg2.N) :
    (dat2 V c).flushed 6 t = ((cfg2.win 6).blk t).view.read (Elt Ideal) (preArr (V c main_v33) (V c main_v43) (V c main_v44) (V c main_v46) (V c main_v45) (V c main_v47)) := by
  show (cfg2.win 6).cut (grid2.coords t) ((dat2 V c).after 6 t) = _
  rw [after2_6, outsAt_eq V c t.val t.isLt]
  funext y
  obtain ⟨r, j, rfl⟩ : ∃ (r : Fin 4000) (j : Fin 128), y = ix2 r j := ⟨y 0, y 1, eq_ix2 y⟩
  have hN : cfg2.N = 25 := N_2
  have hr : t.val * 4000 + r.val < 100000 := by have := t.isLt; have := r.isLt; omega
  obtain ⟨e00, e01, e10, e11, e20, e21, e30, e31, e40, e41, e50, e51, e60, e61, _⟩ := idx_facts t
  have h6 : ((cfg2.win 6).blk t).view.emb (ix2 r j : S4000x128.Idx) = ix2 ⟨t.val * 4000 + r.val, hr⟩ j := by
    funext a; apply Fin.ext
    match a with
    | ⟨0, _⟩ => show win2_6.index t (0 : Fin 2) * 4000 + 1 * r.val = t.val * 4000 + r.val; rw [e60]; omega
    | ⟨1, _⟩ => show win2_6.index t (1 : Fin 2) * 128 + 1 * j.val = j.val; rw [e61]; omega
  exact (blkPre_at V c t r j hr).trans (congrArg (preArr (V c main_v33) (V c main_v43) (V c main_v44) (V c main_v46) (V c main_v45) (V c main_v47)) h6.symm)

theorem mem_blk6 (t : Fin cfg2.N) (i : S100000x128.Idx) :
    i ∈ ((cfg2.win 6).blk t).view.set ↔ ∀ a : Fin 2, win2_6.index t a * S4000x128.size a ≤ (i a).val ∧ (i a).val < win2_6.index t a * S4000x128.size a + S4000x128.size a := by
  show i ∈ ((View.whole main_v48_0).slice (win2_6.rect t)).set ↔ _
  rw [View.set_slice_whole, Rect.mem_set_unit]
  exact Iff.rfl

/-- After the region the result array is the layer of the six arrays the region found. -/
theorem final6 (c : Dev nD) : (dat2 V c).arrAt 6 cfg2.N = (preArr (V c main_v33) (V c main_v43) (V c main_v44) (V c main_v46) (V c main_v45) (V c main_v47)) :=
  (dat2 V c).arrAt_eq_of_cover 6 _ (fun t _ => flushed6_eq V c t) fun i => by
    have hi0 : (i 0).val < 100000 := (i 0).isLt
    have hi1 : (i 1).val < 128 := (i 1).isLt
    have hN : cfg2.N = 25 := N_2
    refine ⟨⟨(i 0).val / 4000, by omega⟩, flush2_6 _, ?_⟩
    rw [mem_blk6]
    obtain ⟨e00, e01, e10, e11, e20, e21, e30, e31, e40, e41, e50, e51, e60, e61, _⟩ := idx_facts ⟨(i 0).val / 4000, by omega⟩
    intro a
    match a with
    | ⟨0, _⟩ => show win2_6.index _ (0 : Fin 2) * 4000 ≤ (i 0).val ∧ (i 0).val < win2_6.index _ (0 : Fin 2) * 4000 + 4000; rw [e60]; dsimp only; omega
    | ⟨1, _⟩ => show win2_6.index _ (1 : Fin 2) * 128 ≤ (i 1).val ∧ (i 1).val < win2_6.index _ (1 : Fin 2) * 128 + 128; rw [e61]; omega

/-- Column j of the layer on the arrays found, along the naturals (zero past the last row). -/
def gP (c : Dev nD) (j : Fin 128) : ℕ → EReal :=
  fun i => if h : i < 100000 then (preArr (V c main_v33) (V c main_v43) (V c main_v44) (V c main_v46) (V c main_v45) (V c main_v47)) (ix2 ⟨i, h⟩ j) else 0

theorem blk_g (c : Dev nD) (t : Fin cfg2.N) (r : Fin 4000) (j : Fin 128) :
    blkPre V c t (ix2 r j) = gP V c j (t.val * 4000 + r.val) := by
  have hN : cfg2.N = 25 := N_2
  have hr : t.val * 4000 + r.val < 100000 := by have := t.isLt; have := r.isLt; omega
  rw [blkPre_at V c t r j hr]
  unfold gP
  rw [dif_pos hr]

/-- The first running row after point n, at column j: the entries of the rows so far, block by block. -/
theorem acc7_at (c : Dev nD) (j : Fin 128) : ∀ (n : ℕ) (h : n < cfg2.N),
    (chain V c n h).1 (ix2 0 j) = ∑ s ∈ Finset.range (n + 1), ∑ r : Fin 4000, gP V c j (s * 4000 + r.val)
  | 0, h => by
    show k2_pay5 (iblk2 V c 0 ⟨0, h⟩) (iblk2 V c 1 ⟨0, h⟩) (iblk2 V c 2 ⟨0, h⟩) (iblk2 V c 3 ⟨0, h⟩) (iblk2 V c 4 ⟨0, h⟩) (iblk2 V c 5 ⟨0, h⟩) (k2_pay2 (F := Ideal)) (ix2 0 j) = _
    rw [PayAt2.pay5_at, PayAt2.pay2_at, zero_add, Finset.sum_range_one]
    exact Finset.sum_congr rfl fun r _ => blk_g V c ⟨0, h⟩ r j
  | n + 1, h => by
    show k2_pay5 (iblk2 V c 0 ⟨n + 1, h⟩) (iblk2 V c 1 ⟨n + 1, h⟩) (iblk2 V c 2 ⟨n + 1, h⟩) (iblk2 V c 3 ⟨n + 1, h⟩) (iblk2 V c 4 ⟨n + 1, h⟩) (iblk2 V c 5 ⟨n + 1, h⟩) (chain V c n (Nat.lt_of_succ_lt h)).1 (ix2 0 j) = _
    rw [PayAt2.pay5_at, acc7_at c j n, Finset.sum_range_succ _ (n + 1)]
    exact congrArg _ (Finset.sum_congr rfl fun r _ => blk_g V c ⟨n + 1, h⟩ r j)

/-- The second running row after point n, at column j: the squares of the entries of the rows so far. -/
theorem acc8_at (c : Dev nD) (j : Fin 128) : ∀ (n : ℕ) (h : n < cfg2.N),
    (chain V c n h).2 (ix2 0 j)
      = ∑ s ∈ Finset.range (n + 1), ∑ r : Fin 4000, gP V c j (s * 4000 + r.val) * gP V c j (s * 4000 + r.val)
  | 0, h => by
    show k2_pay1 (F := Ideal) (blkPre V c ⟨0, h⟩) (k2_pay3 (F := Ideal)) (ix2 0 j) = _
    rw [PayAt2.pay1_at, PayAt2.pay3_at, zero_add, Finset.sum_range_one]
    exact Finset.sum_congr rfl fun r _ => by rw [blk_g V c ⟨0, h⟩ r j]
  | n + 1, h => by
    show k2_pay1 (F := Ideal) (blkPre V c ⟨n + 1, h⟩) (chain V c n (Nat.lt_of_succ_lt h)).2 (ix2 0 j) = _
    rw [PayAt2.pay1_at, acc8_at c j n, Finset.sum_range_succ _ (n + 1)]
    exact congrArg _ (Finset.sum_congr rfl fun r _ => by rw [blk_g V c ⟨n + 1, h⟩ r j])

/-- After the last point the first running row holds the column sums. -/
theorem total7 (c : Dev nD) (j : Fin 128) (t : Fin cfg2.N) (h24 : t.val = 24) :
    (chain V c t.val t.isLt).1 (ix2 0 j) = colSum (preArr (V c main_v33) (V c main_v43) (V c main_v44) (V c main_v46) (V c main_v45) (V c main_v47)) (ix2 0 j) := by
  obtain ⟨n, hn⟩ := t
  dsimp only at h24
  subst h24
  refine (acc7_at V c j 24 hn).trans ((Cert.Laws.sum_blocks_nat (gP V c j)).trans ?_)
  exact Finset.sum_congr rfl fun i _ => dif_pos i.isLt

/-- After the last point the second running row holds the column sums of the squares. -/
theorem total8 (c : Dev nD) (j : Fin 128) (t : Fin cfg2.N) (h24 : t.val = 24) :
    (chain V c t.val t.isLt).2 (ix2 0 j) = colSumSq (preArr (V c main_v33) (V c main_v43) (V c main_v44) (V c main_v46) (V c main_v45) (V c main_v47)) (ix2 0 j) := by
  obtain ⟨n, hn⟩ := t
  dsimp only at h24
  subst h24
  refine (acc8_at V c j 24 hn).trans ((Cert.Laws.sum_blocks_nat fun i => gP V c j i * gP V c j i).trans ?_)
  exact Finset.sum_congr rfl fun i _ => by
    show gP V c j i.val * gP V c j i.val = _
    unfold gP
    rw [dif_pos i.isLt]

/-- The one write-back of running row one, after the last point, writes the column sums. -/
theorem flushed7_eq (c : Dev nD) (t : Fin cfg2.N) (hf : (cfg2.win 7).flush t = true) :
    (dat2 V c).flushed 7 t = ((cfg2.win 7).blk t).view.read (Elt Ideal) (colSum (preArr (V c main_v33) (V c main_v43) (V c main_v44) (V c main_v46) (V c main_v45) (V c main_v47))) := by
  have hN : cfg2.N = 25 := N_2
  have h24 : t.val = 24 := by have := (flush2_7 t).mp hf; have := t.isLt; omega
  show (cfg2.win 7).cut (grid2.coords t) ((dat2 V c).after 7 t) = _
  rw [after2_7, outsAt_eq V c t.val t.isLt]
  funext y
  obtain ⟨r0, j, rfl⟩ : ∃ (r0 : Fin 1) (j : Fin 128), y = ix2 r0 j := ⟨y 0, y 1, eq_ix2 y⟩
  obtain rfl : r0 = 0 := Subsingleton.elim _ _
  obtain ⟨e00, e01, e10, e11, e20, e21, e30, e31, e40, e41, e50, e51, e60, e61, e70, e71, e80, e81⟩ := idx_facts t
  have h : ((cfg2.win 7).blk t).view.emb (ix2 0 j : S1x128.Idx) = ix2 0 j := by
    funext a; apply Fin.ext
    match a with
    | ⟨0, _⟩ => show win2_7.index t (0 : Fin 2) * 1 + 1 * 0 = 0; rw [e70]
    | ⟨1, _⟩ => show win2_7.index t (1 : Fin 2) * 128 + 1 * j.val = j.val; rw [e71]; omega
  have key := total7 V c j t h24
  generalize colSum (preArr (V c main_v33) (V c main_v43) (V c main_v44) (V c main_v46) (V c main_v45) (V c main_v47)) = G at key ⊢
  exact key.trans (congrArg G h.symm)

theorem mem_blk7 (t : Fin cfg2.N) (i : S1x128.Idx) :
    i ∈ ((cfg2.win 7).blk t).view.set ↔ ∀ a : Fin 2, win2_7.index t a * S1x128.size a ≤ (i a).val ∧ (i a).val < win2_7.index t a * S1x128.size a + S1x128.size a := by
  show i ∈ ((View.whole main_v48_1).slice (win2_7.rect t)).set ↔ _
  rw [View.set_slice_whole, Rect.mem_set_unit]
  exact Iff.rfl

/-- After the region the first row array holds the column sums of the layer of the six arrays the region found. -/
theorem final7 (c : Dev nD) : (dat2 V c).arrAt 7 cfg2.N = colSum (preArr (V c main_v33) (V c main_v43) (V c main_v44) (V c main_v46) (V c main_v45) (V c main_v47)) :=
  (dat2 V c).arrAt_eq_of_cover 7 _ (fun t hf => flushed7_eq V c t hf) fun i => by
    have hi0 : (i 0).val < 1 := (i 0).isLt
    have hi1 : (i 1).val < 128 := (i 1).isLt
    have hN : cfg2.N = 25 := N_2
    refine ⟨⟨24, by omega⟩, (flush2_7 _).mpr rfl, ?_⟩
    rw [mem_blk7]
    obtain ⟨e00, e01, e10, e11, e20, e21, e30, e31, e40, e41, e50, e51, e60, e61, e70, e71, e80, e81⟩ := idx_facts ⟨24, by omega⟩
    intro a
    match a with
    | ⟨0, _⟩ => show win2_7.index _ (0 : Fin 2) * 1 ≤ (i 0).val ∧ (i 0).val < win2_7.index _ (0 : Fin 2) * 1 + 1; rw [e70]; omega
    | ⟨1, _⟩ => show win2_7.index _ (1 : Fin 2) * 128 ≤ (i 1).val ∧ (i 1).val < win2_7.index _ (1 : Fin 2) * 128 + 128; rw [e71]; omega

/-- The one write-back of running row two, after the last point, writes the column sums of the squares. -/
theorem flushed8_eq (c : Dev nD) (t : Fin cfg2.N) (hf : (cfg2.win 8).flush t = true) :
    (dat2 V c).flushed 8 t = ((cfg2.win 8).blk t).view.read (Elt Ideal) (colSumSq (preArr (V c main_v33) (V c main_v43) (V c main_v44) (V c main_v46) (V c main_v45) (V c main_v47))) := by
  have hN : cfg2.N = 25 := N_2
  have h24 : t.val = 24 := by have := (flush2_8 t).mp hf; have := t.isLt; omega
  show (cfg2.win 8).cut (grid2.coords t) ((dat2 V c).after 8 t) = _
  rw [after2_8, outsAt_eq V c t.val t.isLt]
  funext y
  obtain ⟨r0, j, rfl⟩ : ∃ (r0 : Fin 1) (j : Fin 128), y = ix2 r0 j := ⟨y 0, y 1, eq_ix2 y⟩
  obtain rfl : r0 = 0 := Subsingleton.elim _ _
  obtain ⟨e00, e01, e10, e11, e20, e21, e30, e31, e40, e41, e50, e51, e60, e61, e70, e71, e80, e81⟩ := idx_facts t
  have h : ((cfg2.win 8).blk t).view.emb (ix2 0 j : S1x128.Idx) = ix2 0 j := by
    funext a; apply Fin.ext
    match a with
    | ⟨0, _⟩ => show win2_8.index t (0 : Fin 2) * 1 + 1 * 0 = 0; rw [e80]
    | ⟨1, _⟩ => show win2_8.index t (1 : Fin 2) * 128 + 1 * j.val = j.val; rw [e81]; omega
  have key := total8 V c j t h24
  generalize colSumSq (preArr (V c main_v33) (V c main_v43) (V c main_v44) (V c main_v46) (V c main_v45) (V c main_v47)) = G at key ⊢
  exact key.trans (congrArg G h.symm)

theorem mem_blk8 (t : Fin cfg2.N) (i : S1x128.Idx) :
    i ∈ ((cfg2.win 8).blk t).view.set ↔ ∀ a : Fin 2, win2_8.index t a * S1x128.size a ≤ (i a).val ∧ (i a).val < win2_8.index t a * S1x128.size a + S1x128.size a := by
  show i ∈ ((View.whole main_v48_2).slice (win2_8.rect t)).set ↔ _
  rw [View.set_slice_whole, Rect.mem_set_unit]
  exact Iff.rfl

/-- After the region the second row array holds the column sums of the squares of the layer of the six arrays the region found. -/
theorem final8 (c : Dev nD) : (dat2 V c).arrAt 8 cfg2.N = colSumSq (preArr (V c main_v33) (V c main_v43) (V c main_v44) (V c main_v46) (V c main_v45) (V c main_v47)) :=
  (dat2 V c).arrAt_eq_of_cover 8 _ (fun t hf => flushed8_eq V c t hf) fun i => by
    have hi0 : (i 0).val < 1 := (i 0).isLt
    have hi1 : (i 1).val < 128 := (i 1).isLt
    have hN : cfg2.N = 25 := N_2
    refine ⟨⟨24, by omega⟩, (flush2_8 _).mpr rfl, ?_⟩
    rw [mem_blk8]
    obtain ⟨e00, e01, e10, e11, e20, e21, e30, e31, e40, e41, e50, e51, e60, e61, e70, e71, e80, e81⟩ := idx_facts ⟨24, by omega⟩
    intro a
    match a with
    | ⟨0, _⟩ => show win2_8.index _ (0 : Fin 2) * 1 ≤ (i 0).val ∧ (i 0).val < win2_8.index _ (0 : Fin 2) * 1 + 1; rw [e80]; omega
    | ⟨1, _⟩ => show win2_8.index _ (1 : Fin 2) * 128 ≤ (i 1).val ∧ (i 1).val < win2_8.index _ (1 : Fin 2) * 128 + 128; rw [e81]; omega

end Cert.KernelIdeal.Region2
end
-- ==== Proof.Region3.lean ====
/-
  The second normalisation layer as a whole-array function.

  Each of the 25 grid points reads rows 4000·t … 4000·t + 3999 of the input array and the two 1 × 128 rows
  (scale and shift), and writes the same rows of the output: entry (i, j) becomes max (h i j · s j + d j) 0.
  The 25 blocks cover the output array, so after the region it is that function of the arrays found.
-/
import proofs.«148986_j16054587752866_1_alg».proof.Proof.Gen.KernelIdeal.Frame
import Idealize.ShloMosaic.Lib.Pipeline.Value
import Idealize.ShloMosaic.Lib.Tactic
import proofs.«148986_j16054587752866_1_alg».proof.Proof.Pay2
import proofs.«148986_j16054587752866_1_alg».proof.Proof.Region1
import Idealize.ShloMosaic.Lib.ValueIdx
set_option maxRecDepth 16384

noncomputable section

open Idealize.ShloMosaic Idealize.ShloMosaic.TcCoe Idealize.SL.Sem
open Idealize.ShloMosaic.Pipeline (Dat)

namespace Cert.KernelIdeal.Region3

open Cert.KernelIdeal Cert.KernelIdeal.Gen Cert.KernelIdeal.Region1

open Idealize.ShloMosaic.ValueIdx

variable (V : (c : Dev nD) → (b : Ref sig .tc) → Buf (Elt Ideal) ((c : Thread nD τ).loc b))

theorem bn_fun (h : FVec Ideal S4000x128 .f32) (s d : FVec Ideal S1x128 .f32) :
    k3_pay1 h s d = fun y => max (h y * s (ix2 0 (y 1)) + d (ix2 0 (y 1))) 0 := by
  funext y
  obtain ⟨r, j, rfl⟩ : ∃ (r : Fin 4000) (j : Fin 128), y = ix2 r j := ⟨y 0, y 1, eq_ix2 y⟩
  exact PayAt2.bn_at h s d r j

theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem flushed_eq (c : Dev nD) (t : Fin cfg3.N) :
    (dat3 V c).flushed 3 t = ((cfg3.win 3).blk t).view.read (Elt Ideal) (bnArr (V c main_v48_0) (V c main_v59) (V c main_v62)) := by
  show (cfg3.win 3).cut (grid3.coords t) ((dat3 V c).after 3 t) = _
  rw [after3_3]
  unfold out3_3
  rw [View.canon_unit_zero hz]
  simp only [View.ld_unit_zero (S := S4000x128) hz, View.ld_unit_zero (S := S1x128) hz]
  rw [bn_fun (iblk3 V c 0 t) (iblk3 V c 1 t) (iblk3 V c 2 t)]
  funext y
  obtain ⟨e0, e1, e2, e3, e4, e5, e6, e7⟩ := idx_facts t
  have h0 : ((cfg3.win 0).blk t).view.emb y = ((cfg3.win 3).blk t).view.emb y := by
    funext a; apply Fin.ext
    match a with
    | ⟨0, _⟩ => show win3_0.index t (0 : Fin 2) * 4000 + 1 * (y 0).val = win3_3.index t (0 : Fin 2) * 4000 + 1 * (y 0).val; omega
    | ⟨1, _⟩ => show win3_0.index t (1 : Fin 2) * 128 + 1 * (y 1).val = win3_3.index t (1 : Fin 2) * 128 + 1 * (y 1).val; omega
  have h1 : ((cfg3.win 1).blk t).view.emb (ix2 0 (y 1)) = ix2 0 ((((cfg3.win 3).blk t).view.emb y) 1) := by
    funext a; apply Fin.ext
    match a with
    | ⟨0, _⟩ => show win3_1.index t (0 : Fin 2) * 1 + 1 * 0 = 0; omega
    | ⟨1, _⟩ => show win3_1.index t (1 : Fin 2) * 128 + 1 * (y 1).val = win3_3.index t (1 : Fin 2) * 128 + 1 * (y 1).val; omega
  have h2 : ((cfg3.win 2).blk t).view.emb (ix2 0 (y 1)) = ix2 0 ((((cfg3.win 3).blk t).view.emb y) 1) := by
    funext a; apply Fin.ext
    match a with
    | ⟨0, _⟩ => show win3_2.index t (0 : Fin 2) * 1 + 1 * 0 = 0; omega
    | ⟨1, _⟩ => show win3_2.index t (1 : Fin 2) * 128 + 1 * (y 1).val = win3_3.index t (1 : Fin 2) * 128 + 1 * (y 1).val; omega
  exact bn_blk (V c main_v48_0) (V c main_v59) (V c main_v62) (((cfg3.win 0).blk t).view.emb y) (((cfg3.win 3).blk t).view.emb y)
    (((cfg3.win 1).blk t).view.emb (ix2 0 (y 1))) (((cfg3.win 2).blk t).view.emb (ix2 0 (y 1))) h0 h1 h2

theorem mem_blk (t : Fin cfg3.N) (i : S100000x128.Idx) :
    i ∈ ((cfg3.win 3).blk t).view.set ↔ ∀ a : Fin 2, win3_3.index t a * S4000x128.size a ≤ (i a).val ∧ (i a).val < win3_3.index t a * S4000x128.size a + S4000x128.size a := by
  show i ∈ ((View.whole main_v63).slice (win3_3.rect t)).set ↔ _
  rw [View.set_slice_whole, Rect.mem_set_unit]
  exact Iff.rfl

/-- After the region the output array is the normalisation layer of the three arrays the region found. -/
theorem final (c : Dev nD) : (dat3 V c).arrAt 3 cfg3.N = bnArr (V c main_v48_0) (V c main_v59) (V c main_v62) :=
  (dat3 V c).arrAt_eq_of_cover 3 _ (fun t _ => flushed_eq V c t) fun i => by
    have hi0 : (i 0).val < 100000 := (i 0).isLt
    have hi1 : (i 1).val < 128 := (i 1).isLt
    have hN : cfg3.N = 25 := N_3
    refine ⟨⟨(i 0).val / 4000, by omega⟩, flush3_3 _, ?_⟩
    rw [mem_blk]
    obtain ⟨e0, e1, e2, e3, e4, e5, e6, e7⟩ := idx_facts ⟨(i 0).val / 4000, by omega⟩
    intro a
    match a with
    | ⟨0, _⟩ => show win3_3.index _ (0 : Fin 2) * 4000 ≤ (i 0).val ∧ (i 0).val < win3_3.index _ (0 : Fin 2) * 4000 + 4000; rw [e6]; dsimp only; omega
    | ⟨1, _⟩ => show win3_3.index _ (1 : Fin 2) * 128 ≤ (i 1).val ∧ (i 1).val < win3_3.index _ (1 : Fin 2) * 128 + 128; rw [e7]; omega

end Cert.KernelIdeal.Region3
end
-- ==== Proof.KLayer2.lean ====
/-
  The second layer of the kernel program.

  The third and fourth regions repeat the first two on the first layer's result H1: the host operations
  aggregate H1 over the edges and place the second layer's weights; the third region writes the layer before
  normalisation with its column sums; the fourth applies the scale and shift computed from them.  H1 is real
  entry by entry, so the same law makes the result the reference's second normalised layer H2.
-/
import proofs.«148986_j16054587752866_1_alg».proof.Proof.KLayer1
import proofs.«148986_j16054587752866_1_alg».proof.Proof.Region2
import proofs.«148986_j16054587752866_1_alg».proof.Proof.Region3

set_option maxRecDepth 16384

noncomputable section

open Idealize.ShloMosaic Idealize.ShloMosaic.TcCoe Idealize.SL.Sem Idealize.ShloMosaic.ValueIdx

namespace Cert.KLayer2

open Cert.KernelIdeal Cert.KernelIdeal.Gen Cert.KernelIdeal.HostVals Cert.Laws

variable (m : (ℓ : Loc nD τ sig) → Buf (Elt Ideal) ℓ) (ρ : Dev nD → PrngReg) (c : Dev nD)

/-- The second layer before normalisation, in the reference's operations. -/
abbrev P2 : S100000x128.Idx → EReal := Cert.RefSide.preOf (Cert.Layers.H1 m c) (Cert.RefSide.aggOf (Cert.Layers.H1 m c) (m ((c : Thread nD τ).loc main_arg15))) (m ((c : Thread nD τ).loc main_arg7)) (m ((c : Thread nD τ).loc main_arg8)) (m ((c : Thread nD τ).loc main_arg9)) (m ((c : Thread nD τ).loc main_arg10))

/-- What the third region computes from its windows is that array. -/
theorem preArr_eq (hpre : Cert.Pre_KernelIdeal (hPre_finite_inputs := Cert.Pre_finite_inputs.Gen.facts) m) :
    Cert.Spec.preArr (V5 m ρ c main_v33) (V5 m ρ c main_v43) (V5 m ρ c main_v44) (V5 m ρ c main_v46) (V5 m ρ c main_v45) (V5 m ρ c main_v47) = P2 m c := by
  have e0 : (V5 m ρ c main_v33 : S100000x128.Idx → EReal) = Cert.Layers.H1 m c := (W5_v33 m ρ c).trans (Cert.KLayer1.layer1 m ρ c hpre)
  have e13 : (V5 m ρ c main_v43 : S100000x128.Idx → EReal) = Cert.RefSide.aggOf (Cert.Layers.H1 m c) (m ((c : Thread nD τ).loc main_arg15)) := by
    refine (W5_v43 m ρ c).trans ?_
    rw [Cert.KLayer1.layer1 m ρ c hpre]
    exact Cert.Glue.aggK_eq _ _
  rw [e0, e13]
  exact Cert.LayerLaw.pre_eq _ _ _ _ _ _ _ _ _ _ (fun i => congrFun (W5_v44 m ρ c) i) (fun i => congrFun (W5_v45 m ρ c) i)
    (fun j => W5_v46_apply m ρ c j) (fun j => W5_v47_apply m ρ c j)

theorem pre2 (hpre : Cert.Pre_KernelIdeal (hPre_finite_inputs := Cert.Pre_finite_inputs.Gen.facts) m) : (W6 m ρ c (Proc.devRef .tc main_v48_0) : S100000x128.Idx → EReal) = P2 m c :=
  ((hF2 m ρ c 6).symm.trans (Cert.KernelIdeal.Region2.final6 (V5 m ρ) c)).trans (preArr_eq m ρ c hpre)

theorem sum2 (hpre : Cert.Pre_KernelIdeal (hPre_finite_inputs := Cert.Pre_finite_inputs.Gen.facts) m) : (W6 m ρ c (Proc.devRef .tc main_v48_1) : S1x128.Idx → EReal) = Cert.Spec.colSum (P2 m c) :=
  ((hF2 m ρ c 7).symm.trans (Cert.KernelIdeal.Region2.final7 (V5 m ρ) c)).trans (congrArg Cert.Spec.colSum (preArr_eq m ρ c hpre))

theorem sumsq2 (hpre : Cert.Pre_KernelIdeal (hPre_finite_inputs := Cert.Pre_finite_inputs.Gen.facts) m) : (W6 m ρ c (Proc.devRef .tc main_v48_2) : S1x128.Idx → EReal) = Cert.Spec.colSumSq (P2 m c) :=
  ((hF2 m ρ c 8).symm.trans (Cert.KernelIdeal.Region2.final8 (V5 m ρ) c)).trans (congrArg Cert.Spec.colSumSq (preArr_eq m ρ c hpre))

/-- Every entry of that array is real: the first layer's entries and the arguments are. -/
theorem P2_real (hpre : Cert.Pre_KernelIdeal (hPre_finite_inputs := Cert.Pre_finite_inputs.Gen.facts) m) (i : S100000x128.Idx) : IsReal (P2 m c i) := by
  have e : P2 m c = Cert.Spec.preArr (Cert.Layers.H1 m c) (Cert.RefSide.aggOf (Cert.Layers.H1 m c) (m ((c : Thread nD τ).loc main_arg15))) (m ((c : Thread nD τ).loc main_arg7))
      (fun i => (m ((c : Thread nD τ).loc main_arg8)) (ix1 (i 1))) (m ((c : Thread nD τ).loc main_arg9)) (fun i => (m ((c : Thread nD τ).loc main_arg10)) (ix1 (i 1))) :=
    (Cert.LayerLaw.pre_eq _ _ _ _ _ _ _ _ _ _ (fun _ => rfl) (fun _ => rfl) (fun _ => rfl) (fun _ => rfl)).symm
  rw [e]
  exact Cert.LayerLaw.pre_real _ _ _ _ _ _ (Cert.KLayer1.H1_real m c hpre) (Cert.RefSide.aggOf_isReal _ _ (Cert.KLayer1.H1_real m c hpre))
    (Cert.FiniteArgs.arg7_real m hpre c) (fun _ => Cert.FiniteArgs.arg8_real m hpre c _) (Cert.FiniteArgs.arg9_real m hpre c) (fun _ => Cert.FiniteArgs.arg10_real m hpre c _) i

/-- After the fourth region the array is the second normalised layer. -/
theorem layer2 (hpre : Cert.Pre_KernelIdeal (hPre_finite_inputs := Cert.Pre_finite_inputs.Gen.facts) m) :
    (W8 m ρ c (Proc.devRef .tc main_v63) : S100000x128.Idx → EReal) = Cert.Layers.H2 m c := by
  refine ((hF3 m ρ c 3).symm.trans (Cert.KernelIdeal.Region3.final (V7 m ρ) c)).trans ?_
  have eP : (V7 m ρ c main_v48_0 : S100000x128.Idx → EReal) = P2 m c := (W7_v48_0 m ρ c).trans (pre2 m ρ c hpre)
  rw [eP]
  refine (Cert.LayerLaw.bn_eq_norm (P2 m c) (P2_real m c hpre) (m ((c : Thread nD τ).loc main_arg11)) (m ((c : Thread nD τ).loc main_arg12))
    (Cert.FiniteArgs.arg11_real m hpre c) (Cert.FiniteArgs.arg12_real m hpre c) _ _ (fun j => ?_) (fun j => ?_)).trans rfl
  · refine (W7_v59_apply m ρ c j).trans ?_
    rw [sum2 m ρ c hpre, sumsq2 m ρ c hpre]
    rfl
  · refine (W7_v62_apply m ρ c j).trans ?_
    rw [sum2 m ρ c hpre, sumsq2 m ρ c hpre]
    rfl

end Cert.KLayer2
end
-- ==== Proof.Bridge.lean ====
/-
  Over the extended reals, from memories that agree on the arguments, the idealized kernel program's result is the
  reference's composed term.  The kernel's result is the pooled read-out and log-softmax of what the fourth region
  left; that array is the second normalised layer of the argument arrays; the read-out is the same function in both
  programs; and the reference's composed term is the same read-out of the same second layer of its own argument
  arrays, which are the kernel program's.
-/
import proofs.«148986_j16054587752866_1_alg».proof.Defs
import proofs.«148986_j16054587752866_1_alg».proof.Proof.Gen.KernelIdeal.Frame
import proofs.«148986_j16054587752866_1_alg».proof.Proof.Gen.Pre_finite_inputs
import proofs.«148986_j16054587752866_1_alg».proof.Proof.RefRun
import proofs.«148986_j16054587752866_1_alg».proof.Proof.RefSide
import proofs.«148986_j16054587752866_1_alg».proof.Proof.Layers
import proofs.«148986_j16054587752866_1_alg».proof.Proof.KLayer2
import proofs.«148986_j16054587752866_1_alg».proof.Proof.HostVals
import proofs.«148986_j16054587752866_1_alg».proof.Proof.Glue

noncomputable section

namespace Cert.Bridge

open Idealize.ShloMosaic Idealize.SL.Sem

theorem result_eq
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m)
    (hagree : (∀ c : Dev Cert.KernelIdeal.nD,
        m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)))
    (c : Dev Cert.KernelIdeal.nD) :
    Cert.KernelIdeal.Gen.W10 m ρ c (Proc.devRef .tc Cert.KernelIdeal.main_v80)
      = Cert.ReferenceIdeal.ValueP.res_main_v116 (F := Ideal) m' c := by
  obtain ⟨e0, e1, e2, e3, e4, e5, e6, e7, e8, e9, e10, e11, e12, e13, e14, e15, e16⟩ := hagree c
  -- the reference's second layer of its own arguments is the second layer of the kernel program's arguments
  have hH : Cert.RefSide.hidden2 m' c = Cert.Layers.H2 m c := by
    unfold Cert.RefSide.hidden2 Cert.RefSide.hidden1 Cert.Layers.H2 Cert.Layers.H1
    rw [e0, e1, e2, e3, e4, e5, e6, e7, e8, e9, e10, e11, e12, e15]
  refine (Cert.KernelIdeal.HostVals.W10_v80 m ρ c).trans ?_
  rw [Cert.KLayer2.layer2 m ρ c hpre, Cert.Glue.tailK_eq]
  refine Eq.trans ?_ (Cert.RefSide.res_eq m' c).symm
  rw [hH, e16, e13, e14]

end Cert.Bridge

end
-- ==== Proof.lean ====
/-
  The five claims of this certificate, assembled.

  1. The compiled program, at the machine's floats, from any memory with zero counters: every weakly fair run
     terminates, nothing faulting, and leaves the seventeen argument arrays as launched.  This is the frame theorem of
     its ten segments (host stretches alternating with four pipelined regions).
  2. The same for the idealized program over the extended reals: the frame theorem of its ten segments.
  3. The same for the reference: its run is the sequence of its operations, each result at the operations' composed
     term of the arguments; forgetting the result leaves the frame statement.
  4. The idealization rewrote no operation, so what it must preserve is the trivial proposition.
  5. Over the extended reals, from a launch memory of the idealized program whose arguments are all finite and a launch
     memory of the reference that agrees with it on the arguments, both programs run, end with equal results and leave
     their arguments as launched.  The common result is named as the idealized program's final contents at the
     result's reference: the fold of the ten segments' contents from the launch memory.  The idealized program ends
     there by the same launch as its frame theorem, the result buffer kept.  The reference ends at its composed term,
     and the two arrays are equal (`Cert.Bridge.result_eq`), which is where the finiteness of the arguments and the
     agreement of the two memories are used.

  The witnesses of the programs' stated facts come first.
-/
import proofs.«148986_j16054587752866_1_alg».proof.Defs
import proofs.«148986_j16054587752866_1_alg».proof.Proof.Gen.Kernel
import proofs.«148986_j16054587752866_1_alg».proof.Proof.Gen.Kernel.Skeleton
import proofs.«148986_j16054587752866_1_alg».proof.Proof.Gen.Kernel.Launch
import proofs.«148986_j16054587752866_1_alg».proof.Proof.Gen.Kernel.Points
import proofs.«148986_j16054587752866_1_alg».proof.Proof.Gen.Kernel.Frame
import proofs.«148986_j16054587752866_1_alg».proof.Proof.Gen.KernelIdeal
import proofs.«148986_j16054587752866_1_alg».proof.Proof.Gen.KernelIdeal.Skeleton
import proofs.«148986_j16054587752866_1_alg».proof.Proof.Gen.KernelIdeal.Launch
import proofs.«148986_j16054587752866_1_alg».proof.Proof.Gen.KernelIdeal.Points
import proofs.«148986_j16054587752866_1_alg».proof.Proof.Gen.KernelIdeal.Frame
import proofs.«148986_j16054587752866_1_alg».proof.Proof.Gen.ReferenceIdeal
import proofs.«148986_j16054587752866_1_alg».proof.Proof.Gen.Pre_finite_inputs
import proofs.«148986_j16054587752866_1_alg».proof.Proof.RefRun
import proofs.«148986_j16054587752866_1_alg».proof.Proof.KernelRun
import proofs.«148986_j16054587752866_1_alg».proof.Proof.Bridge
import Idealize.ShloMosaic.Adequacy
import Idealize.ShloMosaic.Init

noncomputable section

namespace Cert.Proof

open Idealize.ShloMosaic Idealize.SL.Sem

/-- The compiled program runs and leaves its arguments as launched. -/
theorem frame_K : Cert.frame_Kernel := fun m ρ _ => Cert.Kernel.Gen.frame m ρ

/-- The idealized program runs and leaves its arguments as launched. -/
theorem frame_KI : Cert.frame_KernelIdeal := fun m ρ _ => Cert.KernelIdeal.Gen.frame m ρ

/-- The reference runs and leaves its arguments as launched: its run with the result named, the result forgotten. -/
theorem frame_RI : Cert.frame_ReferenceIdeal := fun m ρ _ =>
  (θ_run Cert.ReferenceIdeal.defs _ _).mono (fun _ h c => (h c).2) (Cert.ReferenceIdeal.ValueP.run (F := Ideal) m ρ)

/-- Over the extended reals, from memories that agree on the arguments, the idealized program's result buffer ends at
    the fold of its ten segments read at the result's reference, the reference's at its operations' composed term,
    and the two are one array (`Cert.Bridge.result_eq`); each run leaves its own arguments as launched. -/
theorem algebraic : Cert.algebraic_KernelIdeal_ReferenceIdeal := by
  intro m ρ m' ρ' hpre hagree
  refine ⟨fun c => Cert.KernelIdeal.Gen.W10 m ρ c (Proc.devRef .tc Cert.KernelIdeal.main_v80),
    Cert.KernelIdeal.RunValue.run_value (F := Ideal) m ρ, ?_⟩
  exact (θ_run Cert.ReferenceIdeal.defs _ _).mono
    (fun _ h c => ⟨(h c).1.trans (Cert.Bridge.result_eq m ρ m' hpre hagree c).symm, (h c).2⟩)
    (Cert.ReferenceIdeal.ValueP.run (F := Ideal) m' ρ')

theorem claim : Cert.Claim :=
  ⟨Cert.Kernel.Gen.facts, Cert.KernelIdeal.Gen.facts, Cert.ReferenceIdeal.Gen.facts, Cert.Pre_finite_inputs.Gen.facts,
    frame_K, frame_KI, frame_RI, trivial, algebraic⟩

end Cert.Proof

end
